-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x64 : Shape := ⟨2, ![100000, 64]⟩
abbrev S1600000x64 : Shape := ⟨2, ![1600000, 64]⟩
abbrev S100000 : Shape := ⟨1, ![100000]⟩
abbrev S1600000 : Shape := ⟨1, ![1600000]⟩
abbrev S128x128 : Shape := ⟨2, ![128, 128]⟩
abbrev S128 : Shape := ⟨1, ![128]⟩
abbrev S192x128 : Shape := ⟨2, ![192, 128]⟩
abbrev S64x128 : Shape := ⟨2, ![64, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S1600000x64 : S_.BroadcastsInDim S1600000x64 (![] : Fin 0 → Fin S1600000x64.rank)
  reducesTo_S1600000x64_S_d0_1 : S1600000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S192x128 : S_.BroadcastsInDim S192x128 (![] : Fin 0 → Fin S192x128.rank)
  reducesTo_S192x128_S_d0_1 : S192x128.ReducesTo [0, 1] S_
  bcast_S_S64x128 : S_.BroadcastsInDim S64x128 (![] : Fin 0 → Fin S64x128.rank)
  reducesTo_S64x128_S_d0_1 : S64x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg17 : FVec F S128 .f32) (main_arg18 : FVec F S64x128 .f32) (main_arg19 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg17
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S64x128 .f32 := Host.absf main_arg18
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S128 .f32 := Host.absf main_arg19
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg13 : FVec F S128 .f32) (main_arg14 : FVec F S192x128 .f32) (main_arg15 : FVec F S128 .f32) (main_arg16 : FVec F S128 .f32) (main_arg17 : FVec F S128 .f32) (main_arg18 : FVec F S64x128 .f32) (main_arg19 : FVec F S128 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S192x128 .f32 := Host.absf main_arg14
  let main_cst_14 : FVec F S_ .f32 := constant S_ .f32 0x7F800000#32
  let main_v40 : FVec F S192x128 .f32 := broadcastInDim S192x128 ![] bcast_S_S192x128 main_cst_14
  let main_v41 : IVec S192x128 1 := cmpf .olt main_v39 main_v40
  let main_c_15 : IVec S_ 1 := constantI S_ 1 1#1
  let main_v42 : IVec S_ 1 := (fun x v => Host.reduce IntOp.andi x v reducesTo_S192x128_S_d0_1 h_S_) main_v41 main_c_15
  let main_v43 : IVec S_ 1 := andi main_v38 main_v42
  let main_v44 : FVec F S128 .f32 := Host.absf main_arg15
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg16
  let main_cst_18 : FVec F S_ .f32 := constant S_ .f32 0x7F800000#32
  let main_v50 : FVec F S128 .f32 := broadcastInDim S128 ![] bcast_S_S128 main_cst_18
  fn_part3 (F := F) main_arg17 main_arg18 main_arg19 main_v48 main_v49 main_v50

def fn_part1 {F : FTy → Type} [FloatOps F] (main_arg10 : FVec F S128x128 .f32) (main_arg11 : FVec F S128 .f32) (main_arg12 : FVec F S128x128 .f32) (main_arg13 : FVec F S128 .f32) (main_arg14 : FVec F S192x128 .f32) (main_arg15 : FVec F S128 .f32) (main_arg16 : FVec F S128 .f32) (main_arg17 : FVec F S128 .f32) (main_arg18 : FVec F S64x128 .f32) (main_arg19 : FVec F S128 .f32) (main_v13 : IVec S_ 1) (main_v16 : IVec S1600000x64 1) : IVec S_ 1 :=
  let main_c_5 : IVec S_ 1 := constantI S_ 1 1#1
  let main_v17 : IVec S_ 1 := (fun x v => Host.reduce IntOp.andi x v reducesTo_S1600000x64_S_d0_1 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg11
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg12
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg13 main_arg14 main_arg15 main_arg16 main_arg17 main_arg18 main_arg19 main_v33

def fn {F : FTy → Type} [FloatOps F] (main_arg0 : FVec F S100000x128 .f32) (main_arg1 : FVec F S100000x128 .f32) (main_arg2 : FVec F S100000x64 .f32) (main_arg3 : FVec F S1600000x64 .f32) (main_arg4 : IVec S100000 32) (main_arg5 : IVec S100000 32) (main_arg6 : IVec S1600000 32) (main_arg7 : IVec S1600000 32) (main_arg8 : IVec S1600000 32) (main_arg9 : IVec S1600000 32) (main_arg10 : FVec F S128x128 .f32) (main_arg11 : FVec F S128 .f32) (main_arg12 : FVec F S128x128 .f32) (main_arg13 : FVec F S128 .f32) (main_arg14 : FVec F S192x128 .f32) (main_arg15 : FVec F S128 .f32) (main_arg16 : FVec F S128 .f32) (main_arg17 : FVec F S128 .f32) (main_arg18 : FVec F S64x128 .f32) (main_arg19 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S1600000x64 .f32 := Host.absf main_arg3
  let main_cst_4 : FVec F S_ .f32 := constant S_ .f32 0x7F800000#32
  let main_v15 : FVec F S1600000x64 .f32 := broadcastInDim S1600000x64 ![] bcast_S_S1600000x64 main_cst_4
  let main_v16 : IVec S1600000x64 1 := cmpf .olt main_v14 main_v15
  fn_part1 (F := F) main_arg10 main_arg11 main_arg12 main_arg13 main_arg14 main_arg15 main_arg16 main_arg17 main_arg18 main_arg19 main_v13 main_v16
-- ==== Kernel.lean ====
abbrev S100000x128 : Shape := ⟨2, ![100000, 128]⟩
abbrev S100000x64 : Shape := ⟨2, ![100000, 64]⟩
abbrev S1600000x64 : Shape := ⟨2, ![1600000, 64]⟩
abbrev S100000 : Shape := ⟨1, ![100000]⟩
abbrev S1600000 : Shape := ⟨1, ![1600000]⟩
abbrev S128x128 : Shape := ⟨2, ![128, 128]⟩
abbrev S128 : Shape := ⟨1, ![128]⟩
abbrev S192x128 : Shape := ⟨2, ![192, 128]⟩
abbrev S64x128 : Shape := ⟨2, ![64, 128]⟩
abbrev S_ : Shape := ⟨0, ![]⟩
abbrev S128x256 : Shape := ⟨2, ![128, 256]⟩
abbrev S256 : Shape := ⟨1, ![256]⟩
abbrev S4000x128 : Shape := ⟨2, ![4000, 128]⟩
abbrev S4000x64 : Shape := ⟨2, ![4000, 64]⟩
abbrev S4000x256 : Shape := ⟨2, ![4000, 256]⟩
abbrev S1x256 : Shape := ⟨2, ![1, 256]⟩
abbrev S1x128 : Shape := ⟨2, ![1, 128]⟩
abbrev S4000 : Shape := ⟨1, ![4000]⟩
abbrev S4000x1 : Shape := ⟨2, ![4000, 1]⟩
abbrev S1600000x128 : Shape := ⟨2, ![1600000, 128]⟩
abbrev S8000x64 : Shape := ⟨2, ![8000, 64]⟩
abbrev S8000x128 : Shape := ⟨2, ![8000, 128]⟩
abbrev S100000x1 : Shape := ⟨2, ![100000, 1]⟩
abbrev S1600000x1 : Shape := ⟨2, ![1600000, 1]⟩
abbrev S1x100000x128 : Shape := ⟨3, ![1, 100000, 128]⟩
abbrev S3x100000x128 : Shape := ⟨3, ![3, 100000, 128]⟩

abbrev nBuf : Space → Nat
  | .hbm => 121
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x64, .f32⟩
  | .hbm, ⟨3, _⟩ => ⟨S1600000x64, .f32⟩
  | .hbm, ⟨4, _⟩ => ⟨S100000, .i32⟩
  | .hbm, ⟨5, _⟩ => ⟨S100000, .i32⟩
  | .hbm, ⟨6, _⟩ => ⟨S1600000, .i32⟩
  | .hbm, ⟨7, _⟩ => ⟨S1600000, .i32⟩
  | .hbm, ⟨8, _⟩ => ⟨S1600000, .i32⟩
  | .hbm, ⟨9, _⟩ => ⟨S1600000, .i32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S192x128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S64x128, .f32⟩
  | .hbm, ⟨19, _⟩ => ⟨S128, .f32⟩
  | .hbm, ⟨20, _⟩ => ⟨S_, .f32⟩
  | .hbm, ⟨21, _⟩ => ⟨S128x128, .f32⟩
  | .hbm, ⟨22, _⟩ => ⟨S128x128, .f32⟩
  | .hbm, ⟨23, _⟩ => ⟨S128x256, .f32⟩
  | .hbm, ⟨24, _⟩ => ⟨S128x256, .bf16⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S256, .f32⟩
  | .hbm, ⟨29, _⟩ => ⟨S128x128, .f32⟩
  | .hbm, ⟨30, _⟩ => ⟨S128x128, .bf16⟩
  | .hbm, ⟨31, _⟩ => ⟨S64x128, .f32⟩
  | .hbm, ⟨32, _⟩ => ⟨S64x128, .bf16⟩
  | .hbm, ⟨33, _⟩ => ⟨S_, .f32⟩
  | .hbm, ⟨34, _⟩ => ⟨S64x128, .f32⟩
  | .hbm, ⟨35, _⟩ => ⟨S64x128, .f32⟩
  | .hbm, ⟨36, _⟩ => ⟨S64x128, .bf16⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1600000x128, .f32⟩
  | .hbm, ⟨44, _⟩ => ⟨S_, .i32⟩
  | .hbm, ⟨45, _⟩ => ⟨S100000, .i32⟩
  | .hbm, ⟨46, _⟩ => ⟨S100000, .i1⟩
  | .hbm, ⟨47, _⟩ => ⟨S_, .i32⟩
  | .hbm, ⟨48, _⟩ => ⟨S100000, .i32⟩
  | .hbm, ⟨49, _⟩ => ⟨S100000, .i32⟩
  | .hbm, ⟨50, _⟩ => ⟨S100000, .i32⟩
  | .hbm, ⟨51, _⟩ => ⟨S100000x1, .i32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x1, .i32⟩
  | .hbm, ⟨56, _⟩ => ⟨S100000x128, .f32⟩
  | .hbm, ⟨57, _⟩ => ⟨S_, .f32⟩
  | .hbm, ⟨58, _⟩ => ⟨S100000x1, .f32⟩
  | .hbm, ⟨59, _⟩ => ⟨S_, .f32⟩
  | .hbm, ⟨60, _⟩ => ⟨S100000x1, .f32⟩
  | .hbm, ⟨61, _⟩ => ⟨S100000x1, .i32⟩
  | .hbm, ⟨62, _⟩ => ⟨S100000x1, .f32⟩
  | .hbm, ⟨63, _⟩ => ⟨S_, .f32⟩
  | .hbm, ⟨64, _⟩ => ⟨S100000x1, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S_, .f32⟩
  | .hbm, ⟨83, _⟩ => ⟨S1600000x1, .f32⟩
  | .hbm, ⟨84, _⟩ => ⟨S_, .f32⟩
  | .hbm, ⟨85, _⟩ => ⟨S100000x1, .f32⟩
  | .hbm, ⟨86, _⟩ => ⟨S1600000x1, .i32⟩
  | .hbm, ⟨87, _⟩ => ⟨S100000x1, .f32⟩
  | .hbm, ⟨88, _⟩ => ⟨S_, .f32⟩
  | .hbm, ⟨89, _⟩ => ⟨S100000x1, .f32⟩
  | .hbm, ⟨90, _⟩ => ⟨S100000x1, .f32⟩
  | .hbm, ⟨91, _⟩ => ⟨S100000x128, .f32⟩
  | .hbm, ⟨92, _⟩ => ⟨S100000x128, .f32⟩
  | .hbm, ⟨93, _⟩ => ⟨S_, .i32⟩
  | .hbm, ⟨94, _⟩ => ⟨S1600000, .i32⟩
  | .hbm, ⟨95, _⟩ => ⟨S1600000, .i1⟩
  | .hbm, ⟨96, _⟩ => ⟨S_, .i32⟩
  | .hbm, ⟨97, _⟩ => ⟨S1600000, .i32⟩
  | .hbm, ⟨98, _⟩ => ⟨S1600000, .i32⟩
  | .hbm, ⟨99, _⟩ => ⟨S1600000, .i32⟩
  | .hbm, ⟨100, _⟩ => ⟨S1600000x1, .i32⟩
  | .hbm, ⟨101, _⟩ => ⟨S1600000x128, .f32⟩
  | .hbm, ⟨102, _⟩ => ⟨S_, .f32⟩
  | .hbm, ⟨103, _⟩ => ⟨S100000x128, .f32⟩
  | .hbm, ⟨104, _⟩ => ⟨S1600000x1, .i32⟩
  | .hbm, ⟨105, _⟩ => ⟨S100000x128, .f32⟩
  | .hbm, ⟨106, _⟩ => ⟨S_, .f32⟩
  | .hbm, ⟨107, _⟩ => ⟨S1600000x1, .f32⟩
  | .hbm, ⟨108, _⟩ => ⟨S_, .f32⟩
  | .hbm, ⟨109, _⟩ => ⟨S100000x1, .f32⟩
  | .hbm, ⟨110, _⟩ => ⟨S1600000x1, .i32⟩
  | .hbm, ⟨111, _⟩ => ⟨S100000x1, .f32⟩
  | .hbm, ⟨112, _⟩ => ⟨S_, .f32⟩
  | .hbm, ⟨113, _⟩ => ⟨S100000x1, .f32⟩
  | .hbm, ⟨114, _⟩ => ⟨S100000x1, .f32⟩
  | .hbm, ⟨115, _⟩ => ⟨S100000x128, .f32⟩
  | .hbm, ⟨116, _⟩ => ⟨S100000x128, .f32⟩
  | .hbm, ⟨117, _⟩ => ⟨S1x100000x128, .f32⟩
  | .hbm, ⟨118, _⟩ => ⟨S1x100000x128, .f32⟩
  | .hbm, ⟨119, _⟩ => ⟨S1x100000x128, .f32⟩
  | .hbm, ⟨120, _⟩ => ⟨S3x100000x128, .f32⟩
  | .local _ .vmem, ⟨0, _⟩ => ⟨S4000x128, .f32⟩
  | .local _ .vmem, ⟨1, _⟩ => ⟨S4000x128, .f32⟩
  | .local _ .vmem, ⟨2, _⟩ => ⟨S4000x64, .f32⟩
  | .local _ .vmem, ⟨3, _⟩ => ⟨S4000x64, .f32⟩
  | .local _ .vmem, ⟨4, _⟩ => ⟨S128x256, .bf16⟩
  | .local _ .vmem, ⟨5, _⟩ => ⟨S256, .f32⟩
  | .local _ .vmem, ⟨6, _⟩ => ⟨S128x128, .bf16⟩
  | .local _ .vmem, ⟨7, _⟩ => ⟨S64x128, .bf16⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S8000x64, .f32⟩
  | .local _ .vmem, ⟨18, _⟩ => ⟨S8000x64, .f32⟩
  | .local _ .vmem, ⟨19, _⟩ => ⟨S64x128, .bf16⟩
  | .local _ .vmem, ⟨20, _⟩ => ⟨S128, .f32⟩
  | .local _ .vmem, ⟨21, _⟩ => ⟨S8000x128, .f32⟩
  | .local _ .vmem, ⟨22, _⟩ => ⟨S8000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst_0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_v15 : Ref sig .tc := ⟨.hbm, 39, rfl⟩
abbrev main_v16_0 : Ref sig .tc := ⟨.hbm, 40, rfl⟩
abbrev main_v16_1 : Ref sig .tc := ⟨.hbm, 41, rfl⟩
abbrev main_v16_2 : Ref sig .tc := ⟨.hbm, 42, rfl⟩
abbrev main_v17 : Ref sig .tc := ⟨.hbm, 43, rfl⟩
abbrev main_c : Ref sig .tc := ⟨.hbm, 44, rfl⟩
abbrev main_v18 : Ref sig .tc := ⟨.hbm, 45, rfl⟩
abbrev main_v19 : Ref sig .tc := ⟨.hbm, 46, rfl⟩
abbrev main_c_3 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_4 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_5 : Ref sig .tc := ⟨.hbm, 57, rfl⟩
abbrev main_v28 : Ref sig .tc := ⟨.hbm, 58, rfl⟩
abbrev main_cst_6 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_7 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_8 : Ref sig .tc := ⟨.hbm, 68, rfl⟩
abbrev main_v36 : Ref sig .tc := ⟨.hbm, 69, rfl⟩
abbrev main_v37 : Ref sig .tc := ⟨.hbm, 70, rfl⟩
abbrev main_c_9 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_10 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_11 : Ref sig .tc := ⟨.hbm, 82, rfl⟩
abbrev main_v47 : Ref sig .tc := ⟨.hbm, 83, rfl⟩
abbrev main_cst_12 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_13 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_c_14 : Ref sig .tc := ⟨.hbm, 93, rfl⟩
abbrev main_v55 : Ref sig .tc := ⟨.hbm, 94, rfl⟩
abbrev main_v56 : Ref sig .tc := ⟨.hbm, 95, rfl⟩
abbrev main_c_15 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_16 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_17 : Ref sig .tc := ⟨.hbm, 106, rfl⟩
abbrev main_v65 : Ref sig .tc := ⟨.hbm, 107, rfl⟩
abbrev main_cst_18 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_19 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg3_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem3_0 : DmaSem sig := 21
abbrev cc1_sem3_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S128x128 : S_.BroadcastsInDim S128x128 (![] : Fin 0 → Fin S128x128.rank)
  concatenates_S128x128_S128x128_S128x256_d1 : Shape.Concatenates [S128x128, S128x128] S128x256 1
  bitsLt_bf16_f32 : FTy.bits .bf16 < FTy.bits .f32
  bcast_S_S128 : S_.BroadcastsInDim S128 (![] : Fin 0 → Fin S128.rank)
  concatenates_S128_S128_S256_d0 : Shape.Concatenates [S128, S128] S256 0
  slices_S192x128_S128x128_0_0 : S192x128.Slices ![0, 0] S128x128
  slices_S192x128_S64x128_128_0 : S192x128.Slices ![128, 0] S64x128
  bcast_S_S64x128 : S_.BroadcastsInDim S64x128 (![] : Fin 0 → Fin S64x128.rank)
  inb_S4000x128_S4000x128_0_0 : ∀ a, (![0, 0] : Fin 2 → Nat) a + S4000x128.size a ≤ S4000x128.size a
  h_S4000x128 : 0 < S4000x128.numel
  inb_S4000x64_S4000x64_0_0 : ∀ a, (![0, 0] : Fin 2 → Nat) a + S4000x64.size a ≤ S4000x64.size a
  h_S4000x64 : 0 < S4000x64.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S4000x256 : S1x256.Broadcasts S4000x256
  slices_S4000x256_o0_0_S4000x128 : S4000x256.Slices ![0, 0] S4000x128
  slices_S4000x256_o0_128_S4000x128 : S4000x256.Slices ![0, 128] S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  inb_S8000x64_S8000x64_0_0 : ∀ a, (![0, 0] : Fin 2 → Nat) a + S8000x64.size a ≤ S8000x64.size a
  h_S8000x64 : 0 < S8000x64.numel
  shapeCasts_S128_S128 : S128.ShapeCasts S128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  bcast_S_S100000 : S_.BroadcastsInDim S100000 (![] : Fin 0 → Fin S100000.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S100000x128_S1x100000x128_1_2 : S100000x128.BroadcastsInDim S1x100000x128 (![1, 2] : Fin 2 → Fin S1x100000x128.rank)
  concatenates_S1x100000x128_S1x100000x128_S1x100000x128_S3x100000x128_d0 : Shape.Concatenates [S1x100000x128, S1x100000x128, S1x100000x128] S3x100000x128 0
  dot_S4000x128_S128x256_S4000x256_1_0_0_1_n_n_wf : DotDims.WF S4000x128 S128x256 S4000x256 [1] [0] [0] [1] [] []
  dot_S4000x128_S128x128_S4000x128_1_0_0_1_n_n_wf : DotDims.WF S4000x128 S128x128 S4000x128 [1] [0] [0] [1] [] []
  dot_S4000x64_S64x128_S4000x128_1_0_0_1_n_n_wf : DotDims.WF S4000x64 S64x128 S4000x128 [1] [0] [0] [1] [] []
  dot_S8000x64_S64x128_S8000x128_1_0_0_1_n_n_wf : DotDims.WF S8000x64 S64x128 S8000x128 [1] [0] [0] [1] [] []
  gather_S100000x128_S100000x1_S100000x128_1_0_n_n_0_1_1128_wf : GatherDims.WF S100000x128 S100000x1 S100000x128 [1] [0] [] [0] [] 1 ![1, 128]
  scatter_S100000x128_S100000x1_S100000x128_1_0_0_1_wf : ScatterDims.WF S100000x128 S100000x1 S100000x128 [1] [0] [0] 1
  scatter_S100000x1_S100000x1_S100000x1_1_0_0_1_wf : ScatterDims.WF S100000x1 S100000x1 S100000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .bf16 = 32 ∨ (Rect.block (s := S64x128) S64x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S100000x128.size a
  hwx0_9 : ∀ i : grid0.Coords, EltTy.bits .f32 = 32 ∨ (Rect.block (s := S100000x128) S4000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x128.size a ≤ S100000x128.size a
  hwx0_10 : ∀ i : grid0.Coords, EltTy.bits .f32 = 32 ∨ (Rect.block (s := S100000x128) S4000x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S100000x128.size a
  hwx0_11 : ∀ i : grid0.Coords, EltTy.bits .f32 = 32 ∨ (Rect.block (s := S100000x128) S4000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1600000x64.size a
  hwx1_0 : ∀ i : grid1.Coords, EltTy.bits .f32 = 32 ∨ (Rect.block (s := S1600000x64) S8000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .bf16 = 32 ∨ (Rect.block (s := S64x128) S64x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S1600000x128.size a
  hwx1_3 : ∀ i : grid1.Coords, EltTy.bits .f32 = 32 ∨ (Rect.block (s := S1600000x128) S8000x128.size (cc1_transform_3 i) (hinb1_3 i)).WholeWords (EltTy.packing .f32)

variable [Facts₀]

def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def scatter_S100000x1_S100000x1_S100000x1_1_0_0_1 : ScatterDims S100000x1 S100000x1 S100000x1 where
  updateWindowDims := [1]
  insertedWindowDims := [0]
  scatterDimsToOperandDims := [0]
  indexVectorDim := 1
  wf := scatter_S100000x1_S100000x1_S100000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg15) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg16) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg17) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16_0) S4000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v16_1) S4000x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v16_2) S4000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg3) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000x64 : Shape := ⟨2, ![100000, 64]⟩
abbrev S1600000x64 : Shape := ⟨2, ![1600000, 64]⟩
abbrev S100000 : Shape := ⟨1, ![100000]⟩
abbrev S1600000 : Shape := ⟨1, ![1600000]⟩
abbrev S128x128 : Shape := ⟨2, ![128, 128]⟩
abbrev S128 : Shape := ⟨1, ![128]⟩
abbrev S192x128 : Shape := ⟨2, ![192, 128]⟩
abbrev S64x128 : Shape := ⟨2, ![64, 128]⟩
abbrev S1x128 : Shape := ⟨2, ![1, 128]⟩
abbrev S_ : Shape := ⟨0, ![]⟩
abbrev S100000x1 : Shape := ⟨2, ![100000, 1]⟩
abbrev S1600000x128 : Shape := ⟨2, ![1600000, 128]⟩
abbrev S1600000x1 : Shape := ⟨2, ![1600000, 1]⟩
abbrev S100000x192 : Shape := ⟨2, ![100000, 192]⟩
abbrev S1x100000x128 : Shape := ⟨3, ![1, 100000, 128]⟩
abbrev S3x100000x128 : Shape := ⟨3, ![3, 100000, 128]⟩

abbrev nBuf : Space → Nat
  | .hbm => 152
  | .vmem => 0
  | .smem => 0
  | _ => 0

abbrev hbmTy0_0 (i : Nat) : BufTy := match i % 128 with
  | 0 => ⟨S100000x128, .f32⟩
  | 1 => ⟨S100000x128, .f32⟩
  | 2 => ⟨S100000x64, .f32⟩
  | 3 => ⟨S1600000x64, .f32⟩
  | 4 => ⟨S100000, .i32⟩
  | 5 => ⟨S100000, .i32⟩
  | 6 => ⟨S1600000, .i32⟩
  | 7 => ⟨S1600000, .i32⟩
  | 8 => ⟨S1600000, .i32⟩
  | 9 => ⟨S1600000, .i32⟩
  | 10 => ⟨S128x128, .f32⟩
  | 11 => ⟨S128, .f32⟩
  | 12 => ⟨S128x128, .f32⟩
  | 13 => ⟨S128, .f32⟩
  | 14 => ⟨S192x128, .f32⟩
  | 15 => ⟨S128, .f32⟩
  | 16 => ⟨S128, .f32⟩
  | 17 => ⟨S128, .f32⟩
  | 18 => ⟨S64x128, .f32⟩
  | 19 => ⟨S128, .f32⟩
  | 20 => ⟨S100000x128, .f32⟩
  | 21 => ⟨S1x128, .f32⟩
  | 22 => ⟨S100000x128, .f32⟩
  | 23 => ⟨S100000x128, .f32⟩
  | 24 => ⟨S_, .i32⟩
  | 25 => ⟨S100000, .i32⟩
  | 26 => ⟨S100000, .i1⟩
  | 27 => ⟨S_, .i32⟩
  | 28 => ⟨S100000, .i32⟩
  | 29 => ⟨S100000, .i32⟩
  | 30 => ⟨S100000, .i32⟩
  | 31 => ⟨S100000x1, .i32⟩
  | 32 => ⟨S100000x128, .f32⟩
  | 33 => ⟨S_, .f32⟩
  | 34 => ⟨S100000x128, .f32⟩
  | 35 => ⟨S100000x1, .i32⟩
  | 36 => ⟨S100000x128, .f32⟩
  | 37 => ⟨S_, .f32⟩
  | 38 => ⟨S100000x1, .f32⟩
  | 39 => ⟨S_, .f32⟩
  | 40 => ⟨S100000x1, .f32⟩
  | 41 => ⟨S100000x1, .i32⟩
  | 42 => ⟨S100000x1, .f32⟩
  | 43 => ⟨S_, .f32⟩
  | 44 => ⟨S100000x1, .f32⟩
  | 45 => ⟨S100000x1, .f32⟩
  | 46 => ⟨S100000x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S1600000x128, .f32⟩
  | 53 => ⟨S1x128, .f32⟩
  | 54 => ⟨S1600000x128, .f32⟩
  | 55 => ⟨S1600000x128, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .f32⟩
  | 65 => ⟨S_, .f32⟩
  | 66 => ⟨S1600000x128, .f32⟩
  | 67 => ⟨S1600000x128, .f32⟩
  | 68 => ⟨S_, .f32⟩
  | 69 => ⟨S1600000x128, .f32⟩
  | 70 => ⟨S1600000x128, .f32⟩
  | 71 => ⟨S1600000x128, .f32⟩
  | 72 => ⟨S_, .f32⟩
  | 73 => ⟨S100000x128, .f32⟩
  | 74 => ⟨S1600000x1, .i32⟩
  | 75 => ⟨S100000x128, .f32⟩
  | 76 => ⟨S_, .f32⟩
  | 77 => ⟨S1600000x1, .f32⟩
  | 78 => ⟨S_, .f32⟩
  | 79 => ⟨S100000x1, .f32⟩
  | 80 => ⟨S1600000x1, .i32⟩
  | 81 => ⟨S100000x1, .f32⟩
  | 82 => ⟨S_, .f32⟩
  | 83 => ⟨S100000x1, .f32⟩
  | 84 => ⟨S100000x1, .f32⟩
  | 85 => ⟨S100000x128, .f32⟩
  | 86 => ⟨S100000x128, .f32⟩
  | 87 => ⟨S100000x192, .f32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S100000, .f32⟩
  | 94 => ⟨S100000x1, .f32⟩
  | 95 => ⟨S_, .f32⟩
  | 96 => ⟨S100000x1, .f32⟩
  | 97 => ⟨S100000x1, .f32⟩
  | 98 => ⟨S100000x128, .f32⟩
  | 99 => ⟨S100000x128, .f32⟩
  | 100 => ⟨S100000x128, .f32⟩
  | 101 => ⟨S_, .f32⟩
  | 102 => ⟨S100000, .f32⟩
  | 103 => ⟨S100000x1, .f32⟩
  | 104 => ⟨S_, .f32⟩
  | 105 => ⟨S100000x1, .f32⟩
  | 106 => ⟨S100000x1, .f32⟩
  | 107 => ⟨S100000x128, .f32⟩
  | 108 => ⟨S100000x128, .f32⟩
  | 109 => ⟨S_, .f32⟩
  | 110 => ⟨S100000x1, .f32⟩
  | 111 => ⟨S100000x1, .f32⟩
  | 112 => ⟨S100000x1, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S_, .i32⟩
  | 125 => ⟨S1600000, .i32⟩
  | 126 => ⟨S1600000, .i1⟩
  | 127 => ⟨S_, .i32⟩
  | _ => ⟨S100000x128, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x128, .f32⟩
  | 5 => ⟨S_, .f32⟩
  | 6 => ⟨S100000x128, .f32⟩
  | 7 => ⟨S1600000x1, .i32⟩
  | 8 => ⟨S100000x128, .f32⟩
  | 9 => ⟨S_, .f32⟩
  | 10 => ⟨S1600000x1, .f32⟩
  | 11 => ⟨S_, .f32⟩
  | 12 => ⟨S100000x1, .f32⟩
  | 13 => ⟨S1600000x1, .i32⟩
  | 14 => ⟨S100000x1, .f32⟩
  | 15 => ⟨S_, .f32⟩
  | 16 => ⟨S100000x1, .f32⟩
  | 17 => ⟨S100000x1, .f32⟩
  | 18 => ⟨S100000x128, .f32⟩
  | 19 => ⟨S100000x128, .f32⟩
  | 20 => ⟨S1x100000x128, .f32⟩
  | 21 => ⟨S1x100000x128, .f32⟩
  | 22 => ⟨S1x100000x128, .f32⟩
  | 23 => ⟨S3x100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_1 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_4 : Ref sig .tc := ⟨.hbm, 56, rfl⟩
abbrev main_v30 : Ref sig .tc := ⟨.hbm, 57, rfl⟩
abbrev main_v31 : Ref sig .tc := ⟨.hbm, 58, rfl⟩
abbrev main_c_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_9 : Ref sig .tc := ⟨.hbm, 76, rfl⟩
abbrev main_v45 : Ref sig .tc := ⟨.hbm, 77, rfl⟩
abbrev main_cst_10 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_11 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_12 : Ref sig .tc := ⟨.hbm, 92, rfl⟩
abbrev main_v58 : Ref sig .tc := ⟨.hbm, 93, rfl⟩
abbrev main_v59 : Ref sig .tc := ⟨.hbm, 94, rfl⟩
abbrev main_cst_13 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_14 : Ref sig .tc := ⟨.hbm, 101, rfl⟩
abbrev main_v65 : Ref sig .tc := ⟨.hbm, 102, rfl⟩
abbrev main_v66 : Ref sig .tc := ⟨.hbm, 103, rfl⟩
abbrev main_cst_15 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_16 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_call0_cst : Ref sig .tc := ⟨.hbm, 121, rfl⟩
abbrev main_call0_v0 : Ref sig .tc := ⟨.hbm, 122, rfl⟩
abbrev main_v82 : Ref sig .tc := ⟨.hbm, 123, rfl⟩
abbrev main_c_17 : Ref sig .tc := ⟨.hbm, 124, rfl⟩
abbrev main_v83 : Ref sig .tc := ⟨.hbm, 125, rfl⟩
abbrev main_v84 : Ref sig .tc := ⟨.hbm, 126, rfl⟩
abbrev main_c_18 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_19 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_20 : Ref sig .tc := ⟨.hbm, 137, rfl⟩
abbrev main_v93 : Ref sig .tc := ⟨.hbm, 138, rfl⟩
abbrev main_cst_21 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_22 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1x128_S1600000x128_0_1 : S1x128.BroadcastsInDim S1600000x128 (![0, 1] : Fin 2 → Fin S1600000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S_S1600000x1 : S_.BroadcastsInDim S1600000x1 (![] : Fin 0 → Fin S1600000x1.rank)
  concatenates_S100000x128_S100000x64_S100000x192_d1 : Shape.Concatenates [S100000x128, S100000x64] S100000x192 1
  reducesTo_S100000x128_S100000_d1 : S100000x128.ReducesTo [1] S100000
  h_S_ : 0 < S_.numel
  bcast_S100000x128_S1x100000x128_1_2 : S100000x128.BroadcastsInDim S1x100000x128 (![1, 2] : Fin 2 → Fin S1x100000x128.rank)
  concatenates_S1x100000x128_S1x100000x128_S1x100000x128_S3x100000x128_d0 : Shape.Concatenates [S1x100000x128, S1x100000x128, S1x100000x128] S3x100000x128 0
  dot_S100000x128_S128x128_S100000x128_1_0_0_1_n_n_wf : DotDims.WF S100000x128 S128x128 S100000x128 [1] [0] [0] [1] [] []
  gather_S100000x128_S100000x1_S100000x128_1_0_n_n_0_1_1128_wf : GatherDims.WF S100000x128 S100000x1 S100000x128 [1] [0] [] [0] [] 1 ![1, 128]
  scatter_S100000x128_S100000x1_S100000x128_1_0_0_1_wf : ScatterDims.WF S100000x128 S100000x1 S100000x128 [1] [0] [0] 1
  scatter_S100000x1_S100000x1_S100000x1_1_0_0_1_wf : ScatterDims.WF S100000x1 S100000x1 S100000x1 [1] [0] [0] 1
  dot_S1600000x64_S64x128_S1600000x128_1_0_0_1_n_n_wf : DotDims.WF S1600000x64 S64x128 S1600000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x192_S192x128_S100000x128_1_0_0_1_n_n_wf : DotDims.WF S100000x192 S192x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def scatter_S100000x1_S100000x1_S100000x1_1_0_0_1 : ScatterDims S100000x1 S100000x1 S100000x1 where
  updateWindowDims := [1]
  insertedWindowDims := [0]
  scatterDimsToOperandDims := [0]
  indexVectorDim := 1
  wf := scatter_S100000x1_S100000x1_S100000x1_1_0_0_1_wf
def dot_S1600000x64_S64x128_S1600000x128_1_0_0_1_n_n : DotDims S1600000x64 S64x128 S1600000x128 where
  lhsContracting := [1]
  rhsContracting := [0]
  lhsNonContracting := [0]
  rhsNonContracting := [1]
  lhsBatch := []
  rhsBatch := []
  wf := dot_S1600000x64_S64x128_S1600000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x192_S192x128_S100000x128_1_0_0_1_n_n : DotDims S100000x192 S192x128 S100000x128 where
  lhsContracting := [1]
  rhsContracting := [0]
  lhsNonContracting := [0]
  rhsNonContracting := [1]
  lhsBatch := []
  rhsBatch := []
  wf := dot_S100000x192_S192x128_S100000x128_1_0_0_1_n_n_wf

class Facts : Prop extends Facts₀ where

variable [Facts]
-- ==== Proof.KbRegion0.lean ====
/-
  The first pallas call (two projections of the user rows out of one joined matrix product, and the conversation layer:
  linear, layer normalisation, clamp), at the buffer contents `V` the region is entered with: what each window's staging
  buffer holds around the body at every grid point, the body's run on those buffers, and the pipeline's body obligation.
  Stated for any float instance.
-/
import proofs.«120052_j19413252177999_2_alg».proof.Proof.Gen.Kernel.Launch
import proofs.«120052_j19413252177999_2_alg».proof.Proof.Gen.Kernel.Skeleton
import proofs.«120052_j19413252177999_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Region 0: the two user projections and the conversation layer, 25 points of 4000 rows -/

/-- Window `w`'s block at grid point `t`, read off its array as the region finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    kept it from an earlier point (the index map has not moved): input window 0. -/
theorem held0_0_of {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)

/-- An input window's current staging buffer holds its block at every point, whether the pipeline fetched it there or
    kept it from an earlier point (the index map has not moved): input window 1. -/
theorem held0_1_of {c : Dev nD} (dat : Dat τ (Elt F) Unit ℕ (UR sig nD τ) ℕ cfg0 c) (hA : dat.A 1 = V c (Pipeline.arrRef spec0 1))
    (hafter : ∀ t, dat.after 1 t = blockAt0 V c 1 t) (t : Fin cfg0.N) (d) : dat.before 1 t d = blockAt0 V c 1 t :=
  (dat.before_in_eq_fetched 1 rfl (fun _ => rfl) (fun _ _ _ => rfl) (fun t => by rw [hafter]; unfold Dat.blockOf blockAt0; rw [hA]; try rfl) t d).trans
    (by unfold Dat.fetched Dat.blockOf blockAt0; rw [hA]; try rfl)

/-- An input window's current staging buffer holds its block at every point, whether the pipeline fetched it there or
    kept it from an earlier point (the index map has not moved): input window 2. -/
theorem held0_2_of {c : Dev nD} (dat : Dat τ (Elt F) Unit ℕ (UR sig nD τ) ℕ cfg0 c) (hA : dat.A 2 = V c (Pipeline.arrRef spec0 2))
    (hafter : ∀ t, dat.after 2 t = blockAt0 V c 2 t) (t : Fin cfg0.N) (d) : dat.before 2 t d = blockAt0 V c 2 t :=
  (dat.before_in_eq_fetched 2 rfl (fun _ => rfl) (fun _ _ _ => rfl) (fun t => by rw [hafter]; unfold Dat.blockOf blockAt0; rw [hA]; try rfl) t d).trans
    (by unfold Dat.fetched Dat.blockOf blockAt0; rw [hA]; try rfl)

/-- An input window's current staging buffer holds its block at every point, whether the pipeline fetched it there or
    kept it from an earlier point (the index map has not moved): input window 3. -/
theorem held0_3_of {c : Dev nD} (dat : Dat τ (Elt F) Unit ℕ (UR sig nD τ) ℕ cfg0 c) (hA : dat.A 3 = V c (Pipeline.arrRef spec0 3))
    (hafter : ∀ t, dat.after 3 t = blockAt0 V c 3 t) (t : Fin cfg0.N) (d) : dat.before 3 t d = blockAt0 V c 3 t :=
  (dat.before_in_eq_fetched 3 rfl (fun _ => rfl) (fun _ _ _ => rfl) (fun t => by rw [hafter]; unfold Dat.blockOf blockAt0; rw [hA]; try rfl) t d).trans
    (by unfold Dat.fetched Dat.blockOf blockAt0; rw [hA]; try rfl)

/-- An input window's current staging buffer holds its block at every point, whether the pipeline fetched it there or
    kept it from an earlier point (the index map has not moved): input window 4. -/
theorem held0_4_of {c : Dev nD} (dat : Dat τ (Elt F) Unit ℕ (UR sig nD τ) ℕ cfg0 c) (hA : dat.A 4 = V c (Pipeline.arrRef spec0 4))
    (hafter : ∀ t, dat.after 4 t = blockAt0 V c 4 t) (t : Fin cfg0.N) (d) : dat.before 4 t d = blockAt0 V c 4 t :=
  (dat.before_in_eq_fetched 4 rfl (fun _ => rfl) (fun _ _ _ => rfl) (fun t => by rw [hafter]; unfold Dat.blockOf blockAt0; rw [hA]; try rfl) t d).trans
    (by unfold Dat.fetched Dat.blockOf blockAt0; rw [hA]; try rfl)

/-- An input window's current staging buffer holds its block at every point, whether the pipeline fetched it there or
    kept it from an earlier point (the index map has not moved): input window 5. -/
theorem held0_5_of {c : Dev nD} (dat : Dat τ (Elt F) Unit ℕ (UR sig nD τ) ℕ cfg0 c) (hA : dat.A 5 = V c (Pipeline.arrRef spec0 5))
    (hafter : ∀ t, dat.after 5 t = blockAt0 V c 5 t) (t : Fin cfg0.N) (d) : dat.before 5 t d = blockAt0 V c 5 t :=
  (dat.before_in_eq_fetched 5 rfl (fun _ => rfl) (fun _ _ _ => rfl) (fun t => by rw [hafter]; unfold Dat.blockOf blockAt0; rw [hA]; try rfl) t d).trans
    (by unfold Dat.fetched Dat.blockOf blockAt0; rw [hA]; try rfl)

/-- An input window's current staging buffer holds its block at every point, whether the pipeline fetched it there or
    kept it from an earlier point (the index map has not moved): input window 6. -/
theorem held0_6_of {c : Dev nD} (dat : Dat τ (Elt F) Unit ℕ (UR sig nD τ) ℕ cfg0 c) (hA : dat.A 6 = V c (Pipeline.arrRef spec0 6))
    (hafter : ∀ t, dat.after 6 t = blockAt0 V c 6 t) (t : Fin cfg0.N) (d) : dat.before 6 t d = blockAt0 V c 6 t :=
  (dat.before_in_eq_fetched 6 rfl (fun _ => rfl) (fun _ _ _ => rfl) (fun t => by rw [hafter]; unfold Dat.blockOf blockAt0; rw [hA]; try rfl) t d).trans
    (by unfold Dat.fetched Dat.blockOf blockAt0; rw [hA]; try rfl)

/-- An input window's current staging buffer holds its block at every point, whether the pipeline fetched it there or
    kept it from an earlier point (the index map has not moved): input window 7. -/
theorem held0_7_of {c : Dev nD} (dat : Dat τ (Elt F) Unit ℕ (UR sig nD τ) ℕ cfg0 c) (hA : dat.A 7 = V c (Pipeline.arrRef spec0 7))
    (hafter : ∀ t, dat.after 7 t = blockAt0 V c 7 t) (t : Fin cfg0.N) (d) : dat.before 7 t d = blockAt0 V c 7 t :=
  (dat.before_in_eq_fetched 7 rfl (fun _ => rfl) (fun _ _ _ => rfl) (fun t => by rw [hafter]; unfold Dat.blockOf blockAt0; rw [hA]; try rfl) t d).trans
    (by unfold Dat.fetched Dat.blockOf blockAt0; rw [hA]; try rfl)

/-- An input window's current staging buffer holds its block at every point, whether the pipeline fetched it there or
    kept it from an earlier point (the index map has not moved): input window 8. -/
theorem held0_8_of {c : Dev nD} (dat : Dat τ (Elt F) Unit ℕ (UR sig nD τ) ℕ cfg0 c) (hA : dat.A 8 = V c (Pipeline.arrRef spec0 8))
    (hafter : ∀ t, dat.after 8 t = blockAt0 V c 8 t) (t : Fin cfg0.N) (d) : dat.before 8 t d = blockAt0 V c 8 t :=
  (dat.before_in_eq_fetched 8 rfl (fun _ => rfl) (fun _ _ _ => rfl) (fun t => by rw [hafter]; unfold Dat.blockOf blockAt0; rw [hA]; try rfl) t d).trans
    (by unfold Dat.fetched Dat.blockOf blockAt0; rw [hA]; try rfl)

/-- The whole-buffer rectangles the body loads and stores through. -/
abbrev r0_0 : Rect S4000x128 := Rect.unit (s := S4000x128) ![0, 0] S4000x128.size inb_S4000x128_S4000x128_0_0
abbrev r0_1 : Rect S4000x64 := Rect.unit (s := S4000x64) ![0, 0] S4000x64.size inb_S4000x64_S4000x64_0_0
abbrev r0_2 : Rect S128x256 := Rect.unit (s := S128x256) ![0, 0] S128x256.size inb_S128x256_S128x256_0_0
abbrev r0_3 : Rect S256 := Rect.unit (s := S256) ![0] S256.size inb_S256_S256_0
abbrev r0_4 : Rect S128x128 := Rect.unit (s := S128x128) ![0, 0] S128x128.size inb_S128x128_S128x128_0_0
abbrev r0_5 : Rect S64x128 := Rect.unit (s := S64x128) ![0, 0] S64x128.size inb_S64x128_S64x128_0_0
abbrev r0_6 : Rect S128 := Rect.unit (s := S128) ![0] S128.size inb_S128_S128_0
abbrev r0_7 : Rect S128 := Rect.unit (s := S128) ![0] S128.size inb_S128_S128_0
abbrev r0_8 : Rect S128 := Rect.unit (s := S128) ![0] S128.size inb_S128_S128_0
abbrev r0_9 : Rect S4000x128 := Rect.unit (s := S4000x128) ![0, 0] S4000x128.size inb_S4000x128_S4000x128_0_0
abbrev r0_10 : Rect S4000x128 := Rect.unit (s := S4000x128) ![0, 0] S4000x128.size inb_S4000x128_S4000x128_0_0
abbrev r0_11 : Rect S4000x128 := Rect.unit (s := S4000x128) ![0, 0] S4000x128.size inb_S4000x128_S4000x128_0_0

/-- The first output block of one point: columns 0 to 127 of the 4000 user rows times the joined parameter matrix, plus the joined bias. -/
def pubBlock (x0 : Vec F S4000x128 .f32) (x1 : Vec F S4000x64 .f32) (x2 : Vec F S128x256 .bf16) (x3 : Vec F S256 .f32) (x4 : Vec F S128x128 .bf16) (x5 : Vec F S64x128 .bf16) (x6 : Vec F S128 .f32) (x7 : Vec F S128 .f32) (x8 : Vec F S128 .f32) : Vec F S4000x128 .f32 :=
  View.canon [⟨r0_9, k0_pay4 (View.ld x0 r0_0) (View.ld x2 r0_2) (View.ld x3 r0_3)⟩]

/-- Its one store writes the whole buffer. -/
theorem pubBlock_cover (p0 : Vec F S4000x128 .f32) (y : S4000x128.Idx) :
    ∃ pc ∈ ([⟨r0_9, p0⟩] : List (View.Piece (Elt F) S4000x128 .f32)), y ∈ pc.1.set :=
  View.cover_of_tiled [⟨r0_9, p0⟩] S4000x128.size (by rfl) y

/-- The second output block: columns 128 to 255 of the same product and bias. -/
def comBlock (x0 : Vec F S4000x128 .f32) (x1 : Vec F S4000x64 .f32) (x2 : Vec F S128x256 .bf16) (x3 : Vec F S256 .f32) (x4 : Vec F S128x128 .bf16) (x5 : Vec F S64x128 .bf16) (x6 : Vec F S128 .f32) (x7 : Vec F S128 .f32) (x8 : Vec F S128 .f32) : Vec F S4000x128 .f32 :=
  View.canon [⟨r0_10, k0_pay5 (View.ld x0 r0_0) (View.ld x2 r0_2) (View.ld x3 r0_3)⟩]

/-- Its one store writes the whole buffer. -/
theorem comBlock_cover (p0 : Vec F S4000x128 .f32) (y : S4000x128.Idx) :
    ∃ pc ∈ ([⟨r0_10, p0⟩] : List (View.Piece (Elt F) S4000x128 .f32)), y ∈ pc.1.set :=
  View.cover_of_tiled [⟨r0_10, p0⟩] S4000x128.size (by rfl) y

/-- The third output block: the conversation layer of the 4000 rows — a linear layer over the user row and its context row, layer normalisation, scale and shift, clamped below at zero. -/
def convBlock (x0 : Vec F S4000x128 .f32) (x1 : Vec F S4000x64 .f32) (x2 : Vec F S128x256 .bf16) (x3 : Vec F S256 .f32) (x4 : Vec F S128x128 .bf16) (x5 : Vec F S64x128 .bf16) (x6 : Vec F S128 .f32) (x7 : Vec F S128 .f32) (x8 : Vec F S128 .f32) : Vec F S4000x128 .f32 :=
  View.canon [⟨r0_11, k0_pay1 (k0_pay6 (View.ld x0 r0_0) (View.ld x1 r0_1) (View.ld x4 r0_4) (View.ld x5 r0_5) (View.ld x6 r0_6)) (k0_pay7 (View.ld x0 r0_0) (View.ld x1 r0_1) (View.ld x4 r0_4) (View.ld x5 r0_5) (View.ld x6 r0_6)) (k0_pay8 (View.ld x0 r0_0) (View.ld x1 r0_1) (View.ld x4 r0_4) (View.ld x5 r0_5) (View.ld x6 r0_6)) (View.ld x7 r0_7) (View.ld x8 r0_8)⟩]

/-- Its one store writes the whole buffer. -/
theorem convBlock_cover (p0 : Vec F S4000x128 .f32) (y : S4000x128.Idx) :
    ∃ pc ∈ ([⟨r0_11, p0⟩] : List (View.Piece (Elt F) S4000x128 .f32)), y ∈ pc.1.set :=
  View.cover_of_tiled [⟨r0_11, p0⟩] S4000x128.size (by rfl) y

set_option maxHeartbeats 4000000 in
/-- The body on whole staging buffers — the inputs' at known contents, the outputs' at anything — runs to the end
    leaving the inputs' as they were and each output's at its block as a function of the inputs'. -/
theorem body_runs0 (c : Dev nD) (E : Set ℕ) (i : grid0.Coords) (arg1 : Memref sig .tc .vmem S4000x128 .f32) (harg1 : arg1.IsWhole) (arg2 : Memref sig .tc .vmem S4000x64 .f32) (harg2 : arg2.IsWhole) (arg3 : Memref sig .tc .vmem S128x256 .bf16) (harg3 : arg3.IsWhole) (arg4 : Memref sig .tc .vmem S256 .f32) (harg4 : arg4.IsWhole) (arg5 : Memref sig .tc .vmem S128x128 .bf16) (harg5 : arg5.IsWhole) (arg6 : Memref sig .tc .vmem S64x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S4000x128 .f32) (harg10 : arg10.IsWhole) (arg11 : Memref sig .tc .vmem S4000x128 .f32) (harg11 : arg11.IsWhole) (arg12 : Memref sig .tc .vmem S4000x128 .f32) (harg12 : arg12.IsWhole)
    (x0 : Vec F S4000x128 .f32) (x1 : Vec F S4000x64 .f32) (x2 : Vec F S128x256 .bf16) (x3 : Vec F S256 .f32) (x4 : Vec F S128x128 .bf16) (x5 : Vec F S64x128 .bf16) (x6 : Vec F S128 .f32) (x7 : Vec F S128 .f32) (x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (pubBlock x0 x1 x2 x3 x4 x5 x6 x7 x8) ∗ owns (c : Thread nD τ) arg11 fullShare (comBlock x0 x1 x2 x3 x4 x5 x6 x7 x8) ∗ owns (c : Thread nD τ) arg12 fullShare (convBlock x0 x1 x2 x3 x4 x5 x6 x7 x8)) -∗ K ⟨⟩))
      ⊢ wp frame (wpE (defs₀ (F := F)) Variants.none c none) E (cc0__ac_kernel i arg1 harg1 arg2 harg2 arg3 harg3 arg4 harg4 arg5 harg5 arg6 harg6 arg7 harg7 arg8 harg8 arg9 harg9 arg10 harg10 arg11 harg11 arg12 harg12) K := by
  simp only [cc0__ac_kernel_eq_skeleton]; unfold cc0__ac_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (pubBlock_cover _)
  isplitl [H10]
  · iexists _; isplitr
    swap; · iexact H10
    ipureintro
    try dsimp only
    exact View.read_writes_eq_canon _ _ _ (comBlock_cover _)
  iexists _; isplitr
  swap; · iexact H11
  ipureintro
  try dsimp only
  exact View.read_writes_eq_canon _ _ _ (convBlock_cover _)

/-- The pipeline's proof data on core `c`: the arrays as the region finds them; after the body at point `t` each
    input's buffer still at its block and each output's at its block as computed from the inputs' blocks; the scoped
    rest and the generator register ride along untouched; nothing is owed. -/
def data0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => blockAt0 V c 2 t
    | ⟨3, _⟩ => blockAt0 V c 3 t
    | ⟨4, _⟩ => blockAt0 V c 4 t
    | ⟨5, _⟩ => blockAt0 V c 5 t
    | ⟨6, _⟩ => blockAt0 V c 6 t
    | ⟨7, _⟩ => blockAt0 V c 7 t
    | ⟨8, _⟩ => blockAt0 V c 8 t
    | ⟨9, _⟩ => pubBlock (blockAt0 V c 0 t) (blockAt0 V c 1 t) (blockAt0 V c 2 t) (blockAt0 V c 3 t) (blockAt0 V c 4 t) (blockAt0 V c 5 t) (blockAt0 V c 6 t) (blockAt0 V c 7 t) (blockAt0 V c 8 t)
    | ⟨10, _⟩ => comBlock (blockAt0 V c 0 t) (blockAt0 V c 1 t) (blockAt0 V c 2 t) (blockAt0 V c 3 t) (blockAt0 V c 4 t) (blockAt0 V c 5 t) (blockAt0 V c 6 t) (blockAt0 V c 7 t) (blockAt0 V c 8 t)
    | ⟨11, _⟩ => convBlock (blockAt0 V c 0 t) (blockAt0 V c 1 t) (blockAt0 V c 2 t) (blockAt0 V c 3 t) (blockAt0 V c 4 t) (blockAt0 V c 5 t) (blockAt0 V c 6 t) (blockAt0 V c 7 t) (blockAt0 V c 8 t)
  Φ _ := Pipeline.ΦA spec0 c
  q _ := fullShare
  owed _ := 0

theorem data0_A (c : Dev nD) (w : Fin cfg0.W) : (data0 V c).A w = V c (Pipeline.arrRef spec0 w) := by
  dsimp only [data0]

theorem after0_0 (c : Dev nD) (t : Fin cfg0.N) : (data0 V c).after 0 t = blockAt0 V c 0 t := by dsimp only [data0]
theorem after0_1 (c : Dev nD) (t : Fin cfg0.N) : (data0 V c).after 1 t = blockAt0 V c 1 t := by dsimp only [data0]
theorem after0_2 (c : Dev nD) (t : Fin cfg0.N) : (data0 V c).after 2 t = blockAt0 V c 2 t := by dsimp only [data0]
theorem after0_3 (c : Dev nD) (t : Fin cfg0.N) : (data0 V c).after 3 t = blockAt0 V c 3 t := by dsimp only [data0]
theorem after0_4 (c : Dev nD) (t : Fin cfg0.N) : (data0 V c).after 4 t = blockAt0 V c 4 t := by dsimp only [data0]
theorem after0_5 (c : Dev nD) (t : Fin cfg0.N) : (data0 V c).after 5 t = blockAt0 V c 5 t := by dsimp only [data0]
theorem after0_6 (c : Dev nD) (t : Fin cfg0.N) : (data0 V c).after 6 t = blockAt0 V c 6 t := by dsimp only [data0]
theorem after0_7 (c : Dev nD) (t : Fin cfg0.N) : (data0 V c).after 7 t = blockAt0 V c 7 t := by dsimp only [data0]
theorem after0_8 (c : Dev nD) (t : Fin cfg0.N) : (data0 V c).after 8 t = blockAt0 V c 8 t := by dsimp only [data0]
theorem after0_9 (c : Dev nD) (t : Fin cfg0.N) : (data0 V c).after 9 t = pubBlock (blockAt0 V c 0 t) (blockAt0 V c 1 t) (blockAt0 V c 2 t) (blockAt0 V c 3 t) (blockAt0 V c 4 t) (blockAt0 V c 5 t) (blockAt0 V c 6 t) (blockAt0 V c 7 t) (blockAt0 V c 8 t) := by dsimp only [data0]
theorem after0_10 (c : Dev nD) (t : Fin cfg0.N) : (data0 V c).after 10 t = comBlock (blockAt0 V c 0 t) (blockAt0 V c 1 t) (blockAt0 V c 2 t) (blockAt0 V c 3 t) (blockAt0 V c 4 t) (blockAt0 V c 5 t) (blockAt0 V c 6 t) (blockAt0 V c 7 t) (blockAt0 V c 8 t) := by dsimp only [data0]
theorem after0_11 (c : Dev nD) (t : Fin cfg0.N) : (data0 V c).after 11 t = convBlock (blockAt0 V c 0 t) (blockAt0 V c 1 t) (blockAt0 V c 2 t) (blockAt0 V c 3 t) (blockAt0 V c 4 t) (blockAt0 V c 5 t) (blockAt0 V c 6 t) (blockAt0 V c 7 t) (blockAt0 V c 8 t) := by dsimp only [data0]

theorem held0_0 (c : Dev nD) (t : Fin cfg0.N) (d) : (data0 V c).before 0 t d = blockAt0 V c 0 t :=
  held0_0_of V (data0 V c) (data0_A V c 0) (after0_0 V c) t d
theorem held0_1 (c : Dev nD) (t : Fin cfg0.N) (d) : (data0 V c).before 1 t d = blockAt0 V c 1 t :=
  held0_1_of V (data0 V c) (data0_A V c 1) (after0_1 V c) t d
theorem held0_2 (c : Dev nD) (t : Fin cfg0.N) (d) : (data0 V c).before 2 t d = blockAt0 V c 2 t :=
  held0_2_of V (data0 V c) (data0_A V c 2) (after0_2 V c) t d
theorem held0_3 (c : Dev nD) (t : Fin cfg0.N) (d) : (data0 V c).before 3 t d = blockAt0 V c 3 t :=
  held0_3_of V (data0 V c) (data0_A V c 3) (after0_3 V c) t d
theorem held0_4 (c : Dev nD) (t : Fin cfg0.N) (d) : (data0 V c).before 4 t d = blockAt0 V c 4 t :=
  held0_4_of V (data0 V c) (data0_A V c 4) (after0_4 V c) t d
theorem held0_5 (c : Dev nD) (t : Fin cfg0.N) (d) : (data0 V c).before 5 t d = blockAt0 V c 5 t :=
  held0_5_of V (data0 V c) (data0_A V c 5) (after0_5 V c) t d
theorem held0_6 (c : Dev nD) (t : Fin cfg0.N) (d) : (data0 V c).before 6 t d = blockAt0 V c 6 t :=
  held0_6_of V (data0 V c) (data0_A V c 6) (after0_6 V c) t d
theorem held0_7 (c : Dev nD) (t : Fin cfg0.N) (d) : (data0 V c).before 7 t d = blockAt0 V c 7 t :=
  held0_7_of V (data0 V c) (data0_A V c 7) (after0_7 V c) t d
theorem held0_8 (c : Dev nD) (t : Fin cfg0.N) (d) : (data0 V c).before 8 t d = blockAt0 V c 8 t :=
  held0_8_of V (data0 V c) (data0_A V c 8) (after0_8 V c) t d

/-- What the body is called with at point `t`, window by window, -/
def bodyPre0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d))
    ∗ (∃ d, owns (c : Thread nD τ) (st0_4 t) fullShare ((data0 V c).before 4 t d))
    ∗ (∃ d, owns (c : Thread nD τ) (st0_5 t) fullShare ((data0 V c).before 5 t d))
    ∗ (∃ d, owns (c : Thread nD τ) (st0_6 t) fullShare ((data0 V c).before 6 t d))
    ∗ (∃ d, owns (c : Thread nD τ) (st0_7 t) fullShare ((data0 V c).before 7 t d))
    ∗ (∃ d, owns (c : Thread nD τ) (st0_8 t) fullShare ((data0 V c).before 8 t d))
    ∗ (∃ d, owns (c : Thread nD τ) (st0_9 t) fullShare ((data0 V c).before 9 t d))
    ∗ (∃ d, owns (c : Thread nD τ) (st0_10 t) fullShare ((data0 V c).before 10 t d))
    ∗ (∃ d, owns (c : Thread nD τ) (st0_11 t) fullShare ((data0 V c).before 11 t d)))

/-- and what it returns. -/
def bodyPost0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t)
    ∗ owns (c : Thread nD τ) (st0_4 t) fullShare ((data0 V c).after 4 t)
    ∗ owns (c : Thread nD τ) (st0_5 t) fullShare ((data0 V c).after 5 t)
    ∗ owns (c : Thread nD τ) (st0_6 t) fullShare ((data0 V c).after 6 t)
    ∗ owns (c : Thread nD τ) (st0_7 t) fullShare ((data0 V c).after 7 t)
    ∗ owns (c : Thread nD τ) (st0_8 t) fullShare ((data0 V c).after 8 t)
    ∗ owns (c : Thread nD τ) (st0_9 t) fullShare ((data0 V c).after 9 t)
    ∗ owns (c : Thread nD τ) (st0_10 t) fullShare ((data0 V c).after 10 t)
    ∗ owns (c : Thread nD τ) (st0_11 t) fullShare ((data0 V c).after 11 t))

set_option maxHeartbeats 1000000 in
/-- The body at any point: the inputs' buffers hold their blocks, so `body_runs0` applies; the invariant and what the
    core owes pass through unread. -/
theorem body_at0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1, held0_2, held0_3, held0_4, held0_5, held0_6, held0_7, held0_8]
  rw [show (data0 V c).Φ t.succ = (data0 V c).Φ t.castSucc from rfl,
    show (data0 V c).owesAt () t.succ = (data0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_runs0 c Set.univ _ _ _ _ _ _ _ _ _ _ _ _ _ _ _ _ _ _ _ _ _ _ _ _ _ (blockAt0 V c 0 t) (blockAt0 V c 1 t) (blockAt0 V c 2 t) (blockAt0 V c 3 t) (blockAt0 V c 4 t) (blockAt0 V c 5 t) (blockAt0 V c 6 t) (blockAt0 V c 7 t) (blockAt0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline library's body obligation, at every point. -/
theorem body_obligation0 (c : Dev nD) : BodyObligation (data0 (F := F) V c) (defs₀ (F := F)) Variants.none () Set.univ := fun t => by
  rw [bigSep_W0, bigSep_W0]
  exact body_at0 V c t

end Cert.Kernel.Hand

end
-- ==== Proof.KbRegion1.lean ====
/-
  The second pallas call (a linear layer over blocks of 8000 edge rows), at the buffer contents `V` the region is entered
  with: what each window's staging buffer holds around the body at every grid point, the body's run on those buffers, and
  the pipeline's body obligation. Stated for any float instance.
-/
import proofs.«120052_j19413252177999_2_alg».proof.Proof.Gen.Kernel.Launch
import proofs.«120052_j19413252177999_2_alg».proof.Proof.Gen.Kernel.Skeleton
import proofs.«120052_j19413252177999_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Region 1: the edge-feature projection, 200 points of 8000 rows -/

/-- Window `w`'s block at grid point `t`, read off its array as the region finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or
    kept it from an earlier point (the index map has not moved): input window 0. -/
theorem held1_0_of {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)

/-- An input window's current staging buffer holds its block at every point, whether the pipeline fetched it there or
    kept it from an earlier point (the index map has not moved): input window 1. -/
theorem held1_1_of {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)

/-- An input window's current staging buffer holds its block at every point, whether the pipeline fetched it there or
    kept it from an earlier point (the index map has not moved): input window 2. -/
theorem held1_2_of {c : Dev nD} (dat : Dat τ (Elt F) Unit ℕ (UR sig nD τ) ℕ cfg1 c) (hA : dat.A 2 = V c (Pipeline.arrRef spec1 2))
    (hafter : ∀ t, dat.after 2 t = blockAt1 V c 2 t) (t : Fin cfg1.N) (d) : dat.before 2 t d = blockAt1 V c 2 t :=
  (dat.before_in_eq_fetched 2 rfl (fun _ => rfl) (fun _ _ _ => rfl) (fun t => by rw [hafter]; unfold Dat.blockOf blockAt1; rw [hA]; try rfl) t d).trans
    (by unfold Dat.fetched Dat.blockOf blockAt1; rw [hA]; try rfl)

/-- The whole-buffer rectangles the body loads and stores through. -/
abbrev r1_0 : Rect S8000x64 := Rect.unit (s := S8000x64) ![0, 0] S8000x64.size inb_S8000x64_S8000x64_0_0
abbrev r1_1 : Rect S64x128 := Rect.unit (s := S64x128) ![0, 0] S64x128.size inb_S64x128_S64x128_0_0
abbrev r1_2 : Rect S128 := Rect.unit (s := S128) ![0] S128.size inb_S128_S128_0
abbrev r1_3 : Rect S8000x128 := Rect.unit (s := S8000x128) ![0, 0] S8000x128.size inb_S8000x128_S8000x128_0_0

/-- The output block of one point: 8000 rows of edge features times the parameter matrix, plus the bias row. -/
def edgeBlock (x0 : Vec F S8000x64 .f32) (x1 : Vec F S64x128 .bf16) (x2 : Vec F S128 .f32) : Vec F S8000x128 .f32 :=
  View.canon [⟨r1_3, k1_pay1 (View.ld x0 r1_0) (View.ld x1 r1_1) (View.ld x2 r1_2)⟩]

/-- Its one store writes the whole buffer. -/
theorem edgeBlock_cover (p0 : Vec F S8000x128 .f32) (y : S8000x128.Idx) :
    ∃ pc ∈ ([⟨r1_3, p0⟩] : List (View.Piece (Elt F) S8000x128 .f32)), y ∈ pc.1.set :=
  View.cover_of_tiled [⟨r1_3, p0⟩] S8000x128.size (by rfl) y

set_option maxHeartbeats 4000000 in
/-- The body on whole staging buffers — the inputs' at known contents, the outputs' at anything — runs to the end
    leaving the inputs' as they were and each output's at its block as a function of the inputs'. -/
theorem body_runs1 (c : Dev nD) (E : Set ℕ) (i : grid1.Coords) (arg1 : Memref sig .tc .vmem S8000x64 .f32) (harg1 : arg1.IsWhole) (arg2 : Memref sig .tc .vmem S64x128 .bf16) (harg2 : arg2.IsWhole) (arg3 : Memref sig .tc .vmem S128 .f32) (harg3 : arg3.IsWhole) (arg4 : Memref sig .tc .vmem S8000x128 .f32) (harg4 : arg4.IsWhole)
    (x0 : Vec F S8000x64 .f32) (x1 : Vec F S64x128 .bf16) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (edgeBlock x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (edgeBlock_cover _)

/-- The pipeline's proof data on core `c`: the arrays as the region finds them; after the body at point `t` each
    input's buffer still at its block and each output's at its block as computed from the inputs' blocks; the scoped
    rest and the generator register ride along untouched; nothing is owed. -/
def data1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => edgeBlock (blockAt1 V c 0 t) (blockAt1 V c 1 t) (blockAt1 V c 2 t)
  Φ _ := Pipeline.ΦA spec1 c
  q _ := fullShare
  owed _ := 0

theorem data1_A (c : Dev nD) (w : Fin cfg1.W) : (data1 V c).A w = V c (Pipeline.arrRef spec1 w) := by
  dsimp only [data1]

theorem after1_0 (c : Dev nD) (t : Fin cfg1.N) : (data1 V c).after 0 t = blockAt1 V c 0 t := by dsimp only [data1]
theorem after1_1 (c : Dev nD) (t : Fin cfg1.N) : (data1 V c).after 1 t = blockAt1 V c 1 t := by dsimp only [data1]
theorem after1_2 (c : Dev nD) (t : Fin cfg1.N) : (data1 V c).after 2 t = blockAt1 V c 2 t := by dsimp only [data1]
theorem after1_3 (c : Dev nD) (t : Fin cfg1.N) : (data1 V c).after 3 t = edgeBlock (blockAt1 V c 0 t) (blockAt1 V c 1 t) (blockAt1 V c 2 t) := by dsimp only [data1]

theorem held1_0 (c : Dev nD) (t : Fin cfg1.N) (d) : (data1 V c).before 0 t d = blockAt1 V c 0 t :=
  held1_0_of V (data1 V c) (data1_A V c 0) (after1_0 V c) t d
theorem held1_1 (c : Dev nD) (t : Fin cfg1.N) (d) : (data1 V c).before 1 t d = blockAt1 V c 1 t :=
  held1_1_of V (data1 V c) (data1_A V c 1) (after1_1 V c) t d
theorem held1_2 (c : Dev nD) (t : Fin cfg1.N) (d) : (data1 V c).before 2 t d = blockAt1 V c 2 t :=
  held1_2_of V (data1 V c) (data1_A V c 2) (after1_2 V c) t d

/-- What the body is called with at point `t`, window by window, -/
def bodyPre1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d)))

/-- and what it returns. -/
def bodyPost1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t))

set_option maxHeartbeats 1000000 in
/-- The body at any point: the inputs' buffers hold their blocks, so `body_runs1` applies; the invariant and what the
    core owes pass through unread. -/
theorem body_at1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1, held1_2]
  rw [show (data1 V c).Φ t.succ = (data1 V c).Φ t.castSucc from rfl,
    show (data1 V c).owesAt () t.succ = (data1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (body_runs1 c Set.univ _ _ _ _ _ _ _ _ _ (blockAt1 V c 0 t) (blockAt1 V c 1 t) (blockAt1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (data1 (F := F) V c) (defs₀ (F := F)) Variants.none () Set.univ := fun t => by
  rw [bigSep_W1, bigSep_W1]
  exact body_at1 V c t

end Cert.Kernel.Hand

end
-- ==== Proof.KbRun.lean ====
/-
  The whole run of the program: @main is a stretch of host operations on the parameters, the two pallas calls, and a
  stretch of host operations (gathers, segment sums, the division by the segment sizes, the stacking of the three
  results). The buffer contents at each boundary are a fold from the launch memory: a host stretch applies its operations,
  a pallas call replaces its arrays by what its write-backs leave. Every weakly fair execution terminates without a fault
  with every unscoped buffer at the last boundary's contents; no operation and no pallas call writes an argument array, so
  each is read back through the fold to the launch memory. Stated for any float instance.
-/
import proofs.«120052_j19413252177999_2_alg».proof.Proof.KbRegion0
import proofs.«120052_j19413252177999_2_alg».proof.Proof.KbRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations on the parameters: what the first pallas call is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pallas call: its arrays at what its write-backs leave, every other buffer as entered. -/
def W2 (c : Dev nD) : Valuation τ sig (Elt F) :=
  Pipeline.withArrays spec0 c (W1 m ρ c) fun w => (data0 (V1 m ρ) c).arrAt w cfg0.N
theorem W2_arr (c : Dev nD) (w : Fin cfg0.W) :
    W2 m ρ c (Proc.devRef .tc (Pipeline.arrRef spec0 w)) = (data0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (data0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second pallas call, which is entered with what the first left. -/
def W3 (c : Dev nD) : Valuation τ sig (Elt F) :=
  Pipeline.withArrays spec1 c (W2 m ρ c) fun w => (data1 (V2 m ρ) c).arrAt w cfg1.N
theorem W3_arr (c : Dev nD) (w : Fin cfg1.W) :
    W3 m ρ c (Proc.devRef .tc (Pipeline.arrRef spec1 w)) = (data1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (data1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the closing host operations: the contents at the return. -/
abbrev W4 : Dev nD → Valuation τ sig (Elt F) := fun c => StableHlo.after hostOps2 (W3 m ρ c)

/-! ## The argument arrays end as launched -/

set_option maxHeartbeats 4000000

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := (W2_arr m ρ c 0).trans (((data0 (V1 m ρ) c).arrAt_in 0 rfl _).trans (data0_A (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := (W2_arr m ρ c 1).trans (((data0 (V1 m ρ) c).arrAt_in 1 rfl _).trans (data0_A (V1 m ρ) c 1))
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg3) := (W3_arr m ρ c 0).trans (((data1 (V2 m ρ) c).arrAt_in 0 rfl _).trans (data1_A (V2 m ρ) c 0))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_forall_not_mem (b := Proc.devRef .tc main_arg6) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_forall_not_mem (b := Proc.devRef .tc main_arg7) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := StableHlo.after_of_forall_not_mem (b := Proc.devRef .tc main_arg8) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := StableHlo.after_of_forall_not_mem (b := Proc.devRef .tc main_arg9) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := StableHlo.after_of_forall_not_mem (b := Proc.devRef .tc main_arg10) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := StableHlo.after_of_forall_not_mem (b := Proc.devRef .tc main_arg11) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg11) := rfl

theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := StableHlo.after_of_forall_not_mem (b := Proc.devRef .tc main_arg12) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg12) := rfl

theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := StableHlo.after_of_forall_not_mem (b := Proc.devRef .tc main_arg13) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg13) := rfl

theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := StableHlo.after_of_forall_not_mem (b := Proc.devRef .tc main_arg14) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg14) := rfl

theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := StableHlo.after_of_forall_not_mem (b := Proc.devRef .tc main_arg15) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg15) := W3_of_ne m ρ c main_arg15 (by decide)
    _ = W1 m ρ c (Proc.devRef .tc main_arg15) := (W2_arr m ρ c 6).trans (((data0 (V1 m ρ) c).arrAt_in 6 rfl _).trans (data0_A (V1 m ρ) c 6))
    _ = W0 m ρ c (Proc.devRef .tc main_arg15) := StableHlo.after_of_forall_not_mem (b := Proc.devRef .tc main_arg15) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg15) := rfl

theorem W4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := StableHlo.after_of_forall_not_mem (b := Proc.devRef .tc main_arg16) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg16) := W3_of_ne m ρ c main_arg16 (by decide)
    _ = W1 m ρ c (Proc.devRef .tc main_arg16) := (W2_arr m ρ c 7).trans (((data0 (V1 m ρ) c).arrAt_in 7 rfl _).trans (data0_A (V1 m ρ) c 7))
    _ = W0 m ρ c (Proc.devRef .tc main_arg16) := StableHlo.after_of_forall_not_mem (b := Proc.devRef .tc main_arg16) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg16) := rfl

theorem W4_main_arg17 (c : Dev nD) : W4 m ρ c (Proc.devRef .tc main_arg17) = m ((c : Thread nD τ).loc main_arg17) :=
  calc W4 m ρ c (Proc.devRef .tc main_arg17)
    _ = W3 m ρ c (Proc.devRef .tc main_arg17) := StableHlo.after_of_forall_not_mem (b := Proc.devRef .tc main_arg17) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg17) := W3_of_ne m ρ c main_arg17 (by decide)
    _ = W1 m ρ c (Proc.devRef .tc main_arg17) := (W2_arr m ρ c 8).trans (((data0 (V1 m ρ) c).arrAt_in 8 rfl _).trans (data0_A (V1 m ρ) c 8))
    _ = W0 m ρ c (Proc.devRef .tc main_arg17) := StableHlo.after_of_forall_not_mem (b := Proc.devRef .tc main_arg17) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg17) := rfl

theorem W4_main_arg18 (c : Dev nD) : W4 m ρ c (Proc.devRef .tc main_arg18) = m ((c : Thread nD τ).loc main_arg18) :=
  calc W4 m ρ c (Proc.devRef .tc main_arg18)
    _ = W3 m ρ c (Proc.devRef .tc main_arg18) := StableHlo.after_of_forall_not_mem (b := Proc.devRef .tc main_arg18) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg18) := W3_of_ne m ρ c main_arg18 (by decide)
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg18) := rfl

theorem W4_main_arg19 (c : Dev nD) : W4 m ρ c (Proc.devRef .tc main_arg19) = m ((c : Thread nD τ).loc main_arg19) :=
  calc W4 m ρ c (Proc.devRef .tc main_arg19)
    _ = W3 m ρ c (Proc.devRef .tc main_arg19) := StableHlo.after_of_forall_not_mem (b := Proc.devRef .tc main_arg19) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg19) := W3_of_ne m ρ c main_arg19 (by decide)
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg19) := rfl

/-! ## The proof data of both pipelines and the state carried between segments -/

abbrev adm : (p : Fin 2) → (pcfgs (F := F) p).Adm := fun p => (cfgs p).toPCfg_adm
/-- Each pipeline's proof data at the contents its pallas call is entered with. -/
def pdats : (p : Fin 2) → (c : Dev nD) → Dat τ (Elt F) Unit ℕ (UR sig nD τ) ℕ (Pipeline.pin (pcfgs (F := F)) adm p) c
  | ⟨0, _⟩ => fun c => data0 (V1 m ρ) c
  | ⟨1, _⟩ => fun c => data1 (V2 m ρ) c
abbrev 𝒱₀ : Variants := Variants.none
abbrev L : GSem nD τ sig → Finset Unit := fun _ => ∅
abbrev lv : GSem nD τ sig → Unit → ℕ := fun _ _ => 0
/-- Beside the buffers every segment carries the core's generator register at some state and the fact that it owes nothing. -/
abbrev R (c : Dev nD) : sProp 𝕄 := iprop((∃ r, prngReg c r) ∗ ∃ W, owes (c : Thread nD τ) (0 : CellTallies nD τ sig Unit) W)
/-- A stretch of host operations as a segment over all unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without what the core owes: every unscoped buffer at the return's contents, the generator register. -/
abbrev Tₙ (c : Dev nD) : sProp 𝕄 := iprop(StableHlo.held (c : Thread nD τ) (Pipeline.ucRefs τ sig) (W4 m ρ c) ∗ ∃ r, prngReg c r)

/-! ## The pallas calls as segments -/

set_option backward.isDefEq.respectTransparency.types false in
/-- Pallas call 0 as a segment: entered with every unscoped buffer at the contents `W1`, left with them at `W2`: its
    arrays are split out of the unscoped buffers at entry and put back, at what the write-backs leave, at exit; the
    generator register goes into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment: entered with every unscoped buffer at the contents `W2`, left with them at `W3`: its
    arrays are split out of the unscoped buffers at entry and put back, at what the write-backs leave, at exit; the
    generator register goes into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- From any launch memory with zero counters every weakly fair execution of @main terminates, nothing faulting, and
    every final state has every unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c)⟩) (run_all m ρ)

end Cert.Kernel.Hand

end
-- ==== Proof.KiRegion0.lean ====
/-
  The first pallas call (two projections of the user rows out of one joined matrix product, and the conversation layer:
  linear, layer normalisation, clamp), at the buffer contents `V` the region is entered with: what each window's staging
  buffer holds around the body at every grid point, the body's run on those buffers, and the pipeline's body obligation.
  Stated for any float instance.
-/
import proofs.«120052_j19413252177999_2_alg».proof.Proof.Gen.KernelIdeal.Launch
import proofs.«120052_j19413252177999_2_alg».proof.Proof.Gen.KernelIdeal.Skeleton
import proofs.«120052_j19413252177999_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Region 0: the two user projections and the conversation layer, 25 points of 4000 rows -/

/-- Window `w`'s block at grid point `t`, read off its array as the region finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    kept it from an earlier point (the index map has not moved): input window 0. -/
theorem held0_0_of {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)

/-- An input window's current staging buffer holds its block at every point, whether the pipeline fetched it there or
    kept it from an earlier point (the index map has not moved): input window 1. -/
theorem held0_1_of {c : Dev nD} (dat : Dat τ (Elt F) Unit ℕ (UR sig nD τ) ℕ cfg0 c) (hA : dat.A 1 = V c (Pipeline.arrRef spec0 1))
    (hafter : ∀ t, dat.after 1 t = blockAt0 V c 1 t) (t : Fin cfg0.N) (d) : dat.before 1 t d = blockAt0 V c 1 t :=
  (dat.before_in_eq_fetched 1 rfl (fun _ => rfl) (fun _ _ _ => rfl) (fun t => by rw [hafter]; unfold Dat.blockOf blockAt0; rw [hA]; try rfl) t d).trans
    (by unfold Dat.fetched Dat.blockOf blockAt0; rw [hA]; try rfl)

/-- An input window's current staging buffer holds its block at every point, whether the pipeline fetched it there or
    kept it from an earlier point (the index map has not moved): input window 2. -/
theorem held0_2_of {c : Dev nD} (dat : Dat τ (Elt F) Unit ℕ (UR sig nD τ) ℕ cfg0 c) (hA : dat.A 2 = V c (Pipeline.arrRef spec0 2))
    (hafter : ∀ t, dat.after 2 t = blockAt0 V c 2 t) (t : Fin cfg0.N) (d) : dat.before 2 t d = blockAt0 V c 2 t :=
  (dat.before_in_eq_fetched 2 rfl (fun _ => rfl) (fun _ _ _ => rfl) (fun t => by rw [hafter]; unfold Dat.blockOf blockAt0; rw [hA]; try rfl) t d).trans
    (by unfold Dat.fetched Dat.blockOf blockAt0; rw [hA]; try rfl)

/-- An input window's current staging buffer holds its block at every point, whether the pipeline fetched it there or
    kept it from an earlier point (the index map has not moved): input window 3. -/
theorem held0_3_of {c : Dev nD} (dat : Dat τ (Elt F) Unit ℕ (UR sig nD τ) ℕ cfg0 c) (hA : dat.A 3 = V c (Pipeline.arrRef spec0 3))
    (hafter : ∀ t, dat.after 3 t = blockAt0 V c 3 t) (t : Fin cfg0.N) (d) : dat.before 3 t d = blockAt0 V c 3 t :=
  (dat.before_in_eq_fetched 3 rfl (fun _ => rfl) (fun _ _ _ => rfl) (fun t => by rw [hafter]; unfold Dat.blockOf blockAt0; rw [hA]; try rfl) t d).trans
    (by unfold Dat.fetched Dat.blockOf blockAt0; rw [hA]; try rfl)

/-- An input window's current staging buffer holds its block at every point, whether the pipeline fetched it there or
    kept it from an earlier point (the index map has not moved): input window 4. -/
theorem held0_4_of {c : Dev nD} (dat : Dat τ (Elt F) Unit ℕ (UR sig nD τ) ℕ cfg0 c) (hA : dat.A 4 = V c (Pipeline.arrRef spec0 4))
    (hafter : ∀ t, dat.after 4 t = blockAt0 V c 4 t) (t : Fin cfg0.N) (d) : dat.before 4 t d = blockAt0 V c 4 t :=
  (dat.before_in_eq_fetched 4 rfl (fun _ => rfl) (fun _ _ _ => rfl) (fun t => by rw [hafter]; unfold Dat.blockOf blockAt0; rw [hA]; try rfl) t d).trans
    (by unfold Dat.fetched Dat.blockOf blockAt0; rw [hA]; try rfl)

/-- An input window's current staging buffer holds its block at every point, whether the pipeline fetched it there or
    kept it from an earlier point (the index map has not moved): input window 5. -/
theorem held0_5_of {c : Dev nD} (dat : Dat τ (Elt F) Unit ℕ (UR sig nD τ) ℕ cfg0 c) (hA : dat.A 5 = V c (Pipeline.arrRef spec0 5))
    (hafter : ∀ t, dat.after 5 t = blockAt0 V c 5 t) (t : Fin cfg0.N) (d) : dat.before 5 t d = blockAt0 V c 5 t :=
  (dat.before_in_eq_fetched 5 rfl (fun _ => rfl) (fun _ _ _ => rfl) (fun t => by rw [hafter]; unfold Dat.blockOf blockAt0; rw [hA]; try rfl) t d).trans
    (by unfold Dat.fetched Dat.blockOf blockAt0; rw [hA]; try rfl)

/-- An input window's current staging buffer holds its block at every point, whether the pipeline fetched it there or
    kept it from an earlier point (the index map has not moved): input window 6. -/
theorem held0_6_of {c : Dev nD} (dat : Dat τ (Elt F) Unit ℕ (UR sig nD τ) ℕ cfg0 c) (hA : dat.A 6 = V c (Pipeline.arrRef spec0 6))
    (hafter : ∀ t, dat.after 6 t = blockAt0 V c 6 t) (t : Fin cfg0.N) (d) : dat.before 6 t d = blockAt0 V c 6 t :=
  (dat.before_in_eq_fetched 6 rfl (fun _ => rfl) (fun _ _ _ => rfl) (fun t => by rw [hafter]; unfold Dat.blockOf blockAt0; rw [hA]; try rfl) t d).trans
    (by unfold Dat.fetched Dat.blockOf blockAt0; rw [hA]; try rfl)

/-- An input window's current staging buffer holds its block at every point, whether the pipeline fetched it there or
    kept it from an earlier point (the index map has not moved): input window 7. -/
theorem held0_7_of {c : Dev nD} (dat : Dat τ (Elt F) Unit ℕ (UR sig nD τ) ℕ cfg0 c) (hA : dat.A 7 = V c (Pipeline.arrRef spec0 7))
    (hafter : ∀ t, dat.after 7 t = blockAt0 V c 7 t) (t : Fin cfg0.N) (d) : dat.before 7 t d = blockAt0 V c 7 t :=
  (dat.before_in_eq_fetched 7 rfl (fun _ => rfl) (fun _ _ _ => rfl) (fun t => by rw [hafter]; unfold Dat.blockOf blockAt0; rw [hA]; try rfl) t d).trans
    (by unfold Dat.fetched Dat.blockOf blockAt0; rw [hA]; try rfl)

/-- An input window's current staging buffer holds its block at every point, whether the pipeline fetched it there or
    kept it from an earlier point (the index map has not moved): input window 8. -/
theorem held0_8_of {c : Dev nD} (dat : Dat τ (Elt F) Unit ℕ (UR sig nD τ) ℕ cfg0 c) (hA : dat.A 8 = V c (Pipeline.arrRef spec0 8))
    (hafter : ∀ t, dat.after 8 t = blockAt0 V c 8 t) (t : Fin cfg0.N) (d) : dat.before 8 t d = blockAt0 V c 8 t :=
  (dat.before_in_eq_fetched 8 rfl (fun _ => rfl) (fun _ _ _ => rfl) (fun t => by rw [hafter]; unfold Dat.blockOf blockAt0; rw [hA]; try rfl) t d).trans
    (by unfold Dat.fetched Dat.blockOf blockAt0; rw [hA]; try rfl)

/-- The whole-buffer rectangles the body loads and stores through. -/
abbrev r0_0 : Rect S4000x128 := Rect.unit (s := S4000x128) ![0, 0] S4000x128.size inb_S4000x128_S4000x128_0_0
abbrev r0_1 : Rect S4000x64 := Rect.unit (s := S4000x64) ![0, 0] S4000x64.size inb_S4000x64_S4000x64_0_0
abbrev r0_2 : Rect S128x256 := Rect.unit (s := S128x256) ![0, 0] S128x256.size inb_S128x256_S128x256_0_0
abbrev r0_3 : Rect S256 := Rect.unit (s := S256) ![0] S256.size inb_S256_S256_0
abbrev r0_4 : Rect S128x128 := Rect.unit (s := S128x128) ![0, 0] S128x128.size inb_S128x128_S128x128_0_0
abbrev r0_5 : Rect S64x128 := Rect.unit (s := S64x128) ![0, 0] S64x128.size inb_S64x128_S64x128_0_0
abbrev r0_6 : Rect S128 := Rect.unit (s := S128) ![0] S128.size inb_S128_S128_0
abbrev r0_7 : Rect S128 := Rect.unit (s := S128) ![0] S128.size inb_S128_S128_0
abbrev r0_8 : Rect S128 := Rect.unit (s := S128) ![0] S128.size inb_S128_S128_0
abbrev r0_9 : Rect S4000x128 := Rect.unit (s := S4000x128) ![0, 0] S4000x128.size inb_S4000x128_S4000x128_0_0
abbrev r0_10 : Rect S4000x128 := Rect.unit (s := S4000x128) ![0, 0] S4000x128.size inb_S4000x128_S4000x128_0_0
abbrev r0_11 : Rect S4000x128 := Rect.unit (s := S4000x128) ![0, 0] S4000x128.size inb_S4000x128_S4000x128_0_0

/-- The first output block of one point: columns 0 to 127 of the 4000 user rows times the joined parameter matrix, plus the joined bias. -/
def pubBlock (x0 : Vec F S4000x128 .f32) (x1 : Vec F S4000x64 .f32) (x2 : Vec F S128x256 .bf16) (x3 : Vec F S256 .f32) (x4 : Vec F S128x128 .bf16) (x5 : Vec F S64x128 .bf16) (x6 : Vec F S128 .f32) (x7 : Vec F S128 .f32) (x8 : Vec F S128 .f32) : Vec F S4000x128 .f32 :=
  View.canon [⟨r0_9, k0_pay4 (View.ld x0 r0_0) (View.ld x2 r0_2) (View.ld x3 r0_3)⟩]

/-- Its one store writes the whole buffer. -/
theorem pubBlock_cover (p0 : Vec F S4000x128 .f32) (y : S4000x128.Idx) :
    ∃ pc ∈ ([⟨r0_9, p0⟩] : List (View.Piece (Elt F) S4000x128 .f32)), y ∈ pc.1.set :=
  View.cover_of_tiled [⟨r0_9, p0⟩] S4000x128.size (by rfl) y

/-- The second output block: columns 128 to 255 of the same product and bias. -/
def comBlock (x0 : Vec F S4000x128 .f32) (x1 : Vec F S4000x64 .f32) (x2 : Vec F S128x256 .bf16) (x3 : Vec F S256 .f32) (x4 : Vec F S128x128 .bf16) (x5 : Vec F S64x128 .bf16) (x6 : Vec F S128 .f32) (x7 : Vec F S128 .f32) (x8 : Vec F S128 .f32) : Vec F S4000x128 .f32 :=
  View.canon [⟨r0_10, k0_pay5 (View.ld x0 r0_0) (View.ld x2 r0_2) (View.ld x3 r0_3)⟩]

/-- Its one store writes the whole buffer. -/
theorem comBlock_cover (p0 : Vec F S4000x128 .f32) (y : S4000x128.Idx) :
    ∃ pc ∈ ([⟨r0_10, p0⟩] : List (View.Piece (Elt F) S4000x128 .f32)), y ∈ pc.1.set :=
  View.cover_of_tiled [⟨r0_10, p0⟩] S4000x128.size (by rfl) y

/-- The third output block: the conversation layer of the 4000 rows — a linear layer over the user row and its context row, layer normalisation, scale and shift, clamped below at zero. -/
def convBlock (x0 : Vec F S4000x128 .f32) (x1 : Vec F S4000x64 .f32) (x2 : Vec F S128x256 .bf16) (x3 : Vec F S256 .f32) (x4 : Vec F S128x128 .bf16) (x5 : Vec F S64x128 .bf16) (x6 : Vec F S128 .f32) (x7 : Vec F S128 .f32) (x8 : Vec F S128 .f32) : Vec F S4000x128 .f32 :=
  View.canon [⟨r0_11, k0_pay1 (k0_pay6 (View.ld x0 r0_0) (View.ld x1 r0_1) (View.ld x4 r0_4) (View.ld x5 r0_5) (View.ld x6 r0_6)) (k0_pay7 (View.ld x0 r0_0) (View.ld x1 r0_1) (View.ld x4 r0_4) (View.ld x5 r0_5) (View.ld x6 r0_6)) (k0_pay8 (View.ld x0 r0_0) (View.ld x1 r0_1) (View.ld x4 r0_4) (View.ld x5 r0_5) (View.ld x6 r0_6)) (View.ld x7 r0_7) (View.ld x8 r0_8)⟩]

/-- Its one store writes the whole buffer. -/
theorem convBlock_cover (p0 : Vec F S4000x128 .f32) (y : S4000x128.Idx) :
    ∃ pc ∈ ([⟨r0_11, p0⟩] : List (View.Piece (Elt F) S4000x128 .f32)), y ∈ pc.1.set :=
  View.cover_of_tiled [⟨r0_11, p0⟩] S4000x128.size (by rfl) y

set_option maxHeartbeats 4000000 in
/-- The body on whole staging buffers — the inputs' at known contents, the outputs' at anything — runs to the end
    leaving the inputs' as they were and each output's at its block as a function of the inputs'. -/
theorem body_runs0 (c : Dev nD) (E : Set ℕ) (i : grid0.Coords) (arg1 : Memref sig .tc .vmem S4000x128 .f32) (harg1 : arg1.IsWhole) (arg2 : Memref sig .tc .vmem S4000x64 .f32) (harg2 : arg2.IsWhole) (arg3 : Memref sig .tc .vmem S128x256 .bf16) (harg3 : arg3.IsWhole) (arg4 : Memref sig .tc .vmem S256 .f32) (harg4 : arg4.IsWhole) (arg5 : Memref sig .tc .vmem S128x128 .bf16) (harg5 : arg5.IsWhole) (arg6 : Memref sig .tc .vmem S64x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S4000x128 .f32) (harg10 : arg10.IsWhole) (arg11 : Memref sig .tc .vmem S4000x128 .f32) (harg11 : arg11.IsWhole) (arg12 : Memref sig .tc .vmem S4000x128 .f32) (harg12 : arg12.IsWhole)
    (x0 : Vec F S4000x128 .f32) (x1 : Vec F S4000x64 .f32) (x2 : Vec F S128x256 .bf16) (x3 : Vec F S256 .f32) (x4 : Vec F S128x128 .bf16) (x5 : Vec F S64x128 .bf16) (x6 : Vec F S128 .f32) (x7 : Vec F S128 .f32) (x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (pubBlock x0 x1 x2 x3 x4 x5 x6 x7 x8) ∗ owns (c : Thread nD τ) arg11 fullShare (comBlock x0 x1 x2 x3 x4 x5 x6 x7 x8) ∗ owns (c : Thread nD τ) arg12 fullShare (convBlock x0 x1 x2 x3 x4 x5 x6 x7 x8)) -∗ K ⟨⟩))
      ⊢ wp frame (wpE (defs₀ (F := F)) Variants.none c none) E (cc0__ac_kernel i arg1 harg1 arg2 harg2 arg3 harg3 arg4 harg4 arg5 harg5 arg6 harg6 arg7 harg7 arg8 harg8 arg9 harg9 arg10 harg10 arg11 harg11 arg12 harg12) K := by
  simp only [cc0__ac_kernel_eq_skeleton]; unfold cc0__ac_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (pubBlock_cover _)
  isplitl [H10]
  · iexists _; isplitr
    swap; · iexact H10
    ipureintro
    try dsimp only
    exact View.read_writes_eq_canon _ _ _ (comBlock_cover _)
  iexists _; isplitr
  swap; · iexact H11
  ipureintro
  try dsimp only
  exact View.read_writes_eq_canon _ _ _ (convBlock_cover _)

/-- The pipeline's proof data on core `c`: the arrays as the region finds them; after the body at point `t` each
    input's buffer still at its block and each output's at its block as computed from the inputs' blocks; the scoped
    rest and the generator register ride along untouched; nothing is owed. -/
def data0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => blockAt0 V c 2 t
    | ⟨3, _⟩ => blockAt0 V c 3 t
    | ⟨4, _⟩ => blockAt0 V c 4 t
    | ⟨5, _⟩ => blockAt0 V c 5 t
    | ⟨6, _⟩ => blockAt0 V c 6 t
    | ⟨7, _⟩ => blockAt0 V c 7 t
    | ⟨8, _⟩ => blockAt0 V c 8 t
    | ⟨9, _⟩ => pubBlock (blockAt0 V c 0 t) (blockAt0 V c 1 t) (blockAt0 V c 2 t) (blockAt0 V c 3 t) (blockAt0 V c 4 t) (blockAt0 V c 5 t) (blockAt0 V c 6 t) (blockAt0 V c 7 t) (blockAt0 V c 8 t)
    | ⟨10, _⟩ => comBlock (blockAt0 V c 0 t) (blockAt0 V c 1 t) (blockAt0 V c 2 t) (blockAt0 V c 3 t) (blockAt0 V c 4 t) (blockAt0 V c 5 t) (blockAt0 V c 6 t) (blockAt0 V c 7 t) (blockAt0 V c 8 t)
    | ⟨11, _⟩ => convBlock (blockAt0 V c 0 t) (blockAt0 V c 1 t) (blockAt0 V c 2 t) (blockAt0 V c 3 t) (blockAt0 V c 4 t) (blockAt0 V c 5 t) (blockAt0 V c 6 t) (blockAt0 V c 7 t) (blockAt0 V c 8 t)
  Φ _ := Pipeline.ΦA spec0 c
  q _ := fullShare
  owed _ := 0

theorem data0_A (c : Dev nD) (w : Fin cfg0.W) : (data0 V c).A w = V c (Pipeline.arrRef spec0 w) := by
  dsimp only [data0]

theorem after0_0 (c : Dev nD) (t : Fin cfg0.N) : (data0 V c).after 0 t = blockAt0 V c 0 t := by dsimp only [data0]
theorem after0_1 (c : Dev nD) (t : Fin cfg0.N) : (data0 V c).after 1 t = blockAt0 V c 1 t := by dsimp only [data0]
theorem after0_2 (c : Dev nD) (t : Fin cfg0.N) : (data0 V c).after 2 t = blockAt0 V c 2 t := by dsimp only [data0]
theorem after0_3 (c : Dev nD) (t : Fin cfg0.N) : (data0 V c).after 3 t = blockAt0 V c 3 t := by dsimp only [data0]
theorem after0_4 (c : Dev nD) (t : Fin cfg0.N) : (data0 V c).after 4 t = blockAt0 V c 4 t := by dsimp only [data0]
theorem after0_5 (c : Dev nD) (t : Fin cfg0.N) : (data0 V c).after 5 t = blockAt0 V c 5 t := by dsimp only [data0]
theorem after0_6 (c : Dev nD) (t : Fin cfg0.N) : (data0 V c).after 6 t = blockAt0 V c 6 t := by dsimp only [data0]
theorem after0_7 (c : Dev nD) (t : Fin cfg0.N) : (data0 V c).after 7 t = blockAt0 V c 7 t := by dsimp only [data0]
theorem after0_8 (c : Dev nD) (t : Fin cfg0.N) : (data0 V c).after 8 t = blockAt0 V c 8 t := by dsimp only [data0]
theorem after0_9 (c : Dev nD) (t : Fin cfg0.N) : (data0 V c).after 9 t = pubBlock (blockAt0 V c 0 t) (blockAt0 V c 1 t) (blockAt0 V c 2 t) (blockAt0 V c 3 t) (blockAt0 V c 4 t) (blockAt0 V c 5 t) (blockAt0 V c 6 t) (blockAt0 V c 7 t) (blockAt0 V c 8 t) := by dsimp only [data0]
theorem after0_10 (c : Dev nD) (t : Fin cfg0.N) : (data0 V c).after 10 t = comBlock (blockAt0 V c 0 t) (blockAt0 V c 1 t) (blockAt0 V c 2 t) (blockAt0 V c 3 t) (blockAt0 V c 4 t) (blockAt0 V c 5 t) (blockAt0 V c 6 t) (blockAt0 V c 7 t) (blockAt0 V c 8 t) := by dsimp only [data0]
theorem after0_11 (c : Dev nD) (t : Fin cfg0.N) : (data0 V c).after 11 t = convBlock (blockAt0 V c 0 t) (blockAt0 V c 1 t) (blockAt0 V c 2 t) (blockAt0 V c 3 t) (blockAt0 V c 4 t) (blockAt0 V c 5 t) (blockAt0 V c 6 t) (blockAt0 V c 7 t) (blockAt0 V c 8 t) := by dsimp only [data0]

theorem held0_0 (c : Dev nD) (t : Fin cfg0.N) (d) : (data0 V c).before 0 t d = blockAt0 V c 0 t :=
  held0_0_of V (data0 V c) (data0_A V c 0) (after0_0 V c) t d
theorem held0_1 (c : Dev nD) (t : Fin cfg0.N) (d) : (data0 V c).before 1 t d = blockAt0 V c 1 t :=
  held0_1_of V (data0 V c) (data0_A V c 1) (after0_1 V c) t d
theorem held0_2 (c : Dev nD) (t : Fin cfg0.N) (d) : (data0 V c).before 2 t d = blockAt0 V c 2 t :=
  held0_2_of V (data0 V c) (data0_A V c 2) (after0_2 V c) t d
theorem held0_3 (c : Dev nD) (t : Fin cfg0.N) (d) : (data0 V c).before 3 t d = blockAt0 V c 3 t :=
  held0_3_of V (data0 V c) (data0_A V c 3) (after0_3 V c) t d
theorem held0_4 (c : Dev nD) (t : Fin cfg0.N) (d) : (data0 V c).before 4 t d = blockAt0 V c 4 t :=
  held0_4_of V (data0 V c) (data0_A V c 4) (after0_4 V c) t d
theorem held0_5 (c : Dev nD) (t : Fin cfg0.N) (d) : (data0 V c).before 5 t d = blockAt0 V c 5 t :=
  held0_5_of V (data0 V c) (data0_A V c 5) (after0_5 V c) t d
theorem held0_6 (c : Dev nD) (t : Fin cfg0.N) (d) : (data0 V c).before 6 t d = blockAt0 V c 6 t :=
  held0_6_of V (data0 V c) (data0_A V c 6) (after0_6 V c) t d
theorem held0_7 (c : Dev nD) (t : Fin cfg0.N) (d) : (data0 V c).before 7 t d = blockAt0 V c 7 t :=
  held0_7_of V (data0 V c) (data0_A V c 7) (after0_7 V c) t d
theorem held0_8 (c : Dev nD) (t : Fin cfg0.N) (d) : (data0 V c).before 8 t d = blockAt0 V c 8 t :=
  held0_8_of V (data0 V c) (data0_A V c 8) (after0_8 V c) t d

/-- What the body is called with at point `t`, window by window, -/
def bodyPre0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d))
    ∗ (∃ d, owns (c : Thread nD τ) (st0_4 t) fullShare ((data0 V c).before 4 t d))
    ∗ (∃ d, owns (c : Thread nD τ) (st0_5 t) fullShare ((data0 V c).before 5 t d))
    ∗ (∃ d, owns (c : Thread nD τ) (st0_6 t) fullShare ((data0 V c).before 6 t d))
    ∗ (∃ d, owns (c : Thread nD τ) (st0_7 t) fullShare ((data0 V c).before 7 t d))
    ∗ (∃ d, owns (c : Thread nD τ) (st0_8 t) fullShare ((data0 V c).before 8 t d))
    ∗ (∃ d, owns (c : Thread nD τ) (st0_9 t) fullShare ((data0 V c).before 9 t d))
    ∗ (∃ d, owns (c : Thread nD τ) (st0_10 t) fullShare ((data0 V c).before 10 t d))
    ∗ (∃ d, owns (c : Thread nD τ) (st0_11 t) fullShare ((data0 V c).before 11 t d)))

/-- and what it returns. -/
def bodyPost0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t)
    ∗ owns (c : Thread nD τ) (st0_4 t) fullShare ((data0 V c).after 4 t)
    ∗ owns (c : Thread nD τ) (st0_5 t) fullShare ((data0 V c).after 5 t)
    ∗ owns (c : Thread nD τ) (st0_6 t) fullShare ((data0 V c).after 6 t)
    ∗ owns (c : Thread nD τ) (st0_7 t) fullShare ((data0 V c).after 7 t)
    ∗ owns (c : Thread nD τ) (st0_8 t) fullShare ((data0 V c).after 8 t)
    ∗ owns (c : Thread nD τ) (st0_9 t) fullShare ((data0 V c).after 9 t)
    ∗ owns (c : Thread nD τ) (st0_10 t) fullShare ((data0 V c).after 10 t)
    ∗ owns (c : Thread nD τ) (st0_11 t) fullShare ((data0 V c).after 11 t))

set_option maxHeartbeats 1000000 in
/-- The body at any point: the inputs' buffers hold their blocks, so `body_runs0` applies; the invariant and what the
    core owes pass through unread. -/
theorem body_at0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1, held0_2, held0_3, held0_4, held0_5, held0_6, held0_7, held0_8]
  rw [show (data0 V c).Φ t.succ = (data0 V c).Φ t.castSucc from rfl,
    show (data0 V c).owesAt () t.succ = (data0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_runs0 c Set.univ _ _ _ _ _ _ _ _ _ _ _ _ _ _ _ _ _ _ _ _ _ _ _ _ _ (blockAt0 V c 0 t) (blockAt0 V c 1 t) (blockAt0 V c 2 t) (blockAt0 V c 3 t) (blockAt0 V c 4 t) (blockAt0 V c 5 t) (blockAt0 V c 6 t) (blockAt0 V c 7 t) (blockAt0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline library's body obligation, at every point. -/
theorem body_obligation0 (c : Dev nD) : BodyObligation (data0 (F := F) V c) (defs₀ (F := F)) Variants.none () Set.univ := fun t => by
  rw [bigSep_W0, bigSep_W0]
  exact body_at0 V c t

end Cert.KernelIdeal.Hand

end
-- ==== Proof.KiRegion1.lean ====
/-
  The second pallas call (a linear layer over blocks of 8000 edge rows), at the buffer contents `V` the region is entered
  with: what each window's staging buffer holds around the body at every grid point, the body's run on those buffers, and
  the pipeline's body obligation. Stated for any float instance.
-/
import proofs.«120052_j19413252177999_2_alg».proof.Proof.Gen.KernelIdeal.Launch
import proofs.«120052_j19413252177999_2_alg».proof.Proof.Gen.KernelIdeal.Skeleton
import proofs.«120052_j19413252177999_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Region 1: the edge-feature projection, 200 points of 8000 rows -/

/-- Window `w`'s block at grid point `t`, read off its array as the region finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or
    kept it from an earlier point (the index map has not moved): input window 0. -/
theorem held1_0_of {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)

/-- An input window's current staging buffer holds its block at every point, whether the pipeline fetched it there or
    kept it from an earlier point (the index map has not moved): input window 1. -/
theorem held1_1_of {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)

/-- An input window's current staging buffer holds its block at every point, whether the pipeline fetched it there or
    kept it from an earlier point (the index map has not moved): input window 2. -/
theorem held1_2_of {c : Dev nD} (dat : Dat τ (Elt F) Unit ℕ (UR sig nD τ) ℕ cfg1 c) (hA : dat.A 2 = V c (Pipeline.arrRef spec1 2))
    (hafter : ∀ t, dat.after 2 t = blockAt1 V c 2 t) (t : Fin cfg1.N) (d) : dat.before 2 t d = blockAt1 V c 2 t :=
  (dat.before_in_eq_fetched 2 rfl (fun _ => rfl) (fun _ _ _ => rfl) (fun t => by rw [hafter]; unfold Dat.blockOf blockAt1; rw [hA]; try rfl) t d).trans
    (by unfold Dat.fetched Dat.blockOf blockAt1; rw [hA]; try rfl)

/-- The whole-buffer rectangles the body loads and stores through. -/
abbrev r1_0 : Rect S8000x64 := Rect.unit (s := S8000x64) ![0, 0] S8000x64.size inb_S8000x64_S8000x64_0_0
abbrev r1_1 : Rect S64x128 := Rect.unit (s := S64x128) ![0, 0] S64x128.size inb_S64x128_S64x128_0_0
abbrev r1_2 : Rect S128 := Rect.unit (s := S128) ![0] S128.size inb_S128_S128_0
abbrev r1_3 : Rect S8000x128 := Rect.unit (s := S8000x128) ![0, 0] S8000x128.size inb_S8000x128_S8000x128_0_0

/-- The output block of one point: 8000 rows of edge features times the parameter matrix, plus the bias row. -/
def edgeBlock (x0 : Vec F S8000x64 .f32) (x1 : Vec F S64x128 .bf16) (x2 : Vec F S128 .f32) : Vec F S8000x128 .f32 :=
  View.canon [⟨r1_3, k1_pay1 (View.ld x0 r1_0) (View.ld x1 r1_1) (View.ld x2 r1_2)⟩]

/-- Its one store writes the whole buffer. -/
theorem edgeBlock_cover (p0 : Vec F S8000x128 .f32) (y : S8000x128.Idx) :
    ∃ pc ∈ ([⟨r1_3, p0⟩] : List (View.Piece (Elt F) S8000x128 .f32)), y ∈ pc.1.set :=
  View.cover_of_tiled [⟨r1_3, p0⟩] S8000x128.size (by rfl) y

set_option maxHeartbeats 4000000 in
/-- The body on whole staging buffers — the inputs' at known contents, the outputs' at anything — runs to the end
    leaving the inputs' as they were and each output's at its block as a function of the inputs'. -/
theorem body_runs1 (c : Dev nD) (E : Set ℕ) (i : grid1.Coords) (arg1 : Memref sig .tc .vmem S8000x64 .f32) (harg1 : arg1.IsWhole) (arg2 : Memref sig .tc .vmem S64x128 .bf16) (harg2 : arg2.IsWhole) (arg3 : Memref sig .tc .vmem S128 .f32) (harg3 : arg3.IsWhole) (arg4 : Memref sig .tc .vmem S8000x128 .f32) (harg4 : arg4.IsWhole)
    (x0 : Vec F S8000x64 .f32) (x1 : Vec F S64x128 .bf16) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (edgeBlock x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (edgeBlock_cover _)

/-- The pipeline's proof data on core `c`: the arrays as the region finds them; after the body at point `t` each
    input's buffer still at its block and each output's at its block as computed from the inputs' blocks; the scoped
    rest and the generator register ride along untouched; nothing is owed. -/
def data1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => edgeBlock (blockAt1 V c 0 t) (blockAt1 V c 1 t) (blockAt1 V c 2 t)
  Φ _ := Pipeline.ΦA spec1 c
  q _ := fullShare
  owed _ := 0

theorem data1_A (c : Dev nD) (w : Fin cfg1.W) : (data1 V c).A w = V c (Pipeline.arrRef spec1 w) := by
  dsimp only [data1]

theorem after1_0 (c : Dev nD) (t : Fin cfg1.N) : (data1 V c).after 0 t = blockAt1 V c 0 t := by dsimp only [data1]
theorem after1_1 (c : Dev nD) (t : Fin cfg1.N) : (data1 V c).after 1 t = blockAt1 V c 1 t := by dsimp only [data1]
theorem after1_2 (c : Dev nD) (t : Fin cfg1.N) : (data1 V c).after 2 t = blockAt1 V c 2 t := by dsimp only [data1]
theorem after1_3 (c : Dev nD) (t : Fin cfg1.N) : (data1 V c).after 3 t = edgeBlock (blockAt1 V c 0 t) (blockAt1 V c 1 t) (blockAt1 V c 2 t) := by dsimp only [data1]

theorem held1_0 (c : Dev nD) (t : Fin cfg1.N) (d) : (data1 V c).before 0 t d = blockAt1 V c 0 t :=
  held1_0_of V (data1 V c) (data1_A V c 0) (after1_0 V c) t d
theorem held1_1 (c : Dev nD) (t : Fin cfg1.N) (d) : (data1 V c).before 1 t d = blockAt1 V c 1 t :=
  held1_1_of V (data1 V c) (data1_A V c 1) (after1_1 V c) t d
theorem held1_2 (c : Dev nD) (t : Fin cfg1.N) (d) : (data1 V c).before 2 t d = blockAt1 V c 2 t :=
  held1_2_of V (data1 V c) (data1_A V c 2) (after1_2 V c) t d

/-- What the body is called with at point `t`, window by window, -/
def bodyPre1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d)))

/-- and what it returns. -/
def bodyPost1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t))

set_option maxHeartbeats 1000000 in
/-- The body at any point: the inputs' buffers hold their blocks, so `body_runs1` applies; the invariant and what the
    core owes pass through unread. -/
theorem body_at1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1, held1_2]
  rw [show (data1 V c).Φ t.succ = (data1 V c).Φ t.castSucc from rfl,
    show (data1 V c).owesAt () t.succ = (data1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (body_runs1 c Set.univ _ _ _ _ _ _ _ _ _ (blockAt1 V c 0 t) (blockAt1 V c 1 t) (blockAt1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (data1 (F := F) V c) (defs₀ (F := F)) Variants.none () Set.univ := fun t => by
  rw [bigSep_W1, bigSep_W1]
  exact body_at1 V c t

end Cert.KernelIdeal.Hand

end
-- ==== Proof.KiRun.lean ====
/-
  The whole run of the program: @main is a stretch of host operations on the parameters, the two pallas calls, and a
  stretch of host operations (gathers, segment sums, the division by the segment sizes, the stacking of the three
  results). The buffer contents at each boundary are a fold from the launch memory: a host stretch applies its operations,
  a pallas call replaces its arrays by what its write-backs leave. Every weakly fair execution terminates without a fault
  with every unscoped buffer at the last boundary's contents; no operation and no pallas call writes an argument array, so
  each is read back through the fold to the launch memory. Stated for any float instance.
-/
import proofs.«120052_j19413252177999_2_alg».proof.Proof.KiRegion0
import proofs.«120052_j19413252177999_2_alg».proof.Proof.KiRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations on the parameters: what the first pallas call is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pallas call: its arrays at what its write-backs leave, every other buffer as entered. -/
def W2 (c : Dev nD) : Valuation τ sig (Elt F) :=
  Pipeline.withArrays spec0 c (W1 m ρ c) fun w => (data0 (V1 m ρ) c).arrAt w cfg0.N
theorem W2_arr (c : Dev nD) (w : Fin cfg0.W) :
    W2 m ρ c (Proc.devRef .tc (Pipeline.arrRef spec0 w)) = (data0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (data0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second pallas call, which is entered with what the first left. -/
def W3 (c : Dev nD) : Valuation τ sig (Elt F) :=
  Pipeline.withArrays spec1 c (W2 m ρ c) fun w => (data1 (V2 m ρ) c).arrAt w cfg1.N
theorem W3_arr (c : Dev nD) (w : Fin cfg1.W) :
    W3 m ρ c (Proc.devRef .tc (Pipeline.arrRef spec1 w)) = (data1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (data1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the closing host operations: the contents at the return. -/
abbrev W4 : Dev nD → Valuation τ sig (Elt F) := fun c => StableHlo.after hostOps2 (W3 m ρ c)

/-! ## The argument arrays end as launched -/

set_option maxHeartbeats 4000000

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := (W2_arr m ρ c 0).trans (((data0 (V1 m ρ) c).arrAt_in 0 rfl _).trans (data0_A (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := (W2_arr m ρ c 1).trans (((data0 (V1 m ρ) c).arrAt_in 1 rfl _).trans (data0_A (V1 m ρ) c 1))
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg3) := (W3_arr m ρ c 0).trans (((data1 (V2 m ρ) c).arrAt_in 0 rfl _).trans (data1_A (V2 m ρ) c 0))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_forall_not_mem (b := Proc.devRef .tc main_arg6) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_forall_not_mem (b := Proc.devRef .tc main_arg7) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := StableHlo.after_of_forall_not_mem (b := Proc.devRef .tc main_arg8) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := StableHlo.after_of_forall_not_mem (b := Proc.devRef .tc main_arg9) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := StableHlo.after_of_forall_not_mem (b := Proc.devRef .tc main_arg10) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := StableHlo.after_of_forall_not_mem (b := Proc.devRef .tc main_arg11) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg11) := rfl

theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := StableHlo.after_of_forall_not_mem (b := Proc.devRef .tc main_arg12) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg12) := rfl

theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := StableHlo.after_of_forall_not_mem (b := Proc.devRef .tc main_arg13) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg13) := rfl

theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := StableHlo.after_of_forall_not_mem (b := Proc.devRef .tc main_arg14) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg14) := rfl

theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := StableHlo.after_of_forall_not_mem (b := Proc.devRef .tc main_arg15) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg15) := W3_of_ne m ρ c main_arg15 (by decide)
    _ = W1 m ρ c (Proc.devRef .tc main_arg15) := (W2_arr m ρ c 6).trans (((data0 (V1 m ρ) c).arrAt_in 6 rfl _).trans (data0_A (V1 m ρ) c 6))
    _ = W0 m ρ c (Proc.devRef .tc main_arg15) := StableHlo.after_of_forall_not_mem (b := Proc.devRef .tc main_arg15) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg15) := rfl

theorem W4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := StableHlo.after_of_forall_not_mem (b := Proc.devRef .tc main_arg16) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg16) := W3_of_ne m ρ c main_arg16 (by decide)
    _ = W1 m ρ c (Proc.devRef .tc main_arg16) := (W2_arr m ρ c 7).trans (((data0 (V1 m ρ) c).arrAt_in 7 rfl _).trans (data0_A (V1 m ρ) c 7))
    _ = W0 m ρ c (Proc.devRef .tc main_arg16) := StableHlo.after_of_forall_not_mem (b := Proc.devRef .tc main_arg16) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg16) := rfl

theorem W4_main_arg17 (c : Dev nD) : W4 m ρ c (Proc.devRef .tc main_arg17) = m ((c : Thread nD τ).loc main_arg17) :=
  calc W4 m ρ c (Proc.devRef .tc main_arg17)
    _ = W3 m ρ c (Proc.devRef .tc main_arg17) := StableHlo.after_of_forall_not_mem (b := Proc.devRef .tc main_arg17) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg17) := W3_of_ne m ρ c main_arg17 (by decide)
    _ = W1 m ρ c (Proc.devRef .tc main_arg17) := (W2_arr m ρ c 8).trans (((data0 (V1 m ρ) c).arrAt_in 8 rfl _).trans (data0_A (V1 m ρ) c 8))
    _ = W0 m ρ c (Proc.devRef .tc main_arg17) := StableHlo.after_of_forall_not_mem (b := Proc.devRef .tc main_arg17) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg17) := rfl

theorem W4_main_arg18 (c : Dev nD) : W4 m ρ c (Proc.devRef .tc main_arg18) = m ((c : Thread nD τ).loc main_arg18) :=
  calc W4 m ρ c (Proc.devRef .tc main_arg18)
    _ = W3 m ρ c (Proc.devRef .tc main_arg18) := StableHlo.after_of_forall_not_mem (b := Proc.devRef .tc main_arg18) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg18) := W3_of_ne m ρ c main_arg18 (by decide)
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg18) := rfl

theorem W4_main_arg19 (c : Dev nD) : W4 m ρ c (Proc.devRef .tc main_arg19) = m ((c : Thread nD τ).loc main_arg19) :=
  calc W4 m ρ c (Proc.devRef .tc main_arg19)
    _ = W3 m ρ c (Proc.devRef .tc main_arg19) := StableHlo.after_of_forall_not_mem (b := Proc.devRef .tc main_arg19) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W2 m ρ c (Proc.devRef .tc main_arg19) := W3_of_ne m ρ c main_arg19 (by decide)
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg19) := rfl

/-! ## The proof data of both pipelines and the state carried between segments -/

abbrev adm : (p : Fin 2) → (pcfgs (F := F) p).Adm := fun p => (cfgs p).toPCfg_adm
/-- Each pipeline's proof data at the contents its pallas call is entered with. -/
def pdats : (p : Fin 2) → (c : Dev nD) → Dat τ (Elt F) Unit ℕ (UR sig nD τ) ℕ (Pipeline.pin (pcfgs (F := F)) adm p) c
  | ⟨0, _⟩ => fun c => data0 (V1 m ρ) c
  | ⟨1, _⟩ => fun c => data1 (V2 m ρ) c
abbrev 𝒱₀ : Variants := Variants.none
abbrev L : GSem nD τ sig → Finset Unit := fun _ => ∅
abbrev lv : GSem nD τ sig → Unit → ℕ := fun _ _ => 0
/-- Beside the buffers every segment carries the core's generator register at some state and the fact that it owes nothing. -/
abbrev R (c : Dev nD) : sProp 𝕄 := iprop((∃ r, prngReg c r) ∗ ∃ W, owes (c : Thread nD τ) (0 : CellTallies nD τ sig Unit) W)
/-- A stretch of host operations as a segment over all unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without what the core owes: every unscoped buffer at the return's contents, the generator register. -/
abbrev Tₙ (c : Dev nD) : sProp 𝕄 := iprop(StableHlo.held (c : Thread nD τ) (Pipeline.ucRefs τ sig) (W4 m ρ c) ∗ ∃ r, prngReg c r)

/-! ## The pallas calls as segments -/

set_option backward.isDefEq.respectTransparency.types false in
/-- Pallas call 0 as a segment: entered with every unscoped buffer at the contents `W1`, left with them at `W2`: its
    arrays are split out of the unscoped buffers at entry and put back, at what the write-backs leave, at exit; the
    generator register goes into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment: entered with every unscoped buffer at the contents `W2`, left with them at `W3`: its
    arrays are split out of the unscoped buffers at entry and put back, at what the write-backs leave, at exit; the
    generator register goes into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- From any launch memory with zero counters every weakly fair execution of @main terminates, nothing faulting, and
    every final state has every unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c)⟩) (run_all m ρ)

end Cert.KernelIdeal.Hand

end
-- ==== Proof.RefFrame.lean ====
/-
  The reference program runs to its end, faults nowhere and leaves its argument arrays as it found them:
  its run read back as one list of host operations, with the result dropped.
-/
import proofs.«120052_j19413252177999_2_alg».proof.Defs
import proofs.«120052_j19413252177999_2_alg».proof.Proof.Gen.ReferenceIdeal
import proofs.«120052_j19413252177999_2_alg».proof.Proof.Gen.ReferenceIdeal.Run
import proofs.«120052_j19413252177999_2_alg».proof.Proof.Gen.ReferenceIdeal.Read
import proofs.«120052_j19413252177999_2_alg».proof.Proof.Gen.Pre_finite_inputs

noncomputable section

namespace Cert.Proof.RefFrame

open Idealize.ShloMosaic Idealize.SL.Sem

theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.Proof.RefFrame

end
-- ==== Proof.LibNary3.lean ====
/-
  A host operation of THREE literal operands (a three-way concatenate) read at its result buffer: the operation's
  function applied to the three operands' contents, each AT ITS OWN REFERENCE (a tuple built by `Fin.cons`) rather than
  under a binder over the operand index — the form in which the operands' own producers can be read further back.
  No program is imported.
-/
import Idealize.ShloMosaic.Lib.StableHlo.Run

noncomputable section

namespace Idealize.ShloMosaic.StableHlo

variable {τ : Topo} {sig : RefSig} {Val : EltTy → Type}
variable {x a b y : Ref sig .tc}

/-- The result of a three-operand operation at its result reference, the operands' contents named one by one. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, in the form a single simplifier pass over a line of operations can use. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.Bridge.lean ====
/-
  The closing host operations of both programs are one function `tail` of three arrays — the published-post projection,
  the per-edge comment messages and the conversation output — and of the integer edge lists: per relation, gather the
  source rows, sum them by destination, divide by the destination's in-degree clamped below at one, and stack the three
  results. The reference applies it to its own three arrays; the kernel program applies it to what its two pallas calls
  leave, the comment messages being the gathered scaled projection plus the scaled edge projection.
-/
import proofs.«120052_j19413252177999_2_alg».proof.Proof.Gen.ReferenceIdeal.Read
import proofs.«120052_j19413252177999_2_alg».proof.Proof.Gen.KernelIdeal.Launch
import Idealize.ShloMosaic.Lib.StableHlo.Run
import proofs.«120052_j19413252177999_2_alg».proof.Proof.LibNary3

set_option maxRecDepth 16384

noncomputable section

namespace Cert.Bridge

open Idealize.ShloMosaic Idealize.SL.Sem

section
open Cert.ReferenceIdeal Cert.ReferenceIdeal.Gen Cert.ReferenceIdeal.Read

/-- Relation "publishes": the projection's rows gathered by source user, summed by destination post, divided by the
    post's in-degree clamped below at one, as a one-slab array. -/
def gPub (pub : (⟨S100000x128, .f32⟩ : BufTy).Contents (Elt Ideal)) (x4 : (⟨S100000, .i32⟩ : BufTy).Contents (Elt Ideal)) : (⟨S100000x128, .f32⟩ : BufTy).Contents (Elt Ideal) :=
  Host.gather gather_S100000x128_S100000x1_S100000x128_1_0_n_n_0_1_1128 pub (val_main_v9 (F := Ideal) x4)
def sPub (pub : (⟨S100000x128, .f32⟩ : BufTy).Contents (Elt Ideal)) (x4 x5 : (⟨S100000, .i32⟩ : BufTy).Contents (Elt Ideal)) : (⟨S100000x128, .f32⟩ : BufTy).Contents (Elt Ideal) :=
  Host.scatterAdd (F := Ideal) (φ := .f32) scatter_S100000x128_S100000x1_S100000x128_1_0_0_1 (val_main_v11 (F := Ideal)) (val_main_v12 (F := Ideal) x5) (gPub pub x4)
def mPub (pub : (⟨S100000x128, .f32⟩ : BufTy).Contents (Elt Ideal)) (x4 x5 : (⟨S100000, .i32⟩ : BufTy).Contents (Elt Ideal)) : (⟨S100000x128, .f32⟩ : BufTy).Contents (Elt Ideal) :=
  Host.divf (F := Ideal) (φ := .f32) (sPub pub x4 x5) (val_main_v20 (F := Ideal) x5)
def bPub (pub : (⟨S100000x128, .f32⟩ : BufTy).Contents (Elt Ideal)) (x4 x5 : (⟨S100000, .i32⟩ : BufTy).Contents (Elt Ideal)) : (⟨S1x100000x128, .f32⟩ : BufTy).Contents (Elt Ideal) :=
  broadcastInDim S1x100000x128 ![1, 2] bcast_S100000x128_S1x100000x128_1_2 (mPub pub x4 x5)
/-- Relation "comments": the per-edge messages summed by destination post and divided by the clamped in-degree. -/
def sCom (msg : (⟨S1600000x128, .f32⟩ : BufTy).Contents (Elt Ideal)) (x7 : (⟨S1600000, .i32⟩ : BufTy).Contents (Elt Ideal)) : (⟨S100000x128, .f32⟩ : BufTy).Contents (Elt Ideal) :=
  Host.scatterAdd (F := Ideal) (φ := .f32) scatter_S100000x128_S1600000x1_S1600000x128_1_0_0_1 (val_main_v42 (F := Ideal)) (val_main_v43 (F := Ideal) x7) msg
def mCom (msg : (⟨S1600000x128, .f32⟩ : BufTy).Contents (Elt Ideal)) (x7 : (⟨S1600000, .i32⟩ : BufTy).Contents (Elt Ideal)) : (⟨S100000x128, .f32⟩ : BufTy).Contents (Elt Ideal) :=
  Host.divf (F := Ideal) (φ := .f32) (sCom msg x7) (val_main_v51 (F := Ideal) x7)
def bCom (msg : (⟨S1600000x128, .f32⟩ : BufTy).Contents (Elt Ideal)) (x7 : (⟨S1600000, .i32⟩ : BufTy).Contents (Elt Ideal)) : (⟨S1x100000x128, .f32⟩ : BufTy).Contents (Elt Ideal) :=
  broadcastInDim S1x100000x128 ![1, 2] bcast_S100000x128_S1x100000x128_1_2 (mCom msg x7)
/-- Relation "user comments on user": the conversation rows gathered by source, summed by destination, divided. -/
def gUsr (z : (⟨S100000x128, .f32⟩ : BufTy).Contents (Elt Ideal)) (x8 : (⟨S1600000, .i32⟩ : BufTy).Contents (Elt Ideal)) : (⟨S1600000x128, .f32⟩ : BufTy).Contents (Elt Ideal) :=
  Host.gather gather_S100000x128_S1600000x1_S1600000x128_1_0_n_n_0_1_1128 z (val_main_v88 (F := Ideal) x8)
def sUsr (z : (⟨S100000x128, .f32⟩ : BufTy).Contents (Elt Ideal)) (x8 x9 : (⟨S1600000, .i32⟩ : BufTy).Contents (Elt Ideal)) : (⟨S100000x128, .f32⟩ : BufTy).Contents (Elt Ideal) :=
  Host.scatterAdd (F := Ideal) (φ := .f32) scatter_S100000x128_S1600000x1_S1600000x128_1_0_0_1 (val_main_v90 (F := Ideal)) (val_main_v91 (F := Ideal) x9) (gUsr z x8)
def mUsr (z : (⟨S100000x128, .f32⟩ : BufTy).Contents (Elt Ideal)) (x8 x9 : (⟨S1600000, .i32⟩ : BufTy).Contents (Elt Ideal)) : (⟨S100000x128, .f32⟩ : BufTy).Contents (Elt Ideal) :=
  Host.divf (F := Ideal) (φ := .f32) (sUsr z x8 x9) (val_main_v99 (F := Ideal) x9)
def bUsr (z : (⟨S100000x128, .f32⟩ : BufTy).Contents (Elt Ideal)) (x8 x9 : (⟨S1600000, .i32⟩ : BufTy).Contents (Elt Ideal)) : (⟨S1x100000x128, .f32⟩ : BufTy).Contents (Elt Ideal) :=
  broadcastInDim S1x100000x128 ![1, 2] bcast_S100000x128_S1x100000x128_1_2 (mUsr z x8 x9)

/-- Three per-relation results, each as a one-slab array, stacked along a new leading axis. -/
def stack (p q r : (⟨S100000x128, .f32⟩ : BufTy).Contents (Elt Ideal)) : (⟨S3x100000x128, .f32⟩ : BufTy).Contents (Elt Ideal) :=
  concatenate S3x100000x128 0
    [⟨S1x100000x128, broadcastInDim S1x100000x128 ![1, 2] bcast_S100000x128_S1x100000x128_1_2 p⟩,
     ⟨S1x100000x128, broadcastInDim S1x100000x128 ![1, 2] bcast_S100000x128_S1x100000x128_1_2 q⟩,
     ⟨S1x100000x128, broadcastInDim S1x100000x128 ![1, 2] bcast_S100000x128_S1x100000x128_1_2 r⟩]
    concatenates_S1x100000x128_S1x100000x128_S1x100000x128_S3x100000x128_d0

/-- The three relations' results stacked. -/
def tail (pub : (⟨S100000x128, .f32⟩ : BufTy).Contents (Elt Ideal)) (msg : (⟨S1600000x128, .f32⟩ : BufTy).Contents (Elt Ideal)) (z : (⟨S100000x128, .f32⟩ : BufTy).Contents (Elt Ideal)) (x4 x5 : (⟨S100000, .i32⟩ : BufTy).Contents (Elt Ideal))
    (x7 x8 x9 : (⟨S1600000, .i32⟩ : BufTy).Contents (Elt Ideal)) : (⟨S3x100000x128, .f32⟩ : BufTy).Contents (Elt Ideal) :=
  stack (mPub pub x4 x5) (mCom msg x7) (mUsr z x8 x9)

/-- The reference's result is `tail` of its own three arrays. -/
theorem ref_tail (x0 : (⟨S100000x128, .f32⟩ : BufTy).Contents (Elt Ideal)) (x2 : (⟨S100000x64, .f32⟩ : BufTy).Contents (Elt Ideal))
    (x3 : (⟨S1600000x64, .f32⟩ : BufTy).Contents (Elt Ideal)) (x4 x5 : (⟨S100000, .i32⟩ : BufTy).Contents (Elt Ideal))
    (x6 x7 x8 x9 : (⟨S1600000, .i32⟩ : BufTy).Contents (Elt Ideal)) (x10 : (⟨S128x128, .f32⟩ : BufTy).Contents (Elt Ideal))
    (x11 : (⟨S128, .f32⟩ : BufTy).Contents (Elt Ideal)) (x12 : (⟨S128x128, .f32⟩ : BufTy).Contents (Elt Ideal))
    (x13 : (⟨S128, .f32⟩ : BufTy).Contents (Elt Ideal)) (x14 : (⟨S192x128, .f32⟩ : BufTy).Contents (Elt Ideal))
    (x15 x16 x17 : (⟨S128, .f32⟩ : BufTy).Contents (Elt Ideal)) (x18 : (⟨S64x128, .f32⟩ : BufTy).Contents (Elt Ideal))
    (x19 : (⟨S128, .f32⟩ : BufTy).Contents (Elt Ideal)) :
    val_main_v104 (F := Ideal) x0 x2 x3 x4 x5 x6 x7 x8 x9 x10 x11 x12 x13 x14 x15 x16 x17 x18 x19
      = tail (val_main_v3 (F := Ideal) x0 x10 x11) (val_main_v41 (F := Ideal) x0 x3 x6 x12 x13 x18 x19)
          (val_main_v82 (F := Ideal) x0 x2 x14 x15 x16 x17) x4 x5 x7 x8 x9 := by
  unfold val_main_v104 val_main_v101 val_main_v102 val_main_v103 val_main_v21 val_main_v52 val_main_v100
    val_main_v13 val_main_v44 val_main_v92 val_main_v10 val_main_v89 tail stack mPub mCom mUsr sPub sCom sUsr gPub gUsr
  rfl

/-- The kernel program's comment messages from what its pallas calls leave: the scaled user projection gathered by source,
    plus the scaled edge projection. -/
def kerMsg (com : (⟨S100000x128, .f32⟩ : BufTy).Contents (Elt Ideal)) (eproj : (⟨S1600000x128, .f32⟩ : BufTy).Contents (Elt Ideal))
    (x6 : (⟨S1600000, .i32⟩ : BufTy).Contents (Elt Ideal)) : (⟨S1600000x128, .f32⟩ : BufTy).Contents (Elt Ideal) :=
  addf (F := Ideal) (s := S1600000x128) (φ := .f32)
    (Host.gather (α := Ideal .f32) gather_S100000x128_S1600000x1_S1600000x128_1_0_n_n_0_1_1128 com (val_main_v35 (F := Ideal) x6)) eproj

end

end Cert.Bridge

end
-- ==== Proof.KiTail.lean ====
/-
  The kernel program's closing host operations, read back in four stretches from any buffer contents: one stretch per
  relation (gather by source, sum by destination, divide by the clamped in-degree) and the stacking of the three results.
  Each stretch's result is a function of the buffers it reads; a stretch leaves every buffer it does not write as it was.
-/
import proofs.«120052_j19413252177999_2_alg».proof.Proof.Bridge

set_option maxRecDepth 100000

noncomputable section

namespace Cert.KernelIdeal.HandTail

open Cert.KernelIdeal Cert.KernelIdeal.Gen
open Idealize.ShloMosaic Idealize.SL.Sem

/-- The contents after two lines run one after the other. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

variable {F : FTy → Type} [FloatOps F]

/-- The closing operations cut into the stretch of the "publishes" relation (the first 24), of the "comments" relation
    (the next 25), of the "user comments on user" relation (the next 24), and the stacking (the last 4). -/
abbrev opsPub : List (HloOp τ sig (Elt F)) := (hostOps2 (F := F)).take 24
abbrev opsCom : List (HloOp τ sig (Elt F)) := ((hostOps2 (F := F)).drop 24).take 25
abbrev opsUsr : List (HloOp τ sig (Elt F)) := ((hostOps2 (F := F)).drop 49).take 24
abbrev opsStack : List (HloOp τ sig (Elt F)) := (hostOps2 (F := F)).drop 73

theorem hostOps2_split : (hostOps2 : List (HloOp τ sig (Elt F))) = opsPub ++ (opsCom ++ (opsUsr ++ opsStack)) := rfl

set_option maxHeartbeats 4000000

theorem pub_keeps_main_v16_1 (W : Valuation τ sig (Elt Ideal)) : StableHlo.after (opsPub (F := Ideal)) W (Proc.devRef .tc main_v16_1) = W (Proc.devRef .tc main_v16_1) :=
  StableHlo.after_of_forall_not_mem (b := Proc.devRef .tc main_v16_1) _ _ (List.forall_iff_forall_mem.mp (by
      simp only [opsPub, hostOps2, List.take_succ_cons, List.take_zero, List.drop_succ_cons, List.drop_zero, List.Forall, StableHlo.nullary_writes, StableHlo.unary_writes, StableHlo.binary_writes, StableHlo.ternary_writes, StableHlo.nary_writes, Finset.mem_singleton]
      repeat' apply And.intro
      all_goals exact StableHlo.devRef_ne_of_ne (by decide)))

theorem pub_keeps_main_v17 (W : Valuation τ sig (Elt Ideal)) : StableHlo.after (opsPub (F := Ideal)) W (Proc.devRef .tc main_v17) = W (Proc.devRef .tc main_v17) :=
  StableHlo.after_of_forall_not_mem (b := Proc.devRef .tc main_v17) _ _ (List.forall_iff_forall_mem.mp (by
      simp only [opsPub, hostOps2, List.take_succ_cons, List.take_zero, List.drop_succ_cons, List.drop_zero, List.Forall, StableHlo.nullary_writes, StableHlo.unary_writes, StableHlo.binary_writes, StableHlo.ternary_writes, StableHlo.nary_writes, Finset.mem_singleton]
      repeat' apply And.intro
      all_goals exact StableHlo.devRef_ne_of_ne (by decide)))

theorem pub_keeps_main_arg6 (W : Valuation τ sig (Elt Ideal)) : StableHlo.after (opsPub (F := Ideal)) W (Proc.devRef .tc main_arg6) = W (Proc.devRef .tc main_arg6) :=
  StableHlo.after_of_forall_not_mem (b := Proc.devRef .tc main_arg6) _ _ (List.forall_iff_forall_mem.mp (by
      simp only [opsPub, hostOps2, List.take_succ_cons, List.take_zero, List.drop_succ_cons, List.drop_zero, List.Forall, StableHlo.nullary_writes, StableHlo.unary_writes, StableHlo.binary_writes, StableHlo.ternary_writes, StableHlo.nary_writes, Finset.mem_singleton]
      repeat' apply And.intro
      all_goals exact StableHlo.devRef_ne_of_ne (by decide)))

theorem pub_keeps_main_arg7 (W : Valuation τ sig (Elt Ideal)) : StableHlo.after (opsPub (F := Ideal)) W (Proc.devRef .tc main_arg7) = W (Proc.devRef .tc main_arg7) :=
  StableHlo.after_of_forall_not_mem (b := Proc.devRef .tc main_arg7) _ _ (List.forall_iff_forall_mem.mp (by
      simp only [opsPub, hostOps2, List.take_succ_cons, List.take_zero, List.drop_succ_cons, List.drop_zero, List.Forall, StableHlo.nullary_writes, StableHlo.unary_writes, StableHlo.binary_writes, StableHlo.ternary_writes, StableHlo.nary_writes, Finset.mem_singleton]
      repeat' apply And.intro
      all_goals exact StableHlo.devRef_ne_of_ne (by decide)))

theorem pub_keeps_main_v16_2 (W : Valuation τ sig (Elt Ideal)) : StableHlo.after (opsPub (F := Ideal)) W (Proc.devRef .tc main_v16_2) = W (Proc.devRef .tc main_v16_2) :=
  StableHlo.after_of_forall_not_mem (b := Proc.devRef .tc main_v16_2) _ _ (List.forall_iff_forall_mem.mp (by
      simp only [opsPub, hostOps2, List.take_succ_cons, List.take_zero, List.drop_succ_cons, List.drop_zero, List.Forall, StableHlo.nullary_writes, StableHlo.unary_writes, StableHlo.binary_writes, StableHlo.ternary_writes, StableHlo.nary_writes, Finset.mem_singleton]
      repeat' apply And.intro
      all_goals exact StableHlo.devRef_ne_of_ne (by decide)))

theorem pub_keeps_main_arg8 (W : Valuation τ sig (Elt Ideal)) : StableHlo.after (opsPub (F := Ideal)) W (Proc.devRef .tc main_arg8) = W (Proc.devRef .tc main_arg8) :=
  StableHlo.after_of_forall_not_mem (b := Proc.devRef .tc main_arg8) _ _ (List.forall_iff_forall_mem.mp (by
      simp only [opsPub, hostOps2, List.take_succ_cons, List.take_zero, List.drop_succ_cons, List.drop_zero, List.Forall, StableHlo.nullary_writes, StableHlo.unary_writes, StableHlo.binary_writes, StableHlo.ternary_writes, StableHlo.nary_writes, Finset.mem_singleton]
      repeat' apply And.intro
      all_goals exact StableHlo.devRef_ne_of_ne (by decide)))

theorem pub_keeps_main_arg9 (W : Valuation τ sig (Elt Ideal)) : StableHlo.after (opsPub (F := Ideal)) W (Proc.devRef .tc main_arg9) = W (Proc.devRef .tc main_arg9) :=
  StableHlo.after_of_forall_not_mem (b := Proc.devRef .tc main_arg9) _ _ (List.forall_iff_forall_mem.mp (by
      simp only [opsPub, hostOps2, List.take_succ_cons, List.take_zero, List.drop_succ_cons, List.drop_zero, List.Forall, StableHlo.nullary_writes, StableHlo.unary_writes, StableHlo.binary_writes, StableHlo.ternary_writes, StableHlo.nary_writes, Finset.mem_singleton]
      repeat' apply And.intro
      all_goals exact StableHlo.devRef_ne_of_ne (by decide)))

theorem com_keeps_main_v35 (W : Valuation τ sig (Elt Ideal)) : StableHlo.after (opsCom (F := Ideal)) W (Proc.devRef .tc main_v35) = W (Proc.devRef .tc main_v35) :=
  StableHlo.after_of_forall_not_mem (b := Proc.devRef .tc main_v35) _ _ (List.forall_iff_forall_mem.mp (by
      simp only [opsCom, hostOps2, List.take_succ_cons, List.take_zero, List.drop_succ_cons, List.drop_zero, List.Forall, StableHlo.nullary_writes, StableHlo.unary_writes, StableHlo.binary_writes, StableHlo.ternary_writes, StableHlo.nary_writes, Finset.mem_singleton]
      repeat' apply And.intro
      all_goals exact StableHlo.devRef_ne_of_ne (by decide)))

theorem com_keeps_main_v16_2 (W : Valuation τ sig (Elt Ideal)) : StableHlo.after (opsCom (F := Ideal)) W (Proc.devRef .tc main_v16_2) = W (Proc.devRef .tc main_v16_2) :=
  StableHlo.after_of_forall_not_mem (b := Proc.devRef .tc main_v16_2) _ _ (List.forall_iff_forall_mem.mp (by
      simp only [opsCom, hostOps2, List.take_succ_cons, List.take_zero, List.drop_succ_cons, List.drop_zero, List.Forall, StableHlo.nullary_writes, StableHlo.unary_writes, StableHlo.binary_writes, StableHlo.ternary_writes, StableHlo.nary_writes, Finset.mem_singleton]
      repeat' apply And.intro
      all_goals exact StableHlo.devRef_ne_of_ne (by decide)))

theorem com_keeps_main_arg8 (W : Valuation τ sig (Elt Ideal)) : StableHlo.after (opsCom (F := Ideal)) W (Proc.devRef .tc main_arg8) = W (Proc.devRef .tc main_arg8) :=
  StableHlo.after_of_forall_not_mem (b := Proc.devRef .tc main_arg8) _ _ (List.forall_iff_forall_mem.mp (by
      simp only [opsCom, hostOps2, List.take_succ_cons, List.take_zero, List.drop_succ_cons, List.drop_zero, List.Forall, StableHlo.nullary_writes, StableHlo.unary_writes, StableHlo.binary_writes, StableHlo.ternary_writes, StableHlo.nary_writes, Finset.mem_singleton]
      repeat' apply And.intro
      all_goals exact StableHlo.devRef_ne_of_ne (by decide)))

theorem com_keeps_main_arg9 (W : Valuation τ sig (Elt Ideal)) : StableHlo.after (opsCom (F := Ideal)) W (Proc.devRef .tc main_arg9) = W (Proc.devRef .tc main_arg9) :=
  StableHlo.after_of_forall_not_mem (b := Proc.devRef .tc main_arg9) _ _ (List.forall_iff_forall_mem.mp (by
      simp only [opsCom, hostOps2, List.take_succ_cons, List.take_zero, List.drop_succ_cons, List.drop_zero, List.Forall, StableHlo.nullary_writes, StableHlo.unary_writes, StableHlo.binary_writes, StableHlo.ternary_writes, StableHlo.nary_writes, Finset.mem_singleton]
      repeat' apply And.intro
      all_goals exact StableHlo.devRef_ne_of_ne (by decide)))

theorem usr_keeps_main_v35 (W : Valuation τ sig (Elt Ideal)) : StableHlo.after (opsUsr (F := Ideal)) W (Proc.devRef .tc main_v35) = W (Proc.devRef .tc main_v35) :=
  StableHlo.after_of_forall_not_mem (b := Proc.devRef .tc main_v35) _ _ (List.forall_iff_forall_mem.mp (by
      simp only [opsUsr, hostOps2, List.take_succ_cons, List.take_zero, List.drop_succ_cons, List.drop_zero, List.Forall, StableHlo.nullary_writes, StableHlo.unary_writes, StableHlo.binary_writes, StableHlo.ternary_writes, StableHlo.nary_writes, Finset.mem_singleton]
      repeat' apply And.intro
      all_goals exact StableHlo.devRef_ne_of_ne (by decide)))

theorem usr_keeps_main_v54 (W : Valuation τ sig (Elt Ideal)) : StableHlo.after (opsUsr (F := Ideal)) W (Proc.devRef .tc main_v54) = W (Proc.devRef .tc main_v54) :=
  StableHlo.after_of_forall_not_mem (b := Proc.devRef .tc main_v54) _ _ (List.forall_iff_forall_mem.mp (by
      simp only [opsUsr, hostOps2, List.take_succ_cons, List.take_zero, List.drop_succ_cons, List.drop_zero, List.Forall, StableHlo.nullary_writes, StableHlo.unary_writes, StableHlo.binary_writes, StableHlo.ternary_writes, StableHlo.nary_writes, Finset.mem_singleton]
      repeat' apply And.intro
      all_goals exact StableHlo.devRef_ne_of_ne (by decide)))

theorem pub_result (W : Valuation τ sig (Elt Ideal)) :
    StableHlo.after (opsPub (F := Ideal)) W (Proc.devRef .tc main_v35)
      = Cert.Bridge.mPub (W (Proc.devRef .tc main_v16_0)) (W (Proc.devRef .tc main_arg4)) (W (Proc.devRef .tc main_arg5)) := by
  simp (disch := decide) only [opsPub, hostOps2, List.take_succ_cons, List.take_zero, List.drop_succ_cons, List.drop_zero, StableHlo.after_cons, StableHlo.after_nil,
    StableHlo.nullary_result', StableHlo.unary_result', StableHlo.binary_result', StableHlo.ternary_result', StableHlo.nary3_result',
    StableHlo.nullary_result_ne', StableHlo.unary_result_ne', StableHlo.binary_result_ne', StableHlo.ternary_result_ne', StableHlo.nary_result_ne']
  rfl

theorem com_result (W : Valuation τ sig (Elt Ideal)) :
    StableHlo.after (opsCom (F := Ideal)) W (Proc.devRef .tc main_v54)
      = Cert.Bridge.mCom (Cert.Bridge.kerMsg (W (Proc.devRef .tc main_v16_1)) (W (Proc.devRef .tc main_v17)) (W (Proc.devRef .tc main_arg6)))
          (W (Proc.devRef .tc main_arg7)) := by
  simp (disch := decide) only [opsCom, hostOps2, List.take_succ_cons, List.take_zero, List.drop_succ_cons, List.drop_zero, StableHlo.after_cons, StableHlo.after_nil,
    StableHlo.nullary_result', StableHlo.unary_result', StableHlo.binary_result', StableHlo.ternary_result', StableHlo.nary3_result',
    StableHlo.nullary_result_ne', StableHlo.unary_result_ne', StableHlo.binary_result_ne', StableHlo.ternary_result_ne', StableHlo.nary_result_ne']
  rfl

theorem usr_result (W : Valuation τ sig (Elt Ideal)) :
    StableHlo.after (opsUsr (F := Ideal)) W (Proc.devRef .tc main_v72)
      = Cert.Bridge.mUsr (W (Proc.devRef .tc main_v16_2)) (W (Proc.devRef .tc main_arg8)) (W (Proc.devRef .tc main_arg9)) := by
  simp (disch := decide) only [opsUsr, hostOps2, List.take_succ_cons, List.take_zero, List.drop_succ_cons, List.drop_zero, StableHlo.after_cons, StableHlo.after_nil,
    StableHlo.nullary_result', StableHlo.unary_result', StableHlo.binary_result', StableHlo.ternary_result', StableHlo.nary3_result',
    StableHlo.nullary_result_ne', StableHlo.unary_result_ne', StableHlo.binary_result_ne', StableHlo.ternary_result_ne', StableHlo.nary_result_ne']
  rfl

theorem stack_result (W : Valuation τ sig (Elt Ideal)) :
    StableHlo.after (opsStack (F := Ideal)) W (Proc.devRef .tc main_v76)
      = Cert.Bridge.stack (W (Proc.devRef .tc main_v35)) (W (Proc.devRef .tc main_v54)) (W (Proc.devRef .tc main_v72)) := by
  simp (disch := decide) only [opsStack, hostOps2, List.take_succ_cons, List.take_zero, List.drop_succ_cons, List.drop_zero, StableHlo.after_cons, StableHlo.after_nil,
    StableHlo.nullary_result', StableHlo.unary_result', StableHlo.binary_result', StableHlo.ternary_result', StableHlo.nary3_result',
    StableHlo.nullary_result_ne', StableHlo.unary_result_ne', StableHlo.binary_result_ne', StableHlo.ternary_result_ne', StableHlo.nary_result_ne']
  rfl

/-- The closing host operations, from any buffer contents `W`, leave `tail` of the three arrays the pallas calls wrote. -/
theorem ker_tail (W : Valuation τ sig (Elt Ideal)) :
    StableHlo.after (hostOps2 (F := Ideal)) W (Proc.devRef .tc main_v76)
      = Cert.Bridge.tail (W (Proc.devRef .tc main_v16_0))
          (Cert.Bridge.kerMsg (W (Proc.devRef .tc main_v16_1)) (W (Proc.devRef .tc main_v17)) (W (Proc.devRef .tc main_arg6)))
          (W (Proc.devRef .tc main_v16_2))
          (W (Proc.devRef .tc main_arg4)) (W (Proc.devRef .tc main_arg5))
          (W (Proc.devRef .tc main_arg7)) (W (Proc.devRef .tc main_arg8)) (W (Proc.devRef .tc main_arg9)) := by
  rw [hostOps2_split, after_append, after_append, after_append, stack_result,
    usr_keeps_main_v35, usr_keeps_main_v54, usr_result,
    com_keeps_main_v35, com_result, com_keeps_main_v16_2, com_keeps_main_arg8, com_keeps_main_arg9,
    pub_result, pub_keeps_main_v16_1, pub_keeps_main_v17, pub_keeps_main_arg6, pub_keeps_main_arg7,
    pub_keeps_main_v16_2, pub_keeps_main_arg8, pub_keeps_main_arg9]
  rfl

end Cert.KernelIdeal.HandTail

end
-- ==== Proof.Spec.lean ====
/-
  The mathematics both programs compute, entry by entry, on the extended reals.

  * `lin x w b u j` is one entry of a linear layer, `(∑ k, x[u,k] · w[k,j]) + b[j]`.
  * `lnRelu r g b j` is entry `j` of a row `r` of 128 numbers after layer normalisation (mean and variance over
    the row, each a sum divided by 128, the variance shifted by the literal `eps` before the reciprocal square root),
    scaled by `g`, shifted by `b` and clamped below at zero.
  No program is imported here: the arrays are functions on index sets of literal rank, read at indices built from their
  coordinates.
-/
import Idealize.ShloMosaic.PureOps.Ideal
import Idealize.ShloMosaic.Lib.ValueIdx

noncomputable section

open scoped BigOperators

namespace Cert.Spec

open Idealize.ShloMosaic Idealize.ShloMosaic.ValueIdx

/-- A matrix and a vector of extended reals, indexed as the programs index them. -/
abbrev Mat (n m : Nat) := (⟨2, ![n, m]⟩ : Shape).Idx → EReal
abbrev Vct (n : Nat) := (⟨1, ![n]⟩ : Shape).Idx → EReal

/-- The literals of the two programs, at their exact binary values. -/
abbrev c07 : EReal := Ideal.ofBits .f32 0x3F333333#32
abbrev c03 : EReal := Ideal.ofBits .f32 0x3E99999A#32
abbrev eps : EReal := Ideal.ofBits .f32 0x3727C5AC#32
abbrev c128 : EReal := Ideal.ofBits .f32 0x43000000#32

/-- One entry of `x · w + b`. -/
def lin {n K M : Nat} (x : Mat n K) (w : Mat K M) (b : Vct M) (u : Fin n) (j : Fin M) : EReal :=
  (∑ k : Fin K, x (ix2 u k) * w (ix2 k j)) + b (ix1 j)

/-- One entry of `x · (w · c) + b · c`: the same layer with the factor `c` folded into its parameters. -/
def linScaled {n K M : Nat} (x : Mat n K) (w : Mat K M) (b : Vct M) (c : EReal) (u : Fin n) (j : Fin M) : EReal :=
  (∑ k : Fin K, x (ix2 u k) * (w (ix2 k j) * c)) + b (ix1 j) * c

/-- One entry of `[x | y] · w + b` with the product split at row 128 of `w`: `x · w[:128] + y · w[128:] + b`. -/
def linSplit {n : Nat} (x : Mat n 128) (y : Mat n 64) (w : Mat 192 128) (b : Vct 128) (u : Fin n) (j : Fin 128) : EReal :=
  ((∑ k : Fin 128, x (ix2 u k) * w (ix2 (Fin.castAdd 64 k) j))
    + (∑ k : Fin 64, y (ix2 u k) * w (ix2 (Fin.natAdd 128 k) j))) + b (ix1 j)

/-- One entry of `[x | y] · w + b` over the concatenated row of 192 entries. -/
def linCat {n : Nat} (x : Mat n 128) (y : Mat n 64) (w : Mat 192 128) (b : Vct 128) (u : Fin n) (j : Fin 128) : EReal :=
  (∑ k : Fin 192, (Fin.addCases (fun a : Fin 128 => x (ix2 u a)) (fun a : Fin 64 => y (ix2 u a)) k) * w (ix2 k j)) + b (ix1 j)

/-- The mean of a row of 128 entries. -/
def mean128 (r : Fin 128 → EReal) : EReal := Ideal.div (∑ j : Fin 128, r j) c128

/-- Layer normalisation of a row, scaled, shifted and clamped below at zero, at entry `j`. -/
def lnRelu (r g b : Fin 128 → EReal) (j : Fin 128) : EReal :=
  max (((r j - mean128 r) * Ideal.rsqrt (mean128 (fun a => (r a - mean128 r) * (r a - mean128 r)) + eps)) * g j + b j) 0

end Cert.Spec

end
-- ==== Proof.KiPrefix.lean ====
/-
  What the kernel program's first stretch of host operations leaves in the arrays the first kernel call reads,
  entry by entry, on the extended reals (where a change of float format is the identity).

  With `aK` the launch contents of argument `K`:
  * no operation of the stretch writes an argument array, so each argument is still `aK`;
  * `%3 = bf16([W_pub | W_com · 0.7])`, 128 × 256: column `q` is `a10[k, q]`, column `128 + q` is `a12[k, q] · c07`;
  * `%6 = [b_pub | b_com · 0.7]`, 256 entries: entry `q` is `a11[q]`, entry `128 + q` is `a13[q] · c07`;
  * `%8 = bf16(W_conv[0:128])` and `%10 = bf16(W_conv[128:192])`: rows `k` and `128 + k` of `a14`;
  * `%13 = bf16(W_ecom · 0.3)` and `%15 = b_ecom · 0.3`: `a18[k, j] · c03` and `a19[j] · c03`.
  Each array is first written as the operations' term over the launch contents, then read at an index: a
  concatenation in its first or second piece, a slice at its offset, a product with a broadcast literal.
-/
import proofs.«120052_j19413252177999_2_alg».proof.Proof.KiRun
import proofs.«120052_j19413252177999_2_alg».proof.Proof.Spec
import Idealize.ShloMosaic.Lib.Pipeline.Value
import Idealize.ShloMosaic.Lib.ValueIdx

set_option maxRecDepth 16384
set_option maxHeartbeats 2000000

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem

/-- A literal broadcast from the scalar shape reads the literal's value at every index. -/
theorem bcast_const_apply {t : Shape} (h : S_.BroadcastsInDim t (![] : Fin 0 → Fin t.rank)) (w : BitVec 32) (j : t.Idx) :
    broadcastInDim t ![] h (constant (F := Ideal) S_ .f32 w) j = Ideal.ofBits .f32 w :=
  broadcastInDim_apply (![] : Fin 0 → Fin t.rank) h (constant (F := Ideal) S_ .f32 w) j (fun a => a.elim0) (fun a => a.elim0)

variable (m : (ℓ : Loc nD τ sig) → Buf (Elt Ideal) ℓ) (ρ : Dev nD → PrngReg)

/-! ## The argument arrays are as launched -/

/-- No operation of the first stretch writes the reference: closes `∀ op ∈ hostOps0, b ∉ op.writes`. -/
local macro "no_write0" : tactic => `(tactic| (
  refine List.forall_iff_forall_mem.mp ?_
  simp only [hostOps0, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.mem_singleton]
  repeat' apply And.intro
  all_goals exact StableHlo.devRef_ne_of_ne (by decide)))

theorem V1_main_arg0 (c : Dev nD) : V1 m ρ c main_arg0 = m ((c : Thread nD τ).loc main_arg0) :=
  calc V1 m ρ c main_arg0
    _ = W0 m ρ c (Proc.devRef .tc main_arg0) :=
        StableHlo.after_of_forall_not_mem (b := Proc.devRef .tc main_arg0) _ _ (by no_write0)
    _ = m ((c : Thread nD τ).loc main_arg0) := rfl

theorem V1_main_arg2 (c : Dev nD) : V1 m ρ c main_arg2 = m ((c : Thread nD τ).loc main_arg2) :=
  calc V1 m ρ c main_arg2
    _ = W0 m ρ c (Proc.devRef .tc main_arg2) :=
        StableHlo.after_of_forall_not_mem (b := Proc.devRef .tc main_arg2) _ _ (by no_write0)
    _ = m ((c : Thread nD τ).loc main_arg2) := rfl

theorem V1_main_arg3 (c : Dev nD) : V1 m ρ c main_arg3 = m ((c : Thread nD τ).loc main_arg3) :=
  calc V1 m ρ c main_arg3
    _ = W0 m ρ c (Proc.devRef .tc main_arg3) :=
        StableHlo.after_of_forall_not_mem (b := Proc.devRef .tc main_arg3) _ _ (by no_write0)
    _ = m ((c : Thread nD τ).loc main_arg3) := rfl

theorem V1_main_arg15 (c : Dev nD) : V1 m ρ c main_arg15 = m ((c : Thread nD τ).loc main_arg15) :=
  calc V1 m ρ c main_arg15
    _ = W0 m ρ c (Proc.devRef .tc main_arg15) :=
        StableHlo.after_of_forall_not_mem (b := Proc.devRef .tc main_arg15) _ _ (by no_write0)
    _ = m ((c : Thread nD τ).loc main_arg15) := rfl

theorem V1_main_arg16 (c : Dev nD) : V1 m ρ c main_arg16 = m ((c : Thread nD τ).loc main_arg16) :=
  calc V1 m ρ c main_arg16
    _ = W0 m ρ c (Proc.devRef .tc main_arg16) :=
        StableHlo.after_of_forall_not_mem (b := Proc.devRef .tc main_arg16) _ _ (by no_write0)
    _ = m ((c : Thread nD τ).loc main_arg16) := rfl

theorem V1_main_arg17 (c : Dev nD) : V1 m ρ c main_arg17 = m ((c : Thread nD τ).loc main_arg17) :=
  calc V1 m ρ c main_arg17
    _ = W0 m ρ c (Proc.devRef .tc main_arg17) :=
        StableHlo.after_of_forall_not_mem (b := Proc.devRef .tc main_arg17) _ _ (by no_write0)
    _ = m ((c : Thread nD τ).loc main_arg17) := rfl

/-! ## The launch contents of the float parameters, as functions on the indices of their shapes -/

/-- `W_pub` as launched. -/
abbrev A10 (c : Dev nD) : S128x128.Idx → EReal := m ((c : Thread nD τ).loc main_arg10)
/-- `b_pub` as launched. -/
abbrev A11 (c : Dev nD) : S128.Idx → EReal := m ((c : Thread nD τ).loc main_arg11)
/-- `W_com` as launched. -/
abbrev A12 (c : Dev nD) : S128x128.Idx → EReal := m ((c : Thread nD τ).loc main_arg12)
/-- `b_com` as launched. -/
abbrev A13 (c : Dev nD) : S128.Idx → EReal := m ((c : Thread nD τ).loc main_arg13)
/-- `W_conv` as launched. -/
abbrev A14 (c : Dev nD) : S192x128.Idx → EReal := m ((c : Thread nD τ).loc main_arg14)
/-- `W_ecom` as launched. -/
abbrev A18 (c : Dev nD) : S64x128.Idx → EReal := m ((c : Thread nD τ).loc main_arg18)
/-- `b_ecom` as launched. -/
abbrev A19 (c : Dev nD) : S128.Idx → EReal := m ((c : Thread nD τ).loc main_arg19)

/-! ## The prepared parameters as terms over the launch contents (a change of float format is the identity) -/

theorem V1_main_v3_eq (c : Dev nD) :
    (V1 m ρ c main_v3 : S128x256.Idx → EReal)
      = concatenate S128x256 1
          [⟨S128x128, A10 m c⟩,
           ⟨S128x128, mulf (F := Ideal) (φ := .f32) (A12 m c)
              (broadcastInDim S128x128 ![] bcast_S_S128x128 (constant (F := Ideal) S_ .f32 0x3F333333#32))⟩]
          concatenates_S128x128_S128x128_S128x256_d1 := by
  show StableHlo.after hostOps0 _ (Proc.devRef .tc main_v3) = _
  after_results <;> rfl

theorem V1_main_v6_eq (c : Dev nD) :
    (V1 m ρ c main_v6 : S256.Idx → EReal)
      = concatenate S256 0
          [⟨S128, A11 m c⟩,
           ⟨S128, mulf (F := Ideal) (φ := .f32) (A13 m c)
              (broadcastInDim S128 ![] bcast_S_S128 (constant (F := Ideal) S_ .f32 0x3F333333#32))⟩]
          concatenates_S128_S128_S256_d0 := by
  show StableHlo.after hostOps0 _ (Proc.devRef .tc main_v6) = _
  after_results <;> rfl

theorem V1_main_v8_eq (c : Dev nD) :
    (V1 m ρ c main_v8 : S128x128.Idx → EReal)
      = extractStridedSlice S128x128 ![0, 0] (A14 m c) slices_S192x128_S128x128_0_0 := by
  show StableHlo.after hostOps0 _ (Proc.devRef .tc main_v8) = _
  after_results <;> rfl

theorem V1_main_v10_eq (c : Dev nD) :
    (V1 m ρ c main_v10 : S64x128.Idx → EReal)
      = extractStridedSlice S64x128 ![128, 0] (A14 m c) slices_S192x128_S64x128_128_0 := by
  show StableHlo.after hostOps0 _ (Proc.devRef .tc main_v10) = _
  after_results <;> rfl

theorem V1_main_v13_eq (c : Dev nD) :
    (V1 m ρ c main_v13 : S64x128.Idx → EReal)
      = mulf (F := Ideal) (φ := .f32) (A18 m c)
          (broadcastInDim S64x128 ![] bcast_S_S64x128 (constant (F := Ideal) S_ .f32 0x3E99999A#32)) := by
  show StableHlo.after hostOps0 _ (Proc.devRef .tc main_v13) = _
  after_results <;> rfl

theorem V1_main_v15_eq (c : Dev nD) :
    (V1 m ρ c main_v15 : S128.Idx → EReal)
      = mulf (F := Ideal) (φ := .f32) (A19 m c)
          (broadcastInDim S128 ![] bcast_S_S128 (constant (F := Ideal) S_ .f32 0x3E99999A#32)) := by
  show StableHlo.after hostOps0 _ (Proc.devRef .tc main_v15) = _
  after_results <;> rfl

/-! ## … read at an index -/

/-- The first 128 columns of `%3` are `W_pub`. -/
theorem V1_main_v3_left (c : Dev nD) (k q : Fin 128) :
    (V1 m ρ c main_v3 : S128x256.Idx → EReal) (ix2 k (Fin.castAdd 128 q)) = A10 m c (ix2 k q) := by
  refine (congrFun (V1_main_v3_eq m ρ c) _).trans ?_
  exact concatenate_pair_apply_left _ _ _ concatenates_S128x128_S128x128_S128x256_d1
    (ix2 k (Fin.castAdd 128 q)) rfl (ix2 k q) (fun b => match b with | ⟨0, _⟩ => rfl | ⟨1, _⟩ => rfl)

/-- The last 128 columns of `%3` are `W_com` times the literal `0.7`. -/
theorem V1_main_v3_right (c : Dev nD) (k q : Fin 128) :
    (V1 m ρ c main_v3 : S128x256.Idx → EReal) (ix2 k (Fin.natAdd 128 q)) = A12 m c (ix2 k q) * Cert.Spec.c07 := by
  refine (congrFun (V1_main_v3_eq m ρ c) _).trans ?_
  refine (concatenate_pair_apply_right _ _ _ concatenates_S128x128_S128x128_S128x256_d1
    (ix2 k (Fin.natAdd 128 q)) rfl rfl (ix2 k q)
    (fun b => match b with | ⟨0, _⟩ => fun _ => rfl | ⟨1, _⟩ => fun h => absurd rfl h)
    (by show q.val + 128 = 128 + q.val; omega)).trans ?_
  rw [mulf_apply, bcast_const_apply]

/-- The first 128 entries of `%6` are `b_pub`. -/
theorem V1_main_v6_left (c : Dev nD) (q : Fin 128) :
    (V1 m ρ c main_v6 : S256.Idx → EReal) (ix1 (Fin.castAdd 128 q)) = A11 m c (ix1 q) := by
  refine (congrFun (V1_main_v6_eq m ρ c) _).trans ?_
  exact concatenate_pair_apply_left _ _ _ concatenates_S128_S128_S256_d0
    (ix1 (Fin.castAdd 128 q)) rfl (ix1 q) (fun b => match b with | ⟨0, _⟩ => rfl)

/-- The last 128 entries of `%6` are `b_com` times the literal `0.7`. -/
theorem V1_main_v6_right (c : Dev nD) (q : Fin 128) :
    (V1 m ρ c main_v6 : S256.Idx → EReal) (ix1 (Fin.natAdd 128 q)) = A13 m c (ix1 q) * Cert.Spec.c07 := by
  refine (congrFun (V1_main_v6_eq m ρ c) _).trans ?_
  refine (concatenate_pair_apply_right _ _ _ concatenates_S128_S128_S256_d0
    (ix1 (Fin.natAdd 128 q)) rfl rfl (ix1 q)
    (fun b => match b with | ⟨0, _⟩ => fun h => absurd rfl h)
    (by show q.val + 128 = 128 + q.val; omega)).trans ?_
  rw [mulf_apply, bcast_const_apply]

/-- `%8` is the first 128 rows of `W_conv`. -/
theorem V1_main_v8_apply (c : Dev nD) (k j : Fin 128) :
    (V1 m ρ c main_v8 : S128x128.Idx → EReal) (ix2 k j) = A14 m c (ix2 (Fin.castAdd 64 k) j) := by
  refine (congrFun (V1_main_v8_eq m ρ c) _).trans ?_
  exact extractStridedSlice_apply _ _ slices_S192x128_S128x128_0_0 (ix2 k j) (ix2 (Fin.castAdd 64 k) j)
    (fun a => match a with
      | ⟨0, _⟩ => by show k.val = 0 + k.val; omega
      | ⟨1, _⟩ => by show j.val = 0 + j.val; omega)

/-- `%10` is the last 64 rows of `W_conv`. -/
theorem V1_main_v10_apply (c : Dev nD) (k : Fin 64) (j : Fin 128) :
    (V1 m ρ c main_v10 : S64x128.Idx → EReal) (ix2 k j) = A14 m c (ix2 (Fin.natAdd 128 k) j) := by
  refine (congrFun (V1_main_v10_eq m ρ c) _).trans ?_
  exact extractStridedSlice_apply _ _ slices_S192x128_S64x128_128_0 (ix2 k j) (ix2 (Fin.natAdd 128 k) j)
    (fun a => match a with
      | ⟨0, _⟩ => by show 128 + k.val = 128 + k.val; rfl
      | ⟨1, _⟩ => by show j.val = 0 + j.val; omega)

/-- `%13` is `W_ecom` times the literal `0.3`. -/
theorem V1_main_v13_apply (c : Dev nD) (k : Fin 64) (j : Fin 128) :
    (V1 m ρ c main_v13 : S64x128.Idx → EReal) (ix2 k j) = A18 m c (ix2 k j) * Cert.Spec.c03 := by
  refine (congrFun (V1_main_v13_eq m ρ c) _).trans ?_
  rw [mulf_apply, bcast_const_apply]

/-- `%15` is `b_ecom` times the literal `0.3`. -/
theorem V1_main_v15_apply (c : Dev nD) (j : Fin 128) :
    (V1 m ρ c main_v15 : S128.Idx → EReal) (ix1 j) = A19 m c (ix1 j) * Cert.Spec.c03 := by
  refine (congrFun (V1_main_v15_eq m ρ c) _).trans ?_
  rw [mulf_apply, bcast_const_apply]

end Cert.KernelIdeal.HandValue

end
-- ==== Proof.KerPayMat.lean ====
/-
  A matrix product into the zero accumulator, read at an index on the extended reals: for each of the four products of
  the two kernel bodies (`[4000,128]·[128,256]`, `[4000,128]·[128,128]`, `[4000,64]·[64,128]`, `[8000,64]·[64,128]`), entry
  `(p, q)` of the result is `∑ k, lhs[p,k] · rhs[k,q]`. Each proof reads the product as the sum over its contraction
  index and re-indexes that one contracted axis by its coordinate.
-/
import proofs.«120052_j19413252177999_2_alg».proof.Proof.Gen.KernelIdeal.Skeleton
import Idealize.ShloMosaic.Lib.ValueIdx
import Idealize.ShloMosaic.PureOps.Ideal.Laws

noncomputable section

open scoped BigOperators

namespace Cert.KerSide

open Idealize.ShloMosaic Idealize.ShloMosaic.ValueIdx Cert.KernelIdeal Cert.KernelIdeal.Gen

/-- The product of a `[4000, 128]` and a `[128, 256]` array into the zero accumulator, at `(p, q)`: the sum over the one
    contracted axis of the left operand at `(p, k)` times the right at `(k, q)`. -/
theorem matmul_4000x128x256_apply (lhs : FVec Ideal S4000x128 .bf16) (rhs : FVec Ideal S128x256 .bf16) (p : Fin 4000) (q : Fin 256) :
    matmul dot_S4000x128_S128x256_S4000x256_1_0_0_1_n_n none lhs rhs (constant (F := Ideal) S4000x256 .f32 0x00000000#32) (ix2 p q)
      = ∑ k : Fin 128, lhs (ix2 p k) * rhs (ix2 k q) := by
  have l0 : ∀ (i : S4000x256.Idx) (c : dot_S4000x128_S128x256_S4000x256_1_0_0_1_n_n.contr.Idx), (dot_S4000x128_S128x256_S4000x256_1_0_0_1_n_n.lhsIdx i c 0).val = (i 0).val := fun i c => by
    unfold DotDims.lhsIdx
    rw [dif_neg (show ¬(0 : Fin S4000x128.rank) ∈ dot_S4000x128_S128x256_S4000x256_1_0_0_1_n_n.lhsBatch by decide),
      dif_pos (show (0 : Fin S4000x128.rank) ∈ dot_S4000x128_S128x256_S4000x256_1_0_0_1_n_n.lhsNonContracting by decide)]
    rfl
  have r1 : ∀ (i : S4000x256.Idx) (c : dot_S4000x128_S128x256_S4000x256_1_0_0_1_n_n.contr.Idx), (dot_S4000x128_S128x256_S4000x256_1_0_0_1_n_n.rhsIdx i c 1).val = (i 1).val := fun i c => by
    unfold DotDims.rhsIdx
    rw [dif_neg (show ¬(1 : Fin S128x256.rank) ∈ dot_S4000x128_S128x256_S4000x256_1_0_0_1_n_n.rhsBatch by decide),
      dif_pos (show (1 : Fin S128x256.rank) ∈ dot_S4000x128_S128x256_S4000x256_1_0_0_1_n_n.rhsNonContracting by decide)]
    rfl
  refine (Ideal.matmul_constant_zero_apply dot_S4000x128_S128x256_S4000x256_1_0_0_1_n_n none lhs rhs (ix2 p q)).trans ?_
  rw [← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : dot_S4000x128_S128x256_S4000x256_1_0_0_1_n_n.lhsIdx (ix2 p q) ((contrEquiv1 dot_S4000x128_S128x256_S4000x256_1_0_0_1_n_n 128 rfl rfl).symm k) = ix2 p k :=
    funext fun a => Fin.ext (by
      match a with
      | ⟨0, _⟩ => exact l0 _ _
      | ⟨1, _⟩ => exact (dot_S4000x128_S128x256_S4000x256_1_0_0_1_n_n.lhsIdx_val_of_single rfl _ _).trans hk)
  have er : dot_S4000x128_S128x256_S4000x256_1_0_0_1_n_n.rhsIdx (ix2 p q) ((contrEquiv1 dot_S4000x128_S128x256_S4000x256_1_0_0_1_n_n 128 rfl rfl).symm k) = ix2 k q :=
    funext fun a => Fin.ext (by
      match a with
      | ⟨0, _⟩ => exact (dot_S4000x128_S128x256_S4000x256_1_0_0_1_n_n.rhsIdx_val_of_single rfl _ _).trans hk
      | ⟨1, _⟩ => exact r1 _ _)
  rw [el, er]

/-- The product of a `[4000, 128]` and a `[128, 128]` array into the zero accumulator, at `(p, q)`: the sum over the one
    contracted axis of the left operand at `(p, k)` times the right at `(k, q)`. -/
theorem matmul_4000x128x128_apply (lhs : FVec Ideal S4000x128 .bf16) (rhs : FVec Ideal S128x128 .bf16) (p : Fin 4000) (q : Fin 128) :
    matmul dot_S4000x128_S128x128_S4000x128_1_0_0_1_n_n none lhs rhs (constant (F := Ideal) S4000x128 .f32 0x00000000#32) (ix2 p q)
      = ∑ k : Fin 128, lhs (ix2 p k) * rhs (ix2 k q) := by
  have l0 : ∀ (i : S4000x128.Idx) (c : dot_S4000x128_S128x128_S4000x128_1_0_0_1_n_n.contr.Idx), (dot_S4000x128_S128x128_S4000x128_1_0_0_1_n_n.lhsIdx i c 0).val = (i 0).val := fun i c => by
    unfold DotDims.lhsIdx
    rw [dif_neg (show ¬(0 : Fin S4000x128.rank) ∈ dot_S4000x128_S128x128_S4000x128_1_0_0_1_n_n.lhsBatch by decide),
      dif_pos (show (0 : Fin S4000x128.rank) ∈ dot_S4000x128_S128x128_S4000x128_1_0_0_1_n_n.lhsNonContracting by decide)]
    rfl
  have r1 : ∀ (i : S4000x128.Idx) (c : dot_S4000x128_S128x128_S4000x128_1_0_0_1_n_n.contr.Idx), (dot_S4000x128_S128x128_S4000x128_1_0_0_1_n_n.rhsIdx i c 1).val = (i 1).val := fun i c => by
    unfold DotDims.rhsIdx
    rw [dif_neg (show ¬(1 : Fin S128x128.rank) ∈ dot_S4000x128_S128x128_S4000x128_1_0_0_1_n_n.rhsBatch by decide),
      dif_pos (show (1 : Fin S128x128.rank) ∈ dot_S4000x128_S128x128_S4000x128_1_0_0_1_n_n.rhsNonContracting by decide)]
    rfl
  refine (Ideal.matmul_constant_zero_apply dot_S4000x128_S128x128_S4000x128_1_0_0_1_n_n none lhs rhs (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k :=
    funext fun a => Fin.ext (by
      match a with
      | ⟨0, _⟩ => exact l0 _ _
      | ⟨1, _⟩ => exact (dot_S4000x128_S128x128_S4000x128_1_0_0_1_n_n.lhsIdx_val_of_single rfl _ _).trans hk)
  have er : dot_S4000x128_S128x128_S4000x128_1_0_0_1_n_n.rhsIdx (ix2 p q) ((contrEquiv1 dot_S4000x128_S128x128_S4000x128_1_0_0_1_n_n 128 rfl rfl).symm k) = ix2 k q :=
    funext fun a => Fin.ext (by
      match a with
      | ⟨0, _⟩ => exact (dot_S4000x128_S128x128_S4000x128_1_0_0_1_n_n.rhsIdx_val_of_single rfl _ _).trans hk
      | ⟨1, _⟩ => exact r1 _ _)
  rw [el, er]

/-- The product of a `[4000, 64]` and a `[64, 128]` array into the zero accumulator, at `(p, q)`: the sum over the one
    contracted axis of the left operand at `(p, k)` times the right at `(k, q)`. -/
theorem matmul_4000x64x128_apply (lhs : FVec Ideal S4000x64 .bf16) (rhs : FVec Ideal S64x128 .bf16) (p : Fin 4000) (q : Fin 128) :
    matmul dot_S4000x64_S64x128_S4000x128_1_0_0_1_n_n none lhs rhs (constant (F := Ideal) S4000x128 .f32 0x00000000#32) (ix2 p q)
      = ∑ k : Fin 64, lhs (ix2 p k) * rhs (ix2 k q) := by
  have l0 : ∀ (i : S4000x128.Idx) (c : dot_S4000x64_S64x128_S4000x128_1_0_0_1_n_n.contr.Idx), (dot_S4000x64_S64x128_S4000x128_1_0_0_1_n_n.lhsIdx i c 0).val = (i 0).val := fun i c => by
    unfold DotDims.lhsIdx
    rw [dif_neg (show ¬(0 : Fin S4000x64.rank) ∈ dot_S4000x64_S64x128_S4000x128_1_0_0_1_n_n.lhsBatch by decide),
      dif_pos (show (0 : Fin S4000x64.rank) ∈ dot_S4000x64_S64x128_S4000x128_1_0_0_1_n_n.lhsNonContracting by decide)]
    rfl
  have r1 : ∀ (i : S4000x128.Idx) (c : dot_S4000x64_S64x128_S4000x128_1_0_0_1_n_n.contr.Idx), (dot_S4000x64_S64x128_S4000x128_1_0_0_1_n_n.rhsIdx i c 1).val = (i 1).val := fun i c => by
    unfold DotDims.rhsIdx
    rw [dif_neg (show ¬(1 : Fin S64x128.rank) ∈ dot_S4000x64_S64x128_S4000x128_1_0_0_1_n_n.rhsBatch by decide),
      dif_pos (show (1 : Fin S64x128.rank) ∈ dot_S4000x64_S64x128_S4000x128_1_0_0_1_n_n.rhsNonContracting by decide)]
    rfl
  refine (Ideal.matmul_constant_zero_apply dot_S4000x64_S64x128_S4000x128_1_0_0_1_n_n none lhs rhs (ix2 p q)).trans ?_
  rw [← Equiv.sum_comp (contrEquiv1 dot_S4000x64_S64x128_S4000x128_1_0_0_1_n_n 64 rfl rfl).symm]
  refine Finset.sum_congr rfl fun k _ => ?_
  have hk := contrEquiv1_symm_val dot_S4000x64_S64x128_S4000x128_1_0_0_1_n_n 64 rfl rfl k
  have el : dot_S4000x64_S64x128_S4000x128_1_0_0_1_n_n.lhsIdx (ix2 p q) ((contrEquiv1 dot_S4000x64_S64x128_S4000x128_1_0_0_1_n_n 64 rfl rfl).symm k) = ix2 p k :=
    funext fun a => Fin.ext (by
      match a with
      | ⟨0, _⟩ => exact l0 _ _
      | ⟨1, _⟩ => exact (dot_S4000x64_S64x128_S4000x128_1_0_0_1_n_n.lhsIdx_val_of_single rfl _ _).trans hk)
  have er : dot_S4000x64_S64x128_S4000x128_1_0_0_1_n_n.rhsIdx (ix2 p q) ((contrEquiv1 dot_S4000x64_S64x128_S4000x128_1_0_0_1_n_n 64 rfl rfl).symm k) = ix2 k q :=
    funext fun a => Fin.ext (by
      match a with
      | ⟨0, _⟩ => exact (dot_S4000x64_S64x128_S4000x128_1_0_0_1_n_n.rhsIdx_val_of_single rfl _ _).trans hk
      | ⟨1, _⟩ => exact r1 _ _)
  rw [el, er]

/-- The product of a `[8000, 64]` and a `[64, 128]` array into the zero accumulator, at `(p, q)`: the sum over the one
    contracted axis of the left operand at `(p, k)` times the right at `(k, q)`. -/
theorem matmul_8000x64x128_apply (lhs : FVec Ideal S8000x64 .bf16) (rhs : FVec Ideal S64x128 .bf16) (p : Fin 8000) (q : Fin 128) :
    matmul dot_S8000x64_S64x128_S8000x128_1_0_0_1_n_n none lhs rhs (constant (F := Ideal) S8000x128 .f32 0x00000000#32) (ix2 p q)
      = ∑ k : Fin 64, lhs (ix2 p k) * rhs (ix2 k q) := by
  have l0 : ∀ (i : S8000x128.Idx) (c : dot_S8000x64_S64x128_S8000x128_1_0_0_1_n_n.contr.Idx), (dot_S8000x64_S64x128_S8000x128_1_0_0_1_n_n.lhsIdx i c 0).val = (i 0).val := fun i c => by
    unfold DotDims.lhsIdx
    rw [dif_neg (show ¬(0 : Fin S8000x64.rank) ∈ dot_S8000x64_S64x128_S8000x128_1_0_0_1_n_n.lhsBatch by decide),
      dif_pos (show (0 : Fin S8000x64.rank) ∈ dot_S8000x64_S64x128_S8000x128_1_0_0_1_n_n.lhsNonContracting by decide)]
    rfl
  have r1 : ∀ (i : S8000x128.Idx) (c : dot_S8000x64_S64x128_S8000x128_1_0_0_1_n_n.contr.Idx), (dot_S8000x64_S64x128_S8000x128_1_0_0_1_n_n.rhsIdx i c 1).val = (i 1).val := fun i c => by
    unfold DotDims.rhsIdx
    rw [dif_neg (show ¬(1 : Fin S64x128.rank) ∈ dot_S8000x64_S64x128_S8000x128_1_0_0_1_n_n.rhsBatch by decide),
      dif_pos (show (1 : Fin S64x128.rank) ∈ dot_S8000x64_S64x128_S8000x128_1_0_0_1_n_n.rhsNonContracting by decide)]
    rfl
  refine (Ideal.matmul_constant_zero_apply dot_S8000x64_S64x128_S8000x128_1_0_0_1_n_n none lhs rhs (ix2 p q)).trans ?_
  rw [← Equiv.sum_comp (contrEquiv1 dot_S8000x64_S64x128_S8000x128_1_0_0_1_n_n 64 rfl rfl).symm]
  refine Finset.sum_congr rfl fun k _ => ?_
  have hk := contrEquiv1_symm_val dot_S8000x64_S64x128_S8000x128_1_0_0_1_n_n 64 rfl rfl k
  have el : dot_S8000x64_S64x128_S8000x128_1_0_0_1_n_n.lhsIdx (ix2 p q) ((contrEquiv1 dot_S8000x64_S64x128_S8000x128_1_0_0_1_n_n 64 rfl rfl).symm k) = ix2 p k :=
    funext fun a => Fin.ext (by
      match a with
      | ⟨0, _⟩ => exact l0 _ _
      | ⟨1, _⟩ => exact (dot_S8000x64_S64x128_S8000x128_1_0_0_1_n_n.lhsIdx_val_of_single rfl _ _).trans hk)
  have er : dot_S8000x64_S64x128_S8000x128_1_0_0_1_n_n.rhsIdx (ix2 p q) ((contrEquiv1 dot_S8000x64_S64x128_S8000x128_1_0_0_1_n_n 64 rfl rfl).symm k) = ix2 k q :=
    funext fun a => Fin.ext (by
      match a with
      | ⟨0, _⟩ => exact (dot_S8000x64_S64x128_S8000x128_1_0_0_1_n_n.rhsIdx_val_of_single rfl _ _).trans hk
      | ⟨1, _⟩ => exact r1 _ _)
  rw [el, er]

end Cert.KerSide

end
-- ==== Proof.KerPayLayout.lean ====
/-
  Three layout readings a row-wise normalisation needs, at indices given by coordinates: a vector `[a]` viewed as a
  column `[a, 1]` reads its entry; a column `[a, 1]` broadcast along rows to `[a, b]` reads the row's one entry; and a sum
  over the second axis of an `[a, b]` array, read at row `p`, is the sum over `k` of the entries `(p, k)`.
-/
import Idealize.ShloMosaic.Lib.ValueIdx
import Idealize.ShloMosaic.Lib.ValueLayout
import Idealize.ShloMosaic.PureOps.Ideal.Laws

noncomputable section

open scoped BigOperators

namespace Cert.KerSide

open Idealize.ShloMosaic Idealize.ShloMosaic.ValueIdx

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the second axis of an `[a, b]` array of extended reals, read at row `p`: the sum over `k` of the entries
    `(p, k)`. The accumulator's word is the zero word, as a lane sum is printed. -/
theorem rowSum_apply {a b : ℕ} {φ : FTy} (src : FVec Ideal ⟨2, ![a, b]⟩ φ)
    (h : (⟨2, ![a, b]⟩ : Shape).Reduces [1] ⟨1, ![a]⟩) (hφ : FKind.Formats φ) (acc : BitVec φ.bits)
    (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = _
  refine Finset.sum_congr rfl fun k _ => congrArg src (funext fun c => Fin.ext ?_)
  match c with
  | ⟨0, _⟩ => rfl
  | ⟨1, _⟩ => rfl

end Cert.KerSide

end
-- ==== Proof.KerPay.lean ====
/-
  The two kernel bodies' arithmetic, entry by entry on the extended reals.

  * Body 0, first part: the product of a `[4000,128]` block with a `[128,256]` matrix plus a bias row; its columns
    `0…127` and `128…255` are the two projections, each `(∑ k, x[p,k] · w[k,c]) + b[c]` at the shifted column `c`.
  * Body 0, second part: `x · w₁ + y · w₂ + b`, then layer normalisation of each row of 128 entries (mean and variance
    as sums divided by 128, the variance shifted by the literal before the reciprocal square root), scaled, shifted and
    clamped below at zero: `Cert.Spec.lnRelu` of the row.
  * Body 1: a linear layer `(∑ k, x[p,k] · w[k,q]) + b[q]` on `[8000,64]` blocks.
  Format changes are the identity on extended reals, a shape cast to the same shape is the identity, and the keepdims
  forms read the one entry they replicate.
-/
import proofs.«120052_j19413252177999_2_alg».proof.Proof.Gen.KernelIdeal.Skeleton
import proofs.«120052_j19413252177999_2_alg».proof.Proof.Spec
import proofs.«120052_j19413252177999_2_alg».proof.Proof.KerPayMat
import proofs.«120052_j19413252177999_2_alg».proof.Proof.KerPayLayout
import Idealize.ShloMosaic.Lib.ValueLayout

noncomputable section

open scoped BigOperators

namespace Cert.KerSide

open Idealize.ShloMosaic Idealize.ShloMosaic.ValueIdx Cert.KernelIdeal Cert.KernelIdeal.Gen

/-- A lane sum of a `[4000,128]` block as it is printed (zero accumulator word), at row `p`. -/
theorem rowSum4000_apply (src : FVec Ideal S4000x128 .f32) (p : Fin 4000) :
    multiReduction .add [1] S4000 src 0x00000000#32 reduces_S4000x128_S4000 (.inl rfl) rfl (ix1 p)
      = ∑ k : Fin 128, src (ix2 p k) :=
  rowSum_apply src _ _ _ _ p

/-- A reciprocal square root of a vector at an index is that of the entry. -/
theorem rsqrt_apply {s : Shape} {φ : FTy} (a : FVec Ideal s φ) (i : s.Idx) : rsqrt a i = Ideal.rsqrt (a i) := rfl

/-- The `[4000,128]·[128,256]` product plus the bias row, at `(p, c)`. -/
theorem k0_pay3_apply (v0 : Vec Ideal S4000x128 .f32) (v4 : Vec Ideal S128x256 .bf16) (v7 : Vec Ideal S256 .f32)
    (p : Fin 4000) (c : Fin 256) :
    k0_pay3 (F := Ideal) v0 v4 v7 (ix2 p c) = (∑ k : Fin 128, v0 (ix2 p k) * v4 (ix2 k c)) + v7 (ix1 c) := by
  unfold k0_pay3 k0_pay2
  dsimp only
  rw [addf_apply, shapeCast_self v4, shapeCast_self v7, matmul_4000x128x256_apply, broadcastTo_1b_ab_apply,
    shapeCast_a_1a_apply]
  rfl

/-- Columns `0…127` of the product plus bias: the first projection, at `(p, q)`. -/
theorem k0_pay4_apply (v0 : Vec Ideal S4000x128 .f32) (v4 : Vec Ideal S128x256 .bf16) (v7 : Vec Ideal S256 .f32)
    (p : Fin 4000) (q : Fin 128) :
    k0_pay4 (F := Ideal) v0 v4 v7 (ix2 p q)
      = (∑ k : Fin 128, v0 (ix2 p k) * v4 (ix2 k (Fin.castAdd 128 q))) + v7 (ix1 (Fin.castAdd 128 q)) := by
  unfold k0_pay4
  refine (slice2_axis1_apply 0 (k0_pay3 (F := Ideal) v0 v4 v7) slices_S4000x256_o0_0_S4000x128 p q
    (Fin.castAdd 128 q) (Nat.zero_add q.val).symm).trans ?_
  exact k0_pay3_apply v0 v4 v7 p (Fin.castAdd 128 q)

/-- Columns `128…255` of the product plus bias: the second projection, at `(p, q)`. -/
theorem k0_pay5_apply (v0 : Vec Ideal S4000x128 .f32) (v4 : Vec Ideal S128x256 .bf16) (v7 : Vec Ideal S256 .f32)
    (p : Fin 4000) (q : Fin 128) :
    k0_pay5 (F := Ideal) v0 v4 v7 (ix2 p q)
      = (∑ k : Fin 128, v0 (ix2 p k) * v4 (ix2 k (Fin.natAdd 128 q))) + v7 (ix1 (Fin.natAdd 128 q)) := by
  unfold k0_pay5
  refine (slice2_axis1_apply 128 (k0_pay3 (F := Ideal) v0 v4 v7) slices_S4000x256_o0_128_S4000x128 p q
    (Fin.natAdd 128 q) rfl).trans ?_
  exact k0_pay3_apply v0 v4 v7 p (Fin.natAdd 128 q)

/-- `x · w₁ + y · w₂ + b` at `(p, j)`. -/
theorem k0_pay6_apply (v0 : Vec Ideal S4000x128 .f32) (v2 : Vec Ideal S4000x64 .f32) (v16 : Vec Ideal S128x128 .bf16)
    (v19 : Vec Ideal S64x128 .bf16) (v23 : Vec Ideal S128 .f32) (p : Fin 4000) (j : Fin 128) :
    k0_pay6 (F := Ideal) v0 v2 v16 v19 v23 (ix2 p j)
      = ((∑ k : Fin 128, v0 (ix2 p k) * v16 (ix2 k j)) + (∑ k : Fin 64, v2 (ix2 p k) * v19 (ix2 k j))) + v23 (ix1 j) := by
  unfold k0_pay6 k0_pay2
  dsimp only
  rw [addf_apply, addf_apply, shapeCast_self v16, shapeCast_self v19, matmul_4000x128x128_apply,
    matmul_4000x64x128_apply, broadcastTo_1b_ab_apply, shapeCast_a_1a_apply]
  rfl

/-- The row mean: the lane sum of row `p` divided by 128, at the column vector's one entry of row `p`. -/
theorem k0_pay7_apply (v0 : Vec Ideal S4000x128 .f32) (v2 : Vec Ideal S4000x64 .f32) (v16 : Vec Ideal S128x128 .bf16)
    (v19 : Vec Ideal S64x128 .bf16) (v23 : Vec Ideal S128 .f32) (p : Fin 4000) (u : Fin 1) :
    k0_pay7 (F := Ideal) v0 v2 v16 v19 v23 (ix2 p u)
      = Cert.Spec.mean128 (fun j => k0_pay6 (F := Ideal) v0 v2 v16 v19 v23 (ix2 p j)) := by
  unfold k0_pay7
  dsimp only
  rw [divf_apply, shapeCast_a_a1_apply, rowSum4000_apply]
  rfl

/-- The row's sum of squared deviations from its mean. -/
theorem k0_pay8_apply (v0 : Vec Ideal S4000x128 .f32) (v2 : Vec Ideal S4000x64 .f32) (v16 : Vec Ideal S128x128 .bf16)
    (v19 : Vec Ideal S64x128 .bf16) (v23 : Vec Ideal S128 .f32) (p : Fin 4000) :
    k0_pay8 (F := Ideal) v0 v2 v16 v19 v23 (ix1 p)
      = ∑ a : Fin 128, (k0_pay6 (F := Ideal) v0 v2 v16 v19 v23 (ix2 p a) - k0_pay7 (F := Ideal) v0 v2 v16 v19 v23 (ix2 p (0 : Fin 1)))
          * (k0_pay6 (F := Ideal) v0 v2 v16 v19 v23 (ix2 p a) - k0_pay7 (F := Ideal) v0 v2 v16 v19 v23 (ix2 p (0 : Fin 1))) := by
  unfold k0_pay8
  dsimp only
  rw [rowSum4000_apply]
  refine Finset.sum_congr rfl fun a _ => ?_
  rw [mulf_apply, subf_apply, broadcastTo_a1_ab_apply]

/-- The normalisation, scale, shift and clamp over any row values, row means and row sums of squares, at `(p, q)`. -/
theorem k0_pay1_apply (v26 : FVec Ideal S4000x128 .f32) (v30 : FVec Ideal S4000x1 .f32) (v34 : FVec Ideal S4000 .f32)
    (v45 v49 : Vec Ideal S128 .f32) (p : Fin 4000) (q : Fin 128) :
    k0_pay1 (F := Ideal) v26 v30 v34 v45 v49 (ix2 p q)
      = max (((v26 (ix2 p q) - v30 (ix2 p (0 : Fin 1)))
            * Ideal.rsqrt (Ideal.div (v34 (ix1 p)) Cert.Spec.c128 + Cert.Spec.eps)) * v45 (ix1 q) + v49 (ix1 q)) 0 := by
  unfold k0_pay1
  simp only [maximumf_apply, addf_apply, mulf_apply, subf_apply, divf_apply, rsqrt_apply, broadcast_apply,
    broadcastTo_a1_ab_apply, broadcastTo_1b_ab_apply, shapeCast_a_1a_apply, shapeCast_a_a1_apply]
  simp only [Ideal.ofBits_def, Ideal.ofBits_zero_f32]

/-- Body 0's second output at `(p, q)`: the layer normalisation, scaled, shifted and clamped, of row `p` of
    `x · w₁ + y · w₂ + b`. -/
theorem k0_pay1_lnRelu (v0 : Vec Ideal S4000x128 .f32) (v2 : Vec Ideal S4000x64 .f32) (v16 : Vec Ideal S128x128 .bf16)
    (v19 : Vec Ideal S64x128 .bf16) (v23 v45 v49 : Vec Ideal S128 .f32) (p : Fin 4000) (q : Fin 128) :
    k0_pay1 (F := Ideal) (k0_pay6 v0 v2 v16 v19 v23) (k0_pay7 v0 v2 v16 v19 v23) (k0_pay8 v0 v2 v16 v19 v23) v45 v49 (ix2 p q)
      = Cert.Spec.lnRelu (fun j => ((∑ k : Fin 128, v0 (ix2 p k) * v16 (ix2 k j)) + (∑ k : Fin 64, v2 (ix2 p k) * v19 (ix2 k j))) + v23 (ix1 j))
          (fun j => v45 (ix1 j)) (fun j => v49 (ix1 j)) q := by
  rw [k0_pay1_apply, k0_pay8_apply, k0_pay7_apply]
  simp only [k0_pay6_apply]
  rfl

/-- Body 1 at `(p, q)`: a linear layer on a block of 8000 rows of 64 entries. -/
theorem k1_pay1_apply (v0 : Vec Ideal S8000x64 .f32) (v2 : Vec Ideal S64x128 .bf16) (v5 : Vec Ideal S128 .f32)
    (p : Fin 8000) (q : Fin 128) :
    k1_pay1 (F := Ideal) v0 v2 v5 (ix2 p q) = (∑ k : Fin 64, v0 (ix2 p k) * v2 (ix2 k q)) + v5 (ix1 q) := by
  unfold k1_pay1
  rw [addf_apply, shapeCast_self v2, shapeCast_self v5, matmul_8000x64x128_apply, broadcastTo_1b_ab_apply,
    shapeCast_a_1a_apply]
  rfl

end Cert.KerSide

end
-- ==== Proof.KiValue1.lean ====
/-
  What the second pallas call leaves in its output array, index by index on the extended reals: entry `(r, q)` of the
  `[1600000,128]` array is `(∑ k, x[r,k] · w[k,q]) + b[q]` of the arrays the region is entered with. Row `r` is written
  by grid point `r / 8000`, whose block of 8000 rows starts at row `8000 · (r / 8000)`; the 200 blocks tile the array.
-/
import proofs.«120052_j19413252177999_2_alg».proof.Proof.KiRegion1
import proofs.«120052_j19413252177999_2_alg».proof.Proof.KerPay
import Idealize.ShloMosaic.Lib.Pipeline.Value

set_option maxRecDepth 16384

noncomputable section

open scoped BigOperators

namespace Cert.KernelIdeal.HandValue

open Cert.KernelIdeal Cert.KernelIdeal.Gen Cert.KernelIdeal.Hand Cert.KerSide
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The linear layer of the edge rows, entry by entry. -/
abbrev edgeG (x : S1600000x64.Idx → Elt Ideal .f32) (w : S64x128.Idx → Elt Ideal .bf16) (b : S128.Idx → Elt Ideal .f32) :
    S1600000x128.Idx → Elt Ideal .f32 :=
  fun i => (∑ k : Fin 64, x (ix2 (i 0) k) * w (ix2 k (i 1))) + b (ix1 (i 1))

/-- The index maps over the grid: the row block moves with the point, the parameter windows stay at block 0. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- One entry of a block of the linear layer, from what the body's loaded blocks hold of the arrays. -/
theorem edge_entry (X : S1600000x64.Idx → Elt Ideal .f32) (W : S64x128.Idx → Elt Ideal .bf16) (B : S128.Idx → Elt Ideal .f32)
    (x0 : Vec Ideal S8000x64 .f32) (x1 : Vec Ideal S64x128 .bf16) (x2 : Vec Ideal S128 .f32)
    (r : Fin 1600000) (p : Fin 8000) (q : Fin 128)
    (h0 : ∀ k : Fin 64, x0 (ix2 p k) = X (ix2 r k)) (h1 : ∀ k : Fin 64, x1 (ix2 k q) = W (ix2 k q))
    (h2 : x2 (ix1 q) = B (ix1 q)) :
    k1_pay1 (F := Ideal) x0 x1 x2 (ix2 p q) = edgeG X W B (ix2 r q) := by
  show _ = (∑ k : Fin 64, X (ix2 r k) * W (ix2 k q)) + B (ix1 q)
  rw [k1_pay1_apply]
  simp only [h0, h1, h2]

/-- What point `t` writes back is block `t` of the linear layer of the arrays as the region finds them. -/
theorem flushed1_3_eq (c : Dev nD) (t : Fin cfg1.N) :
    (data1 V c).flushed 3 t = ((cfg1.win 3).blk t).view.read (Elt Ideal)
      (edgeG (V c main_arg3) (V c main_v13) (V c main_v15)) := by
  show (cfg1.win 3).cut (grid1.coords t) ((data1 V c).after 3 t) = _
  rw [after1_3]
  unfold edgeBlock
  rw [View.canon_unit_zero hz2]
  simp only [View.ld_unit_zero (S := S8000x64) hz2, View.ld_unit_zero (S := S64x128) hz2, View.ld_unit_zero (S := S128) hz1]
  funext j
  obtain ⟨e00, e01, e10, e11, e20, e30, e31⟩ := idx_facts1 t
  have hN : t.val < 200 := lt_of_lt_of_eq t.isLt N_1
  obtain ⟨p, q, rfl⟩ : ∃ (p : Fin 8000) (q : Fin 128), j = ix2 p q := ⟨j 0, j 1, eq_ix2 (n0 := 8000) (n1 := 128) j⟩
  have hr : t.val * 8000 + p.val < 1600000 := by have := p.isLt; omega
  have h3 : ((cfg1.win 3).blk t).view.emb (ix2 p q) = (ix2 (⟨t.val * 8000 + p.val, hr⟩ : Fin 1600000) q : S1600000x128.Idx) := by
    funext a; apply Fin.ext
    match a with
    | ⟨0, _⟩ => show win1_3.index t (0 : Fin 2) * 8000 + 1 * p.val = t.val * 8000 + p.val; omega
    | ⟨1, _⟩ => show win1_3.index t (1 : Fin 2) * 128 + 1 * q.val = q.val; omega
  have h0 : ∀ k : Fin 64, ((cfg1.win 0).blk t).view.emb (ix2 p k) = (ix2 (⟨t.val * 8000 + p.val, hr⟩ : Fin 1600000) k : S1600000x64.Idx) := fun k => by
    funext a; apply Fin.ext
    match a with
    | ⟨0, _⟩ => show win1_0.index t (0 : Fin 2) * 8000 + 1 * p.val = t.val * 8000 + p.val; omega
    | ⟨1, _⟩ => show win1_0.index t (1 : Fin 2) * 64 + 1 * k.val = k.val; omega
  have h1 : ∀ k : Fin 64, ((cfg1.win 1).blk t).view.emb (ix2 k q) = (ix2 k q : S64x128.Idx) := fun k => by
    funext a; apply Fin.ext
    match a with
    | ⟨0, _⟩ => show win1_1.index t (0 : Fin 2) * 64 + 1 * k.val = k.val; omega
    | ⟨1, _⟩ => show win1_1.index t (1 : Fin 2) * 128 + 1 * q.val = q.val; omega
  have h2 : ((cfg1.win 2).blk t).view.emb (ix1 q) = (ix1 q : S128.Idx) := by
    funext a; apply Fin.ext
    match a with
    | ⟨0, _⟩ => show win1_2.index t (0 : Fin 1) * 128 + 1 * q.val = q.val; omega
  show k1_pay1 (F := Ideal) (blockAt1 V c 0 t) (blockAt1 V c 1 t) (blockAt1 V c 2 t) (ix2 p q)
      = edgeG (V c main_arg3) (V c main_v13) (V c main_v15) (((cfg1.win 3).blk t).view.emb (ix2 p q))
  rw [h3]
  exact edge_entry (V c main_arg3) (V c main_v13) (V c main_v15) _ _ _ _ p q
    (fun k => congrArg (V c main_arg3) (h0 k)) (fun k => congrArg (V c main_v13) (h1 k)) (congrArg (V c main_v15) h2)

/-- An index of the array is in point `t`'s block iff each coordinate is in the block's range on its axis. -/
theorem mem_blk1_3 (t : Fin cfg1.N) (i : S1600000x128.Idx) :
    i ∈ ((cfg1.win 3).blk t).view.set ↔ ∀ a : Fin 2, win1_3.index t a * S8000x128.size a ≤ (i a).val
      ∧ (i a).val < win1_3.index t a * S8000x128.size a + S8000x128.size a := by
  show i ∈ ((View.whole main_v17).slice (win1_3.rect t)).set ↔ _
  rw [View.set_slice_whole, Rect.mem_set_unit]
  exact Iff.rfl

/-- Every index of the array is in the block of the point its row falls in: row `r` in that of point `r / 8000`. -/
theorem cover1_3 (i : S1600000x128.Idx) :
    ∃ t : Fin cfg1.N, (cfg1.win 3).flush t = true ∧ i ∈ ((cfg1.win 3).blk t).view.set := by
  have hi0 : (i 0).val < 1600000 := (i 0).isLt
  have hi1 : (i 1).val < 128 := (i 1).isLt
  have ht : (i 0).val / 8000 < cfg1.N := lt_of_lt_of_eq (by omega : (i 0).val / 8000 < 200) N_1.symm
  obtain ⟨-, -, -, -, -, e30, e31⟩ := idx_facts1 ⟨(i 0).val / 8000, ht⟩
  refine ⟨⟨(i 0).val / 8000, ht⟩, flush1_3 _, ?_⟩
  rw [mem_blk1_3]
  intro a
  match a with
  | ⟨0, _⟩ =>
    show win1_3.index ⟨(i 0).val / 8000, ht⟩ (0 : Fin 2) * 8000 ≤ (i 0).val
      ∧ (i 0).val < win1_3.index ⟨(i 0).val / 8000, ht⟩ (0 : Fin 2) * 8000 + 8000
    rw [e30]
    show (i 0).val / 8000 * 8000 ≤ (i 0).val ∧ (i 0).val < (i 0).val / 8000 * 8000 + 8000
    omega
  | ⟨1, _⟩ =>
    show win1_3.index ⟨(i 0).val / 8000, ht⟩ (1 : Fin 2) * 128 ≤ (i 1).val
      ∧ (i 1).val < win1_3.index ⟨(i 0).val / 8000, ht⟩ (1 : Fin 2) * 128 + 128
    omega

/-- THE OUTPUT ARRAY after the region: the linear layer of the arrays the region is entered with, entry by entry. -/
theorem final1_3 (c : Dev nD) :
    (data1 V c).arrAt 3 cfg1.N = edgeG (V c main_arg3) (V c main_v13) (V c main_v15) :=
  (data1 V c).arrAt_eq_of_cover 3 _ (fun t _ => flushed1_3_eq V c t) cover1_3

end Cert.KernelIdeal.HandValue

end
-- ==== Proof.KiFinalA.lean ====
/-
  What the kernel program's two kernel calls leave, read back to the launch contents: the integer edge lists are
  untouched, and the second call's output array is the edge projection with the literal `0.3` folded into its
  parameters, `(∑ k, e_comment[r,k] · (W_ecom[k,q] · c03)) + b_ecom[q] · c03`.
  Neither call and no host operation before them writes an argument array, and the second call's inputs are no array
  of the first, so each is read back through the fold of buffer contents to the launch memory.
-/
import proofs.«120052_j19413252177999_2_alg».proof.Proof.KiPrefix
import proofs.«120052_j19413252177999_2_alg».proof.Proof.KiValue1

set_option maxRecDepth 16384
set_option maxHeartbeats 2000000

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-! ## More launch contents as functions on the indices of their shapes -/

/-- `h_user` as launched. -/
abbrev A0 : S100000x128.Idx → EReal := m ((c : Thread nD τ).loc main_arg0)
/-- `user_ctx` as launched. -/
abbrev A2 : S100000x64.Idx → EReal := m ((c : Thread nD τ).loc main_arg2)
/-- `e_comment` as launched. -/
abbrev A3 : S1600000x64.Idx → EReal := m ((c : Thread nD τ).loc main_arg3)
/-- `b_conv`, `ln_g`, `ln_b` as launched. -/
abbrev A15 : S128.Idx → EReal := m ((c : Thread nD τ).loc main_arg15)
abbrev A16 : S128.Idx → EReal := m ((c : Thread nD τ).loc main_arg16)
abbrev A17 : S128.Idx → EReal := m ((c : Thread nD τ).loc main_arg17)

/-! ## The integer edge lists are as launched -/

/-- No operation of the first stretch writes the reference: closes `∀ op ∈ hostOps0, b ∉ op.writes`. -/
local macro "no_write0" : tactic => `(tactic| (
  refine List.forall_iff_forall_mem.mp ?_
  simp only [hostOps0, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.mem_singleton]
  repeat' apply And.intro
  all_goals exact StableHlo.devRef_ne_of_ne (by decide)))

theorem W3_main_arg4 : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) :=
        StableHlo.after_of_forall_not_mem (b := Proc.devRef .tc main_arg4) _ _ (by no_write0)
    _ = m ((c : Thread nD τ).loc main_arg4) := rfl

theorem W3_main_arg5 : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) :=
        StableHlo.after_of_forall_not_mem (b := Proc.devRef .tc main_arg5) _ _ (by no_write0)
    _ = m ((c : Thread nD τ).loc main_arg5) := rfl

theorem W3_main_arg6 : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) :=
        StableHlo.after_of_forall_not_mem (b := Proc.devRef .tc main_arg6) _ _ (by no_write0)
    _ = m ((c : Thread nD τ).loc main_arg6) := rfl

theorem W3_main_arg7 : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) :=
        StableHlo.after_of_forall_not_mem (b := Proc.devRef .tc main_arg7) _ _ (by no_write0)
    _ = m ((c : Thread nD τ).loc main_arg7) := rfl

theorem W3_main_arg8 : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) :=
        StableHlo.after_of_forall_not_mem (b := Proc.devRef .tc main_arg8) _ _ (by no_write0)
    _ = m ((c : Thread nD τ).loc main_arg8) := rfl

theorem W3_main_arg9 : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) :=
        StableHlo.after_of_forall_not_mem (b := Proc.devRef .tc main_arg9) _ _ (by no_write0)
    _ = m ((c : Thread nD τ).loc main_arg9) := rfl

/-! ## The second call's output array -/

/-- What the second kernel call is entered with, read back to the launch contents. -/
theorem V2_main_arg3 : V2 m ρ c main_arg3 = A3 m c :=
  (W2_of_ne m ρ c main_arg3 (by decide)).trans (V1_main_arg3 m ρ c)
theorem V2_main_v13_apply (k : Fin 64) (j : Fin 128) :
    (V2 m ρ c main_v13 : S64x128.Idx → EReal) (ix2 k j) = A18 m c (ix2 k j) * Cert.Spec.c03 :=
  (congrFun (W2_of_ne m ρ c main_v13 (by decide)) _).trans (V1_main_v13_apply m ρ c k j)
theorem V2_main_v15_apply (j : Fin 128) :
    (V2 m ρ c main_v15 : S128.Idx → EReal) (ix1 j) = A19 m c (ix1 j) * Cert.Spec.c03 :=
  (congrFun (W2_of_ne m ρ c main_v15 (by decide)) _).trans (V1_main_v15_apply m ρ c j)

/-- The edge layer at an entry depends only on the entries of its three arrays that it reads. -/
theorem edgeG_congr (X X' : S1600000x64.Idx → EReal) (W W' : S64x128.Idx → EReal) (B B' : S128.Idx → EReal)
    (q : S1600000x128.Idx) (hX : ∀ k : Fin 64, X (ix2 (q 0) k) = X' (ix2 (q 0) k))
    (hW : ∀ k : Fin 64, W (ix2 k (q 1)) = W' (ix2 k (q 1))) (hB : B (ix1 (q 1)) = B' (ix1 (q 1))) :
    edgeG X W B q = edgeG X' W' B' q := by
  show (∑ k : Fin 64, X (ix2 (q 0) k) * W (ix2 k (q 1))) + B (ix1 (q 1))
      = (∑ k : Fin 64, X' (ix2 (q 0) k) * W' (ix2 k (q 1))) + B' (ix1 (q 1))
  rw [hB]
  congr 1
  exact Finset.sum_congr rfl fun k _ => by rw [hX k, hW k]

/-- The second call's output: the edge projection with the literal folded into its parameters. -/
theorem W3_main_v17 :
    (W3 m ρ c (Proc.devRef .tc main_v17) : S1600000x128.Idx → EReal)
      = fun q => Cert.Spec.linScaled (A3 m c) (A18 m c) (A19 m c) Cert.Spec.c03 (q 0) (q 1) := by
  refine (W3_arr m ρ c 3).trans ((final1_3 (V2 m ρ) c).trans ?_)
  funext q
  refine (edgeG_congr _ (A3 m c) _ (fun i => A18 m c i * Cert.Spec.c03) _ (fun i => A19 m c i * Cert.Spec.c03) q
    (fun k => congrFun (V2_main_arg3 m ρ c) _) (fun k => V2_main_v13_apply m ρ c k (q 1))
    (V2_main_v15_apply m ρ c (q 1))).trans ?_
  rfl

end Cert.KernelIdeal.HandValue

end
-- ==== Proof.KiValue0.lean ====
/-
  What the first pallas call leaves in its three output arrays, index by index on the extended reals, as functions of the
  arrays the region is entered with: the two projections `(∑ k, x[r,k] · w[k,c]) + b[c]` at the columns `c = q` and
  `c = 128 + q` of the `[128,256]` parameter matrix, and the layer-normalised, scaled, shifted and clamped row of
  `x · w₁ + y · w₂ + b`. Row `r` is written by grid point `r / 4000`, whose block of 4000 rows starts at row
  `4000 · (r / 4000)`; the parameter windows always show the whole parameter array; the 25 blocks tile each output.
-/
import proofs.«120052_j19413252177999_2_alg».proof.Proof.KiRegion0
import proofs.«120052_j19413252177999_2_alg».proof.Proof.KerPay
import Idealize.ShloMosaic.Lib.Pipeline.Value

set_option maxRecDepth 16384

noncomputable section

open scoped BigOperators

namespace Cert.KernelIdeal.HandValue

open Cert.KernelIdeal Cert.KernelIdeal.Gen Cert.KernelIdeal.Hand Cert.KerSide
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

theorem hz0_2 : (![0, 0] : Fin 2 → Nat) = fun _ => 0 := funext fun a => by fin_cases a <;> rfl
theorem hz0_1 : (![0] : Fin 1 → Nat) = fun _ => 0 := funext fun a => by fin_cases a <;> rfl

/-! ## The three results, entry by entry -/

/-- The first projection at row `r`, column `q`. -/
abbrev pubAt (x : S100000x128.Idx → Elt Ideal .f32) (w : S128x256.Idx → Elt Ideal .bf16) (b : S256.Idx → Elt Ideal .f32)
    (r : Fin 100000) (q : Fin 128) : Elt Ideal .f32 :=
  (∑ k : Fin 128, x (ix2 r k) * w (ix2 k (Fin.castAdd 128 q))) + b (ix1 (Fin.castAdd 128 q))

/-- The second projection at row `r`, column `q`. -/
abbrev comAt (x : S100000x128.Idx → Elt Ideal .f32) (w : S128x256.Idx → Elt Ideal .bf16) (b : S256.Idx → Elt Ideal .f32)
    (r : Fin 100000) (q : Fin 128) : Elt Ideal .f32 :=
  (∑ k : Fin 128, x (ix2 r k) * w (ix2 k (Fin.natAdd 128 q))) + b (ix1 (Fin.natAdd 128 q))

/-- The normalised row at row `r`, column `q`. -/
abbrev convAt (x : S100000x128.Idx → Elt Ideal .f32) (y : S100000x64.Idx → Elt Ideal .f32) (w₁ : S128x128.Idx → Elt Ideal .bf16)
    (w₂ : S64x128.Idx → Elt Ideal .bf16) (b g be : S128.Idx → Elt Ideal .f32) (r : Fin 100000) (q : Fin 128) : Elt Ideal .f32 :=
  Cert.Spec.lnRelu
    (fun j => ((∑ k : Fin 128, x (ix2 r k) * w₁ (ix2 k j)) + (∑ k : Fin 64, y (ix2 r k) * w₂ (ix2 k j))) + b (ix1 j))
    (fun j => g (ix1 j)) (fun j => be (ix1 j)) q

abbrev pubG (x : S100000x128.Idx → Elt Ideal .f32) (w : S128x256.Idx → Elt Ideal .bf16) (b : S256.Idx → Elt Ideal .f32) :
    S100000x128.Idx → Elt Ideal .f32 := fun i => pubAt x w b (i 0) (i 1)
abbrev comG (x : S100000x128.Idx → Elt Ideal .f32) (w : S128x256.Idx → Elt Ideal .bf16) (b : S256.Idx → Elt Ideal .f32) :
    S100000x128.Idx → Elt Ideal .f32 := fun i => comAt x w b (i 0) (i 1)
abbrev convG (x : S100000x128.Idx → Elt Ideal .f32) (y : S100000x64.Idx → Elt Ideal .f32) (w₁ : S128x128.Idx → Elt Ideal .bf16)
    (w₂ : S64x128.Idx → Elt Ideal .bf16) (b g be : S128.Idx → Elt Ideal .f32) : S100000x128.Idx → Elt Ideal .f32 :=
  fun i => convAt x y w₁ w₂ b g be (i 0) (i 1)

/-! ## One entry of a block, from what the body's loaded blocks hold of the arrays -/

theorem pub_entry (X : S100000x128.Idx → Elt Ideal .f32) (W : S128x256.Idx → Elt Ideal .bf16) (B : S256.Idx → Elt Ideal .f32)
    (x0 : Vec Ideal S4000x128 .f32) (x2 : Vec Ideal S128x256 .bf16) (x3 : Vec Ideal S256 .f32)
    (r : Fin 100000) (p : Fin 4000) (q : Fin 128)
    (h0 : ∀ k : Fin 128, x0 (ix2 p k) = X (ix2 r k)) (h2 : ∀ i, x2 i = W i) (h3 : ∀ i, x3 i = B i) :
    k0_pay4 (F := Ideal) x0 x2 x3 (ix2 p q) = pubAt X W B r q := by
  rw [k0_pay4_apply]
  simp only [h0, h2, h3]

theorem com_entry (X : S100000x128.Idx → Elt Ideal .f32) (W : S128x256.Idx → Elt Ideal .bf16) (B : S256.Idx → Elt Ideal .f32)
    (x0 : Vec Ideal S4000x128 .f32) (x2 : Vec Ideal S128x256 .bf16) (x3 : Vec Ideal S256 .f32)
    (r : Fin 100000) (p : Fin 4000) (q : Fin 128)
    (h0 : ∀ k : Fin 128, x0 (ix2 p k) = X (ix2 r k)) (h2 : ∀ i, x2 i = W i) (h3 : ∀ i, x3 i = B i) :
    k0_pay5 (F := Ideal) x0 x2 x3 (ix2 p q) = comAt X W B r q := by
  rw [k0_pay5_apply]
  simp only [h0, h2, h3]

theorem conv_entry (X : S100000x128.Idx → Elt Ideal .f32) (Y : S100000x64.Idx → Elt Ideal .f32)
    (W₁ : S128x128.Idx → Elt Ideal .bf16) (W₂ : S64x128.Idx → Elt Ideal .bf16) (B G Be : S128.Idx → Elt Ideal .f32)
    (x0 : Vec Ideal S4000x128 .f32) (x1 : Vec Ideal S4000x64 .f32) (x4 : Vec Ideal S128x128 .bf16)
    (x5 : Vec Ideal S64x128 .bf16) (x6 x7 x8 : Vec Ideal S128 .f32) (r : Fin 100000) (p : Fin 4000) (q : Fin 128)
    (h0 : ∀ k : Fin 128, x0 (ix2 p k) = X (ix2 r k)) (h1 : ∀ k : Fin 64, x1 (ix2 p k) = Y (ix2 r k))
    (h4 : ∀ i, x4 i = W₁ i) (h5 : ∀ i, x5 i = W₂ i) (h6 : ∀ i, x6 i = B i) (h7 : ∀ i, x7 i = G i) (h8 : ∀ i, x8 i = Be i) :
    k0_pay1 (F := Ideal) (k0_pay6 x0 x1 x4 x5 x6) (k0_pay7 x0 x1 x4 x5 x6) (k0_pay8 x0 x1 x4 x5 x6) x7 x8 (ix2 p q)
      = convAt X Y W₁ W₂ B G Be r q := by
  rw [k0_pay1_lnRelu]
  simp only [h0, h1, h4, h5, h6, h7, h8]

/-! ## The index maps over the grid, and each window's block index inside its array -/

theorem idx_row0_0 : ∀ t : Fin cfg0.N, win0_0.index t (0 : Fin 2) = t.val ∧ win0_0.index t (1 : Fin 2) = 0 :=
  (by decide +kernel : ∀ t : Fin grid0.N, _)

theorem idx_row0_1 : ∀ t : Fin cfg0.N, win0_1.index t (0 : Fin 2) = t.val ∧ win0_1.index t (1 : Fin 2) = 0 :=
  (by decide +kernel : ∀ t : Fin grid0.N, _)

theorem idx_row0_9 : ∀ t : Fin cfg0.N, win0_9.index t (0 : Fin 2) = t.val ∧ win0_9.index t (1 : Fin 2) = 0 :=
  (by decide +kernel : ∀ t : Fin grid0.N, _)

theorem idx_row0_10 : ∀ t : Fin cfg0.N, win0_10.index t (0 : Fin 2) = t.val ∧ win0_10.index t (1 : Fin 2) = 0 :=
  (by decide +kernel : ∀ t : Fin grid0.N, _)

theorem idx_row0_11 : ∀ t : Fin cfg0.N, win0_11.index t (0 : Fin 2) = t.val ∧ win0_11.index t (1 : Fin 2) = 0 :=
  (by decide +kernel : ∀ t : Fin grid0.N, _)

theorem emb0_0 (t : Fin cfg0.N) (p : Fin 4000) (k : Fin 128) (hr : t.val * 4000 + p.val < 100000) :
    ((cfg0.win 0).blk t).view.emb (ix2 p k) = (ix2 (⟨t.val * 4000 + p.val, hr⟩ : Fin 100000) k : S100000x128.Idx) := by
  obtain ⟨e0, e1⟩ := idx_row0_0 t
  funext a; apply Fin.ext
  match a with
  | ⟨0, _⟩ => show win0_0.index t (0 : Fin 2) * 4000 + 1 * p.val = t.val * 4000 + p.val; omega
  | ⟨1, _⟩ => show win0_0.index t (1 : Fin 2) * 128 + 1 * k.val = k.val; omega

theorem emb0_1 (t : Fin cfg0.N) (p : Fin 4000) (k : Fin 64) (hr : t.val * 4000 + p.val < 100000) :
    ((cfg0.win 1).blk t).view.emb (ix2 p k) = (ix2 (⟨t.val * 4000 + p.val, hr⟩ : Fin 100000) k : S100000x64.Idx) := by
  obtain ⟨e0, e1⟩ := idx_row0_1 t
  funext a; apply Fin.ext
  match a with
  | ⟨0, _⟩ => show win0_1.index t (0 : Fin 2) * 4000 + 1 * p.val = t.val * 4000 + p.val; omega
  | ⟨1, _⟩ => show win0_1.index t (1 : Fin 2) * 64 + 1 * k.val = k.val; omega

theorem emb0_9 (t : Fin cfg0.N) (p : Fin 4000) (k : Fin 128) (hr : t.val * 4000 + p.val < 100000) :
    ((cfg0.win 9).blk t).view.emb (ix2 p k) = (ix2 (⟨t.val * 4000 + p.val, hr⟩ : Fin 100000) k : S100000x128.Idx) := by
  obtain ⟨e0, e1⟩ := idx_row0_9 t
  funext a; apply Fin.ext
  match a with
  | ⟨0, _⟩ => show win0_9.index t (0 : Fin 2) * 4000 + 1 * p.val = t.val * 4000 + p.val; omega
  | ⟨1, _⟩ => show win0_9.index t (1 : Fin 2) * 128 + 1 * k.val = k.val; omega

theorem emb0_10 (t : Fin cfg0.N) (p : Fin 4000) (k : Fin 128) (hr : t.val * 4000 + p.val < 100000) :
    ((cfg0.win 10).blk t).view.emb (ix2 p k) = (ix2 (⟨t.val * 4000 + p.val, hr⟩ : Fin 100000) k : S100000x128.Idx) := by
  obtain ⟨e0, e1⟩ := idx_row0_10 t
  funext a; apply Fin.ext
  match a with
  | ⟨0, _⟩ => show win0_10.index t (0 : Fin 2) * 4000 + 1 * p.val = t.val * 4000 + p.val; omega
  | ⟨1, _⟩ => show win0_10.index t (1 : Fin 2) * 128 + 1 * k.val = k.val; omega

theorem emb0_11 (t : Fin cfg0.N) (p : Fin 4000) (k : Fin 128) (hr : t.val * 4000 + p.val < 100000) :
    ((cfg0.win 11).blk t).view.emb (ix2 p k) = (ix2 (⟨t.val * 4000 + p.val, hr⟩ : Fin 100000) k : S100000x128.Idx) := by
  obtain ⟨e0, e1⟩ := idx_row0_11 t
  funext a; apply Fin.ext
  match a with
  | ⟨0, _⟩ => show win0_11.index t (0 : Fin 2) * 4000 + 1 * p.val = t.val * 4000 + p.val; omega
  | ⟨1, _⟩ => show win0_11.index t (1 : Fin 2) * 128 + 1 * k.val = k.val; omega

theorem idx_const0_2 : ∀ t : Fin cfg0.N, win0_2.index t (0 : Fin 2) = 0 ∧ win0_2.index t (1 : Fin 2) = 0 :=
  (by decide +kernel : ∀ t : Fin grid0.N, _)

theorem emb0_2 (t : Fin cfg0.N) (i : S128x256.Idx) : ((cfg0.win 2).blk t).view.emb i = i := by
  obtain ⟨e0, e1⟩ := idx_const0_2 t
  funext a; apply Fin.ext
  match a with
  | ⟨0, _⟩ => show win0_2.index t (0 : Fin 2) * 128 + 1 * (i 0).val = (i 0).val; omega
  | ⟨1, _⟩ => show win0_2.index t (1 : Fin 2) * 256 + 1 * (i 1).val = (i 1).val; omega

theorem idx_const0_3 : ∀ t : Fin cfg0.N, win0_3.index t (0 : Fin 1) = 0 :=
  (by decide +kernel : ∀ t : Fin grid0.N, _)

theorem emb0_3 (t : Fin cfg0.N) (i : S256.Idx) : ((cfg0.win 3).blk t).view.emb i = i := by
  have e0 := idx_const0_3 t
  funext a; apply Fin.ext
  match a with
  | ⟨0, _⟩ => show win0_3.index t (0 : Fin 1) * 256 + 1 * (i 0).val = (i 0).val; omega

theorem idx_const0_4 : ∀ t : Fin cfg0.N, win0_4.index t (0 : Fin 2) = 0 ∧ win0_4.index t (1 : Fin 2) = 0 :=
  (by decide +kernel : ∀ t : Fin grid0.N, _)

theorem emb0_4 (t : Fin cfg0.N) (i : S128x128.Idx) : ((cfg0.win 4).blk t).view.emb i = i := by
  obtain ⟨e0, e1⟩ := idx_const0_4 t
  funext a; apply Fin.ext
  match a with
  | ⟨0, _⟩ => show win0_4.index t (0 : Fin 2) * 128 + 1 * (i 0).val = (i 0).val; omega
  | ⟨1, _⟩ => show win0_4.index t (1 : Fin 2) * 128 + 1 * (i 1).val = (i 1).val; omega

theorem idx_const0_5 : ∀ t : Fin cfg0.N, win0_5.index t (0 : Fin 2) = 0 ∧ win0_5.index t (1 : Fin 2) = 0 :=
  (by decide +kernel : ∀ t : Fin grid0.N, _)

theorem emb0_5 (t : Fin cfg0.N) (i : S64x128.Idx) : ((cfg0.win 5).blk t).view.emb i = i := by
  obtain ⟨e0, e1⟩ := idx_const0_5 t
  funext a; apply Fin.ext
  match a with
  | ⟨0, _⟩ => show win0_5.index t (0 : Fin 2) * 64 + 1 * (i 0).val = (i 0).val; omega
  | ⟨1, _⟩ => show win0_5.index t (1 : Fin 2) * 128 + 1 * (i 1).val = (i 1).val; omega

theorem idx_const0_6 : ∀ t : Fin cfg0.N, win0_6.index t (0 : Fin 1) = 0 :=
  (by decide +kernel : ∀ t : Fin grid0.N, _)

theorem emb0_6 (t : Fin cfg0.N) (i : S128.Idx) : ((cfg0.win 6).blk t).view.emb i = i := by
  have e0 := idx_const0_6 t
  funext a; apply Fin.ext
  match a with
  | ⟨0, _⟩ => show win0_6.index t (0 : Fin 1) * 128 + 1 * (i 0).val = (i 0).val; omega

theorem idx_const0_7 : ∀ t : Fin cfg0.N, win0_7.index t (0 : Fin 1) = 0 :=
  (by decide +kernel : ∀ t : Fin grid0.N, _)

theorem emb0_7 (t : Fin cfg0.N) (i : S128.Idx) : ((cfg0.win 7).blk t).view.emb i = i := by
  have e0 := idx_const0_7 t
  funext a; apply Fin.ext
  match a with
  | ⟨0, _⟩ => show win0_7.index t (0 : Fin 1) * 128 + 1 * (i 0).val = (i 0).val; omega

theorem idx_const0_8 : ∀ t : Fin cfg0.N, win0_8.index t (0 : Fin 1) = 0 :=
  (by decide +kernel : ∀ t : Fin grid0.N, _)

theorem emb0_8 (t : Fin cfg0.N) (i : S128.Idx) : ((cfg0.win 8).blk t).view.emb i = i := by
  have e0 := idx_const0_8 t
  funext a; apply Fin.ext
  match a with
  | ⟨0, _⟩ => show win0_8.index t (0 : Fin 1) * 128 + 1 * (i 0).val = (i 0).val; omega

/-! ## What each point writes back -/

/-- What point `t` writes back to the first result is block `t` of it as a function of the arrays the region finds. -/
theorem flushed0_9_eq (c : Dev nD) (t : Fin cfg0.N) :
    (data0 V c).flushed 9 t = ((cfg0.win 9).blk t).view.read (Elt Ideal)
      (pubG (V c main_arg0) (V c main_v3) (V c main_v6)) := by
  show (cfg0.win 9).cut (grid0.coords t) ((data0 V c).after 9 t) = _
  rw [after0_9]
  unfold pubBlock
  rw [View.canon_unit_zero hz0_2]
  simp only [View.ld_unit_zero (S := S4000x128) hz0_2, View.ld_unit_zero (S := S128x256) hz0_2,
    View.ld_unit_zero (S := S256) hz0_1]
  funext j
  have hN : t.val < 25 := lt_of_lt_of_eq t.isLt N_0
  obtain ⟨p, q, rfl⟩ : ∃ (p : Fin 4000) (q : Fin 128), j = ix2 p q := ⟨j 0, j 1, eq_ix2 (n0 := 4000) (n1 := 128) j⟩
  have hr : t.val * 4000 + p.val < 100000 := by have := p.isLt; omega
  show k0_pay4 (F := Ideal) (blockAt0 V c 0 t) (blockAt0 V c 2 t) (blockAt0 V c 3 t) (ix2 p q)
      = pubG (V c main_arg0) (V c main_v3) (V c main_v6) (((cfg0.win 9).blk t).view.emb (ix2 p q))
  rw [emb0_9 t p q hr]
  exact pub_entry (V c main_arg0) (V c main_v3) (V c main_v6) _ _ _ _ p q
    (fun k => congrArg (V c main_arg0) (emb0_0 t p k hr)) (fun i => congrArg (V c main_v3) (emb0_2 t i))
    (fun i => congrArg (V c main_v6) (emb0_3 t i))

/-- What point `t` writes back to the second result is block `t` of it as a function of the arrays the region finds. -/
theorem flushed0_10_eq (c : Dev nD) (t : Fin cfg0.N) :
    (data0 V c).flushed 10 t = ((cfg0.win 10).blk t).view.read (Elt Ideal)
      (comG (V c main_arg0) (V c main_v3) (V c main_v6)) := by
  show (cfg0.win 10).cut (grid0.coords t) ((data0 V c).after 10 t) = _
  rw [after0_10]
  unfold comBlock
  rw [View.canon_unit_zero hz0_2]
  simp only [View.ld_unit_zero (S := S4000x128) hz0_2, View.ld_unit_zero (S := S128x256) hz0_2,
    View.ld_unit_zero (S := S256) hz0_1]
  funext j
  have hN : t.val < 25 := lt_of_lt_of_eq t.isLt N_0
  obtain ⟨p, q, rfl⟩ : ∃ (p : Fin 4000) (q : Fin 128), j = ix2 p q := ⟨j 0, j 1, eq_ix2 (n0 := 4000) (n1 := 128) j⟩
  have hr : t.val * 4000 + p.val < 100000 := by have := p.isLt; omega
  show k0_pay5 (F := Ideal) (blockAt0 V c 0 t) (blockAt0 V c 2 t) (blockAt0 V c 3 t) (ix2 p q)
      = comG (V c main_arg0) (V c main_v3) (V c main_v6) (((cfg0.win 10).blk t).view.emb (ix2 p q))
  rw [emb0_10 t p q hr]
  exact com_entry (V c main_arg0) (V c main_v3) (V c main_v6) _ _ _ _ p q
    (fun k => congrArg (V c main_arg0) (emb0_0 t p k hr)) (fun i => congrArg (V c main_v3) (emb0_2 t i))
    (fun i => congrArg (V c main_v6) (emb0_3 t i))

/-- What point `t` writes back to the third result is block `t` of it as a function of the arrays the region finds. -/
theorem flushed0_11_eq (c : Dev nD) (t : Fin cfg0.N) :
    (data0 V c).flushed 11 t = ((cfg0.win 11).blk t).view.read (Elt Ideal)
      (convG (V c main_arg0) (V c main_arg2) (V c main_v8) (V c main_v10) (V c main_arg15) (V c main_arg16) (V c main_arg17)) := by
  show (cfg0.win 11).cut (grid0.coords t) ((data0 V c).after 11 t) = _
  rw [after0_11]
  unfold convBlock
  rw [View.canon_unit_zero hz0_2]
  simp only [View.ld_unit_zero (S := S4000x128) hz0_2, View.ld_unit_zero (S := S4000x64) hz0_2,
    View.ld_unit_zero (S := S128x128) hz0_2, View.ld_unit_zero (S := S64x128) hz0_2, View.ld_unit_zero (S := S128) hz0_1]
  funext j
  have hN : t.val < 25 := lt_of_lt_of_eq t.isLt N_0
  obtain ⟨p, q, rfl⟩ : ∃ (p : Fin 4000) (q : Fin 128), j = ix2 p q := ⟨j 0, j 1, eq_ix2 (n0 := 4000) (n1 := 128) j⟩
  have hr : t.val * 4000 + p.val < 100000 := by have := p.isLt; omega
  show k0_pay1 (F := Ideal)
        (k0_pay6 (blockAt0 V c 0 t) (blockAt0 V c 1 t) (blockAt0 V c 4 t) (blockAt0 V c 5 t) (blockAt0 V c 6 t))
        (k0_pay7 (blockAt0 V c 0 t) (blockAt0 V c 1 t) (blockAt0 V c 4 t) (blockAt0 V c 5 t) (blockAt0 V c 6 t))
        (k0_pay8 (blockAt0 V c 0 t) (blockAt0 V c 1 t) (blockAt0 V c 4 t) (blockAt0 V c 5 t) (blockAt0 V c 6 t))
        (blockAt0 V c 7 t) (blockAt0 V c 8 t) (ix2 p q)
      = convG (V c main_arg0) (V c main_arg2) (V c main_v8) (V c main_v10) (V c main_arg15) (V c main_arg16) (V c main_arg17)
          (((cfg0.win 11).blk t).view.emb (ix2 p q))
  rw [emb0_11 t p q hr]
  exact conv_entry (V c main_arg0) (V c main_arg2) (V c main_v8) (V c main_v10) (V c main_arg15) (V c main_arg16)
    (V c main_arg17) _ _ _ _ _ _ _ _ p q
    (fun k => congrArg (V c main_arg0) (emb0_0 t p k hr)) (fun k => congrArg (V c main_arg2) (emb0_1 t p k hr))
    (fun i => congrArg (V c main_v8) (emb0_4 t i)) (fun i => congrArg (V c main_v10) (emb0_5 t i))
    (fun i => congrArg (V c main_arg15) (emb0_6 t i)) (fun i => congrArg (V c main_arg16) (emb0_7 t i))
    (fun i => congrArg (V c main_arg17) (emb0_8 t i))

/-! ## The blocks tile each output array -/

/-- An index of the array is in point `t`'s block iff each coordinate is in the block's range on its axis. -/
theorem mem_blk0_9 (t : Fin cfg0.N) (i : S100000x128.Idx) :
    i ∈ ((cfg0.win 9).blk t).view.set ↔ ∀ a : Fin 2, win0_9.index t a * S4000x128.size a ≤ (i a).val
      ∧ (i a).val < win0_9.index t a * S4000x128.size a + S4000x128.size a := by
  show i ∈ ((View.whole main_v16_0).slice (win0_9.rect t)).set ↔ _
  rw [View.set_slice_whole, Rect.mem_set_unit]
  exact Iff.rfl

/-- Every index of the array is in the block of the point its row falls in: row `r` in that of point `r / 4000`. -/
theorem cover0_9 (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  have ht : (i 0).val / 4000 < cfg0.N := lt_of_lt_of_eq (by omega : (i 0).val / 4000 < 25) N_0.symm
  obtain ⟨e0, e1⟩ := idx_row0_9 ⟨(i 0).val / 4000, ht⟩
  refine ⟨⟨(i 0).val / 4000, ht⟩, flush0_9 _, ?_⟩
  rw [mem_blk0_9]
  intro a
  match a with
  | ⟨0, _⟩ =>
    show win0_9.index ⟨(i 0).val / 4000, ht⟩ (0 : Fin 2) * 4000 ≤ (i 0).val
      ∧ (i 0).val < win0_9.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win0_9.index ⟨(i 0).val / 4000, ht⟩ (1 : Fin 2) * 128 ≤ (i 1).val
      ∧ (i 1).val < win0_9.index ⟨(i 0).val / 4000, ht⟩ (1 : Fin 2) * 128 + 128
    omega

/-- An index of the array is in point `t`'s block iff each coordinate is in the block's range on its axis. -/
theorem mem_blk0_10 (t : Fin cfg0.N) (i : S100000x128.Idx) :
    i ∈ ((cfg0.win 10).blk t).view.set ↔ ∀ a : Fin 2, win0_10.index t a * S4000x128.size a ≤ (i a).val
      ∧ (i a).val < win0_10.index t a * S4000x128.size a + S4000x128.size a := by
  show i ∈ ((View.whole main_v16_1).slice (win0_10.rect t)).set ↔ _
  rw [View.set_slice_whole, Rect.mem_set_unit]
  exact Iff.rfl

/-- Every index of the array is in the block of the point its row falls in: row `r` in that of point `r / 4000`. -/
theorem cover0_10 (i : S100000x128.Idx) :
    ∃ t : Fin cfg0.N, (cfg0.win 10).flush t = true ∧ i ∈ ((cfg0.win 10).blk t).view.set := by
  have hi0 : (i 0).val < 100000 := (i 0).isLt
  have hi1 : (i 1).val < 128 := (i 1).isLt
  have ht : (i 0).val / 4000 < cfg0.N := lt_of_lt_of_eq (by omega : (i 0).val / 4000 < 25) N_0.symm
  obtain ⟨e0, e1⟩ := idx_row0_10 ⟨(i 0).val / 4000, ht⟩
  refine ⟨⟨(i 0).val / 4000, ht⟩, flush0_10 _, ?_⟩
  rw [mem_blk0_10]
  intro a
  match a with
  | ⟨0, _⟩ =>
    show win0_10.index ⟨(i 0).val / 4000, ht⟩ (0 : Fin 2) * 4000 ≤ (i 0).val
      ∧ (i 0).val < win0_10.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win0_10.index ⟨(i 0).val / 4000, ht⟩ (1 : Fin 2) * 128 ≤ (i 1).val
      ∧ (i 1).val < win0_10.index ⟨(i 0).val / 4000, ht⟩ (1 : Fin 2) * 128 + 128
    omega

/-- An index of the array is in point `t`'s block iff each coordinate is in the block's range on its axis. -/
theorem mem_blk0_11 (t : Fin cfg0.N) (i : S100000x128.Idx) :
    i ∈ ((cfg0.win 11).blk t).view.set ↔ ∀ a : Fin 2, win0_11.index t a * S4000x128.size a ≤ (i a).val
      ∧ (i a).val < win0_11.index t a * S4000x128.size a + S4000x128.size a := by
  show i ∈ ((View.whole main_v16_2).slice (win0_11.rect t)).set ↔ _
  rw [View.set_slice_whole, Rect.mem_set_unit]
  exact Iff.rfl

/-- Every index of the array is in the block of the point its row falls in: row `r` in that of point `r / 4000`. -/
theorem cover0_11 (i : S100000x128.Idx) :
    ∃ t : Fin cfg0.N, (cfg0.win 11).flush t = true ∧ i ∈ ((cfg0.win 11).blk t).view.set := by
  have hi0 : (i 0).val < 100000 := (i 0).isLt
  have hi1 : (i 1).val < 128 := (i 1).isLt
  have ht : (i 0).val / 4000 < cfg0.N := lt_of_lt_of_eq (by omega : (i 0).val / 4000 < 25) N_0.symm
  obtain ⟨e0, e1⟩ := idx_row0_11 ⟨(i 0).val / 4000, ht⟩
  refine ⟨⟨(i 0).val / 4000, ht⟩, flush0_11 _, ?_⟩
  rw [mem_blk0_11]
  intro a
  match a with
  | ⟨0, _⟩ =>
    show win0_11.index ⟨(i 0).val / 4000, ht⟩ (0 : Fin 2) * 4000 ≤ (i 0).val
      ∧ (i 0).val < win0_11.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win0_11.index ⟨(i 0).val / 4000, ht⟩ (1 : Fin 2) * 128 ≤ (i 1).val
      ∧ (i 1).val < win0_11.index ⟨(i 0).val / 4000, ht⟩ (1 : Fin 2) * 128 + 128
    omega

/-! ## The three output arrays after the region -/

/-- The first result: the projection on columns `0…127` of the parameter matrix. -/
theorem final0_9 (c : Dev nD) :
    (data0 V c).arrAt 9 cfg0.N = pubG (V c main_arg0) (V c main_v3) (V c main_v6) :=
  (data0 V c).arrAt_eq_of_cover 9 _ (fun t _ => flushed0_9_eq V c t) cover0_9

/-- The second result: the projection on columns `128…255` of the parameter matrix. -/
theorem final0_10 (c : Dev nD) :
    (data0 V c).arrAt 10 cfg0.N = comG (V c main_arg0) (V c main_v3) (V c main_v6) :=
  (data0 V c).arrAt_eq_of_cover 10 _ (fun t _ => flushed0_10_eq V c t) cover0_10

/-- The third result: the normalised rows. -/
theorem final0_11 (c : Dev nD) :
    (data0 V c).arrAt 11 cfg0.N = convG (V c main_arg0) (V c main_arg2) (V c main_v8) (V c main_v10) (V c main_arg15)
      (V c main_arg16) (V c main_arg17) :=
  (data0 V c).arrAt_eq_of_cover 11 _ (fun t _ => flushed0_11_eq V c t) cover0_11

end Cert.KernelIdeal.HandValue

end
-- ==== Proof.LibScale.lean ====
/-
  Pure algebra on the extended reals: moving a nonnegative finite factor through a linear layer, and splitting
  a sum over a concatenated row.

  * For `0 ≤ c` and `c ≠ ⊤`, multiplication by `c` on the right distributes over a finite sum:
    `(∑ k, f k) * c = ∑ k, f k * c` (on the extended reals this fails for a general factor, since `⊤ + ⊥ = ⊥`).
  * Hence a linear layer whose parameters carry the factor is the layer times the factor:
    `linScaled x w b c u j = lin x w b u j * c`.
  * The literals `c07 = 11744051 · 2⁻²⁴` and `c03 = 10066330 · 2⁻²⁵` are nonnegative and finite.
  * A sum over the 192 = 128 + 64 entries of a concatenated row is the sum over the first 128 plus the sum over
    the last 64: `linCat = linSplit`.
-/
import Mathlib.Data.EReal.Operations
import Mathlib.Algebra.BigOperators.Fin
import proofs.«120052_j19413252177999_2_alg».proof.Proof.Spec

noncomputable section

open scoped BigOperators

namespace Cert.LibScale

open Idealize.ShloMosaic Idealize.ShloMosaic.ValueIdx

/-- A nonnegative finite factor on the right distributes over a finite sum. -/
theorem sum_mul_const {ι : Type*} (s : Finset ι) (f : ι → EReal) {c : EReal} (h0 : 0 ≤ c) (ht : c ≠ ⊤) :
    (∑ k ∈ s, f k) * c = ∑ k ∈ s, f k * c := by
  classical
  induction s using Finset.induction_on with
  | empty => simp
  | insert a s ha ih =>
    rw [Finset.sum_insert ha, Finset.sum_insert ha, EReal.right_distrib_of_nonneg_of_ne_top h0 ht, ih]

/-- The same over `Fin K`. -/
theorem fin_sum_mul_const {K : Nat} (f : Fin K → EReal) {c : EReal} (h0 : 0 ≤ c) (ht : c ≠ ⊤) :
    (∑ k : Fin K, f k) * c = ∑ k : Fin K, f k * c :=
  sum_mul_const Finset.univ f h0 ht

/-- The layer with the factor folded into its parameters is the layer times the factor. -/
theorem linScaled_eq {n K M : Nat} (x : Cert.Spec.Mat n K) (w : Cert.Spec.Mat K M) (b : Cert.Spec.Vct M) {c : EReal}
    (h0 : 0 ≤ c) (ht : c ≠ ⊤) (u : Fin n) (j : Fin M) :
    Cert.Spec.linScaled x w b c u j = Cert.Spec.lin x w b u j * c := by
  unfold Cert.Spec.linScaled Cert.Spec.lin
  rw [EReal.right_distrib_of_nonneg_of_ne_top h0 ht, fin_sum_mul_const _ h0 ht]
  congr 1
  exact Finset.sum_congr rfl fun k _ => (mul_assoc _ _ _).symm

/-- The literal `0.7` at its binary value. -/
theorem c07_eq : Cert.Spec.c07 = ((11744051 * (2 : ℝ) ^ (-24 : ℤ) : ℝ) : EReal) := by
  simp [Ideal.ofBits, Ideal.ieee, -EReal.coe_mul]

/-- The literal `0.3` at its binary value. -/
theorem c03_eq : Cert.Spec.c03 = ((10066330 * (2 : ℝ) ^ (-25 : ℤ) : ℝ) : EReal) := by
  simp [Ideal.ofBits, Ideal.ieee, -EReal.coe_mul]

/-- `c07` is nonnegative and finite. -/
theorem c07_nonneg_ne_top : 0 ≤ Cert.Spec.c07 ∧ Cert.Spec.c07 ≠ ⊤ := by
  rw [c07_eq]
  exact ⟨EReal.coe_nonneg.mpr (by positivity), EReal.coe_ne_top _⟩

/-- `c03` is nonnegative and finite. -/
theorem c03_nonneg_ne_top : 0 ≤ Cert.Spec.c03 ∧ Cert.Spec.c03 ≠ ⊤ := by
  rw [c03_eq]
  exact ⟨EReal.coe_nonneg.mpr (by positivity), EReal.coe_ne_top _⟩

/-- The product over the concatenated row splits at entry 128. -/
theorem linCat_eq_linSplit {n : Nat} (x : Cert.Spec.Mat n 128) (y : Cert.Spec.Mat n 64) (w : Cert.Spec.Mat 192 128)
    (b : Cert.Spec.Vct 128) (u : Fin n) (j : Fin 128) :
    Cert.Spec.linCat x y w b u j = Cert.Spec.linSplit x y w b u j := by
  unfold Cert.Spec.linCat Cert.Spec.linSplit
  congr 1
  refine (Fin.sum_univ_add (a := 128) (b := 64) (fun k : Fin (128 + 64) =>
    (Fin.addCases (fun a : Fin 128 => x (ix2 u a)) (fun a : Fin 64 => y (ix2 u a)) k) * w (ix2 k j))).trans ?_
  simp only [Fin.addCases_left, Fin.addCases_right]

end Cert.LibScale

end
-- ==== Proof.RefStages.lean ====
/-
  Three linear layers of the reference, entry by entry.

  Each of the reference's arrays `x · w + b` (a `dot_general` over the shared axis, plus the bias broadcast along
  the rows in two steps, `[128] → [1,128] → [rows,128]`) is, at the entry `(u, j)`,
  `(∑ k, x[u,k] · w[k,j]) + b[j]`: the specification's `lin x w b u j`.
  The three instances: `h_user · W_pub + b_pub`, `h_user · W_com + b_com` (100000 rows, 128 terms) and
  `e_comment · W_ecom + b_ecom` (1600000 rows, 64 terms).
-/
import proofs.«120052_j19413252177999_2_alg».proof.Proof.Gen.ReferenceIdeal.Read
import proofs.«120052_j19413252177999_2_alg».proof.Proof.Spec

noncomputable section

open scoped BigOperators

namespace Cert.RefSide

open Cert.ReferenceIdeal Cert.ReferenceIdeal.Gen Cert.ReferenceIdeal.Read
open Idealize.ShloMosaic Idealize.ShloMosaic.ValueIdx

/-- `h_user · W_pub + b_pub` at an entry. -/
theorem v3_apply (a0 : (⟨S100000x128, .f32⟩ : BufTy).Contents (Elt Ideal))
    (a10 : (⟨S128x128, .f32⟩ : BufTy).Contents (Elt Ideal)) (a11 : (⟨S128, .f32⟩ : BufTy).Contents (Elt Ideal))
    (p : S100000x128.Idx) :
    val_main_v3 (F := Ideal) a0 a10 a11 p = Cert.Spec.lin a0 a10 a11 (p 0) (p 1) := by
  rw [val_main_v3_apply, val_main_v0_apply, val_main_v2_apply, val_main_v1_apply]
  have el : ∀ k : Fin 128, lidx_main_v0 p k = ix2 (p 0) k := fun k => by
    funext a; match a with | ⟨0, _⟩ => rfl | ⟨1, _⟩ => rfl
  have er : ∀ k : Fin 128, ridx_main_v0 p k = ix2 k (p 1) := fun k => by
    funext a; match a with | ⟨0, _⟩ => rfl | ⟨1, _⟩ => rfl
  have eb : idx_main_v1 (idx_main_v2 p) = ix1 (p 1) := by
    funext a; match a with | ⟨0, _⟩ => rfl
  simp only [el, er, eb, Ideal.addf_def]
  rfl

/-- The same as an equation of whole arrays. -/
theorem v3_eq (a0 : (⟨S100000x128, .f32⟩ : BufTy).Contents (Elt Ideal))
    (a10 : (⟨S128x128, .f32⟩ : BufTy).Contents (Elt Ideal)) (a11 : (⟨S128, .f32⟩ : BufTy).Contents (Elt Ideal)) :
    val_main_v3 (F := Ideal) a0 a10 a11 = fun p => Cert.Spec.lin a0 a10 a11 (p 0) (p 1) :=
  funext fun p => v3_apply a0 a10 a11 p

/-- `h_user · W_com + b_com` at an entry. -/
theorem v25_apply (a0 : (⟨S100000x128, .f32⟩ : BufTy).Contents (Elt Ideal))
    (a12 : (⟨S128x128, .f32⟩ : BufTy).Contents (Elt Ideal)) (a13 : (⟨S128, .f32⟩ : BufTy).Contents (Elt Ideal))
    (p : S100000x128.Idx) :
    val_main_v25 (F := Ideal) a0 a12 a13 p = Cert.Spec.lin a0 a12 a13 (p 0) (p 1) := by
  rw [val_main_v25_apply, val_main_v22_apply, val_main_v24_apply, val_main_v23_apply]
  have el : ∀ k : Fin 128, lidx_main_v22 p k = ix2 (p 0) k := fun k => by
    funext a; match a with | ⟨0, _⟩ => rfl | ⟨1, _⟩ => rfl
  have er : ∀ k : Fin 128, ridx_main_v22 p k = ix2 k (p 1) := fun k => by
    funext a; match a with | ⟨0, _⟩ => rfl | ⟨1, _⟩ => rfl
  have eb : idx_main_v23 (idx_main_v24 p) = ix1 (p 1) := by
    funext a; match a with | ⟨0, _⟩ => rfl
  simp only [el, er, eb, Ideal.addf_def]
  rfl

/-- The same as an equation of whole arrays. -/
theorem v25_eq (a0 : (⟨S100000x128, .f32⟩ : BufTy).Contents (Elt Ideal))
    (a12 : (⟨S128x128, .f32⟩ : BufTy).Contents (Elt Ideal)) (a13 : (⟨S128, .f32⟩ : BufTy).Contents (Elt Ideal)) :
    val_main_v25 (F := Ideal) a0 a12 a13 = fun p => Cert.Spec.lin a0 a12 a13 (p 0) (p 1) :=
  funext fun p => v25_apply a0 a12 a13 p

/-- `e_comment · W_ecom + b_ecom` at an entry. -/
theorem v29_apply (a3 : (⟨S1600000x64, .f32⟩ : BufTy).Contents (Elt Ideal))
    (a18 : (⟨S64x128, .f32⟩ : BufTy).Contents (Elt Ideal)) (a19 : (⟨S128, .f32⟩ : BufTy).Contents (Elt Ideal))
    (q : S1600000x128.Idx) :
    val_main_v29 (F := Ideal) a3 a18 a19 q = Cert.Spec.lin a3 a18 a19 (q 0) (q 1) := by
  rw [val_main_v29_apply, val_main_v26_apply, val_main_v28_apply, val_main_v27_apply]
  have el : ∀ k : Fin 64, lidx_main_v26 q k = ix2 (q 0) k := fun k => by
    funext a; match a with | ⟨0, _⟩ => rfl | ⟨1, _⟩ => rfl
  have er : ∀ k : Fin 64, ridx_main_v26 q k = ix2 k (q 1) := fun k => by
    funext a; match a with | ⟨0, _⟩ => rfl | ⟨1, _⟩ => rfl
  have eb : idx_main_v27 (idx_main_v28 q) = ix1 (q 1) := by
    funext a; match a with | ⟨0, _⟩ => rfl
  simp only [el, er, eb, Ideal.addf_def]
  rfl

/-- The same as an equation of whole arrays. -/
theorem v29_eq (a3 : (⟨S1600000x64, .f32⟩ : BufTy).Contents (Elt Ideal))
    (a18 : (⟨S64x128, .f32⟩ : BufTy).Contents (Elt Ideal)) (a19 : (⟨S128, .f32⟩ : BufTy).Contents (Elt Ideal)) :
    val_main_v29 (F := Ideal) a3 a18 a19 = fun q => Cert.Spec.lin a3 a18 a19 (q 0) (q 1) :=
  funext fun q => v29_apply a3 a18 a19 q

end Cert.RefSide

end
-- ==== Proof.KiFinal.lean ====
/-
  The two sides joined: what the kernel program's two kernel calls leave is what the reference computes.

  * The first call's first output, `(∑ k, h_user[r,k] · %3[k, q]) + %6[q]` over the first 128 columns of the prepared
    parameters, is `h_user · W_pub + b_pub`: the reference's first projection.
  * Its second output, over the last 128 columns (`W_com · c07`, `b_com · c07`), is the second projection with the
    literal folded into its parameters; the second call's output is the edge projection with `c03` folded in.
    The kernel program's comment message at edge `q` is the former at the gathered source row `p` plus the latter
    at `q`; the reference's is `(h_user · W_com + b_com)[p] · c07 + (e_comment · W_ecom + b_ecom)[q] · c03` at the
    same gathered row. The two agree because `c07` and `c03` are nonnegative and finite, so that multiplying by
    them distributes over the layer's sum.
-/
import proofs.«120052_j19413252177999_2_alg».proof.Proof.KiFinalA
import proofs.«120052_j19413252177999_2_alg».proof.Proof.KiValue0
import proofs.«120052_j19413252177999_2_alg».proof.Proof.Bridge
import proofs.«120052_j19413252177999_2_alg».proof.Proof.LibScale
import proofs.«120052_j19413252177999_2_alg».proof.Proof.RefStages

set_option maxRecDepth 16384
set_option maxHeartbeats 2000000

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem

/-- The first projection at an entry depends only on the entries it reads: the first 128 columns of the parameters. -/
theorem pubAt_eq (X X' : S100000x128.Idx → EReal) (W : S128x256.Idx → EReal) (W' : S128x128.Idx → EReal)
    (B : S256.Idx → EReal) (B' : S128.Idx → EReal) (r : Fin 100000) (q : Fin 128)
    (hX : ∀ k : Fin 128, X (ix2 r k) = X' (ix2 r k))
    (hW : ∀ k : Fin 128, W (ix2 k (Fin.castAdd 128 q)) = W' (ix2 k q))
    (hB : B (ix1 (Fin.castAdd 128 q)) = B' (ix1 q)) :
    pubAt X W B r q = Cert.Spec.lin X' W' B' r q := by
  show (∑ k : Fin 128, X (ix2 r k) * W (ix2 k (Fin.castAdd 128 q))) + B (ix1 (Fin.castAdd 128 q))
      = (∑ k : Fin 128, X' (ix2 r k) * W' (ix2 k q)) + B' (ix1 q)
  rw [hB]
  congr 1
  exact Finset.sum_congr rfl fun k _ => by rw [hX k, hW k]

/-- The second projection at an entry: the last 128 columns, which carry a factor. -/
theorem comAt_eq (X X' : S100000x128.Idx → EReal) (W : S128x256.Idx → EReal) (W' : S128x128.Idx → EReal)
    (B : S256.Idx → EReal) (B' : S128.Idx → EReal) (f : EReal) (r : Fin 100000) (q : Fin 128)
    (hX : ∀ k : Fin 128, X (ix2 r k) = X' (ix2 r k))
    (hW : ∀ k : Fin 128, W (ix2 k (Fin.natAdd 128 q)) = W' (ix2 k q) * f)
    (hB : B (ix1 (Fin.natAdd 128 q)) = B' (ix1 q) * f) :
    comAt X W B r q = Cert.Spec.linScaled X' W' B' f r q := by
  show (∑ k : Fin 128, X (ix2 r k) * W (ix2 k (Fin.natAdd 128 q))) + B (ix1 (Fin.natAdd 128 q))
      = (∑ k : Fin 128, X' (ix2 r k) * (W' (ix2 k q) * f)) + B' (ix1 q) * f
  rw [hB]
  congr 1
  exact Finset.sum_congr rfl fun k _ => by rw [hX k, hW k]

variable (m : (ℓ : Loc nD τ sig) → Buf (Elt Ideal) ℓ) (ρ : Dev nD → PrngReg) (c : Dev nD)

/-- The first call's first output is the first projection of the launch contents. -/
theorem W3_main_v16_0 :
    (W3 m ρ c (Proc.devRef .tc main_v16_0) : S100000x128.Idx → EReal)
      = fun p => Cert.Spec.lin (A0 m c) (A10 m c) (A11 m c) (p 0) (p 1) := by
  refine (W3_of_ne m ρ c main_v16_0 (by decide)).trans ((W2_arr m ρ c 9).trans ((final0_9 (V1 m ρ) c).trans ?_))
  funext p
  exact pubAt_eq _ (A0 m c) _ (A10 m c) _ (A11 m c) (p 0) (p 1)
    (fun k => congrFun (V1_main_arg0 m ρ c) _) (fun k => V1_main_v3_left m ρ c k (p 1)) (V1_main_v6_left m ρ c (p 1))

/-- The first call's second output is the second projection with the literal folded into its parameters. -/
theorem W3_main_v16_1 :
    (W3 m ρ c (Proc.devRef .tc main_v16_1) : S100000x128.Idx → EReal)
      = fun p => Cert.Spec.linScaled (A0 m c) (A12 m c) (A13 m c) Cert.Spec.c07 (p 0) (p 1) := by
  refine (W3_of_ne m ρ c main_v16_1 (by decide)).trans ((W2_arr m ρ c 10).trans ((final0_10 (V1 m ρ) c).trans ?_))
  funext p
  exact comAt_eq _ (A0 m c) _ (A12 m c) _ (A13 m c) Cert.Spec.c07 (p 0) (p 1)
    (fun k => congrFun (V1_main_arg0 m ρ c) _) (fun k => V1_main_v3_right m ρ c k (p 1)) (V1_main_v6_right m ρ c (p 1))

/-- THE FIRST PROJECTION: the kernel program's array is the reference's. -/
theorem pub_joined :
    (W3 m ρ c (Proc.devRef .tc main_v16_0) : S100000x128.Idx → EReal)
      = Cert.ReferenceIdeal.Read.val_main_v3 (F := Ideal) (m ((c : Thread nD τ).loc main_arg0))
          (m ((c : Thread nD τ).loc main_arg10)) (m ((c : Thread nD τ).loc main_arg11)) :=
  (W3_main_v16_0 m ρ c).trans (Cert.RefSide.v3_eq (A0 m c) (A10 m c) (A11 m c)).symm

/-- THE COMMENT MESSAGES: the gathered scaled projection plus the scaled edge projection is the reference's
    `gathered · c07 + edge · c03`. -/
theorem msg_joined :
    Cert.Bridge.kerMsg (W3 m ρ c (Proc.devRef .tc main_v16_1)) (W3 m ρ c (Proc.devRef .tc main_v17))
        (m ((c : Thread nD τ).loc main_arg6))
      = Cert.ReferenceIdeal.Read.val_main_v41 (F := Ideal) (m ((c : Thread nD τ).loc main_arg0))
          (m ((c : Thread nD τ).loc main_arg3)) (m ((c : Thread nD τ).loc main_arg6))
          (m ((c : Thread nD τ).loc main_arg12)) (m ((c : Thread nD τ).loc main_arg13))
          (m ((c : Thread nD τ).loc main_arg18)) (m ((c : Thread nD τ).loc main_arg19)) := by
  refine (congrArg₂ (fun a b => Cert.Bridge.kerMsg a b (m ((c : Thread nD τ).loc main_arg6)))
    (W3_main_v16_1 m ρ c) (W3_main_v17 m ρ c)).trans ?_
  funext q
  rw [Cert.ReferenceIdeal.Read.val_main_v41_apply, Cert.ReferenceIdeal.Read.val_main_v38_apply,
    Cert.ReferenceIdeal.Read.val_main_v40_apply, Cert.ReferenceIdeal.Read.val_main_v37_apply,
    Cert.ReferenceIdeal.Read.val_main_v39_apply, Cert.ReferenceIdeal.Read.val_main_cst_6_apply,
    Cert.ReferenceIdeal.Read.val_main_cst_7_apply, Cert.RefSide.v29_apply]
  unfold Cert.ReferenceIdeal.Read.val_main_v36
  show Cert.Spec.linScaled (A0 m c) (A12 m c) (A13 m c) Cert.Spec.c07 _ _
        + Cert.Spec.linScaled (A3 m c) (A18 m c) (A19 m c) Cert.Spec.c03 (q 0) (q 1)
      = Cert.ReferenceIdeal.Read.val_main_v25 (F := Ideal) (A0 m c) (A12 m c) (A13 m c) _ * Cert.Spec.c07
        + Cert.Spec.lin (A3 m c) (A18 m c) (A19 m c) (q 0) (q 1) * Cert.Spec.c03
  rw [Cert.RefSide.v25_apply]
  exact congrArg₂ (fun x y : EReal => x + y)
    (Cert.LibScale.linScaled_eq (A0 m c) (A12 m c) (A13 m c) Cert.LibScale.c07_nonneg_ne_top.1
      Cert.LibScale.c07_nonneg_ne_top.2 _ _)
    (Cert.LibScale.linScaled_eq (A3 m c) (A18 m c) (A19 m c) Cert.LibScale.c03_nonneg_ne_top.1
      Cert.LibScale.c03_nonneg_ne_top.2 _ _)

end Cert.KernelIdeal.HandValue

end
-- ==== Proof.RefStagesB.lean ====
/-
  The reference's convolution-aware layer before normalisation, entry by entry, and its row mean.

  * The concatenated row `[h_user | user_ctx]` at `(u, k)`, `k` among 192 = 128 + 64 positions, is `h_user[u, k]`
    for the first 128 positions and `user_ctx[u, k - 128]` for the last 64: `Fin.addCases` of the two rows.
  * `z = [h_user | user_ctx] · W_conv + b_conv` at `(u, j)` is the specification's `linCat`.
  * The row mean of `z` (a host sum from the zero literal, divided by the literal 128) is `mean128` of the row, and
    the centred entries `z[u, j] - mean` follow.
  Every lemma is stated at an index built from literal-size coordinates (`ix2 u j`); `v57_apply` restates the
  layer at an arbitrary index.
-/
import proofs.«120052_j19413252177999_2_alg».proof.Proof.Gen.ReferenceIdeal.Read
import proofs.«120052_j19413252177999_2_alg».proof.Proof.Spec

noncomputable section

open scoped BigOperators

namespace Cert.RefSide

open Cert.ReferenceIdeal Cert.ReferenceIdeal.Gen Cert.ReferenceIdeal.Read
open Idealize.ShloMosaic Idealize.ShloMosaic.ValueIdx

variable (a0 : (⟨S100000x128, .f32⟩ : BufTy).Contents (Elt Ideal))
  (a2 : (⟨S100000x64, .f32⟩ : BufTy).Contents (Elt Ideal))
  (a14 : (⟨S192x128, .f32⟩ : BufTy).Contents (Elt Ideal))
  (a15 : (⟨S128, .f32⟩ : BufTy).Contents (Elt Ideal))

/-- The concatenated row at `(u, k)`. -/
theorem v53_ix (u : Fin 100000) (k : Fin 192) :
    val_main_v53 (F := Ideal) a0 a2 (ix2 u k)
      = Fin.addCases (fun a : Fin 128 => a0 (ix2 u a)) (fun a : Fin 64 => a2 (ix2 u a)) k := by
  refine Fin.addCases (m := 128) (n := 64)
    (motive := fun k => val_main_v53 (F := Ideal) a0 a2 (ix2 u k)
      = Fin.addCases (fun a : Fin 128 => a0 (ix2 u a)) (fun a : Fin 64 => a2 (ix2 u a)) k)
    (fun a => ?_) (fun a => ?_) k
  · rw [Fin.addCases_left]
    unfold val_main_v53
    exact concatenate_pair_apply_left _ a0 a2 concatenates_S100000x128_S100000x64_S100000x192_d1
      (ix2 u (Fin.castAdd 64 a)) rfl (ix2 u a) (fun b => match b with | ⟨0, _⟩ => rfl | ⟨1, _⟩ => rfl)
  · rw [Fin.addCases_right]
    unfold val_main_v53
    exact concatenate_pair_apply_right _ a0 a2 concatenates_S100000x128_S100000x64_S100000x192_d1
      (ix2 u (Fin.natAdd 128 a)) rfl rfl (ix2 u a)
      (fun b => match b with | ⟨0, _⟩ => fun _ => rfl | ⟨1, _⟩ => fun h => absurd rfl h)
      (by show a.val + 128 = 128 + a.val; omega)

/-- `[h_user | user_ctx] · W_conv + b_conv` at `(u, j)`. -/
theorem v57_ix (u : Fin 100000) (j : Fin 128) :
    val_main_v57 (F := Ideal) a0 a2 a14 a15 (ix2 u j) = Cert.Spec.linCat a0 a2 a14 a15 u j := by
  rw [val_main_v57_apply, val_main_v54_apply, val_main_v56_apply, val_main_v55_apply]
  have el : ∀ k : Fin 192, lidx_main_v54 (ix2 u j) k = ix2 u k := fun k => by
    funext a; match a with | ⟨0, _⟩ => rfl | ⟨1, _⟩ => rfl
  have er : ∀ k : Fin 192, ridx_main_v54 (ix2 u j) k = ix2 k j := fun k => by
    funext a; match a with | ⟨0, _⟩ => rfl | ⟨1, _⟩ => rfl
  have eb : idx_main_v55 (idx_main_v56 (ix2 u j)) = ix1 j := by
    funext a; match a with | ⟨0, _⟩ => rfl
  simp only [el, er, eb, v53_ix, Ideal.addf_def]
  rfl

/-- The same at an arbitrary index. -/
theorem v57_apply (p : S100000x128.Idx) :
    val_main_v57 (F := Ideal) a0 a2 a14 a15 p = Cert.Spec.linCat a0 a2 a14 a15 (p 0) (p 1) :=
  (congrArg (val_main_v57 (F := Ideal) a0 a2 a14 a15) (eq_ix2 p)).trans (v57_ix a0 a2 a14 a15 (p 0) (p 1))

/-- The row mean of the layer: the host sum starts from the zero literal, and the divisor is the literal 128. -/
theorem v61_ix (u : Fin 100000) (z : Fin 1) :
    val_main_v61 (F := Ideal) a0 a2 a14 a15 (ix2 u z)
      = Cert.Spec.mean128 (fun j => Cert.Spec.linCat a0 a2 a14 a15 u j) := by
  rw [val_main_v61_apply, val_main_v59_apply, val_main_v58_apply, val_main_v60_apply, val_main_cst_13_apply,
    val_main_cst_12_apply]
  have e : ∀ k : Fin 128, idx_main_v58 (idx_main_v59 (ix2 u z)) k = ix2 u k := fun k => by
    funext a; match a with | ⟨0, _⟩ => rfl | ⟨1, _⟩ => rfl
  simp only [e, v57_ix, Ideal.hostDivf_def, Ideal.ofBits_def, Ideal.ofBits_zero_f32, zero_add]
  rfl

/-- The centred entry, as the variance's summand reads it. -/
theorem v63_ix (u : Fin 100000) (j : Fin 128) :
    val_main_v63 (F := Ideal) a0 a2 a14 a15 (ix2 u j)
      = Cert.Spec.linCat a0 a2 a14 a15 u j - Cert.Spec.mean128 (fun j => Cert.Spec.linCat a0 a2 a14 a15 u j) := by
  rw [val_main_v63_apply, val_main_v62_apply]
  have e : idx_main_v62 (ix2 u j) = ix2 u (⟨0, Nat.one_pos⟩ : Fin 1) := by
    funext a; match a with | ⟨0, _⟩ => rfl | ⟨1, _⟩ => rfl
  rw [e, v61_ix, v57_ix]
  rfl

/-- The centred entry, as the normalised value reads it. -/
theorem v70_ix (u : Fin 100000) (j : Fin 128) :
    val_main_v70 (F := Ideal) a0 a2 a14 a15 (ix2 u j)
      = Cert.Spec.linCat a0 a2 a14 a15 u j - Cert.Spec.mean128 (fun j => Cert.Spec.linCat a0 a2 a14 a15 u j) := by
  rw [val_main_v70_apply, val_main_v69_apply]
  have e : idx_main_v69 (ix2 u j) = ix2 u (⟨0, Nat.one_pos⟩ : Fin 1) := by
    funext a; match a with | ⟨0, _⟩ => rfl | ⟨1, _⟩ => rfl
  rw [e, v61_ix, v57_ix]
  rfl

end Cert.RefSide

end
-- ==== Proof.RefStagesC.lean ====
/-
  The reference's layer normalisation with its clamp at zero, entry by entry.

  With `r` the row `j ↦ z[u, j]` of `z = [h_user | user_ctx] · W_conv + b_conv` and `m` its mean:
  * the row's variance (the host sum of the squared centred entries from the zero literal, divided by the literal 128)
    is `mean128 (fun a => (r a - m) · (r a - m))`;
  * the result `max (((r j - m) · rsqrt (variance + eps)) · ln_g[j] + ln_b[j]) 0` is the specification's
    `lnRelu r ln_g ln_b j`.
-/
import proofs.«120052_j19413252177999_2_alg».proof.Proof.RefStagesB

noncomputable section

open scoped BigOperators

namespace Cert.RefSide

open Cert.ReferenceIdeal Cert.ReferenceIdeal.Gen Cert.ReferenceIdeal.Read
open Idealize.ShloMosaic Idealize.ShloMosaic.ValueIdx

variable (a0 : (⟨S100000x128, .f32⟩ : BufTy).Contents (Elt Ideal))
  (a2 : (⟨S100000x64, .f32⟩ : BufTy).Contents (Elt Ideal))
  (a14 : (⟨S192x128, .f32⟩ : BufTy).Contents (Elt Ideal))
  (a15 a16 a17 : (⟨S128, .f32⟩ : BufTy).Contents (Elt Ideal))

/-- The row's variance. -/
theorem v68_ix (u : Fin 100000) (z : Fin 1) :
    val_main_v68 (F := Ideal) a0 a2 a14 a15 (ix2 u z)
      = Cert.Spec.mean128 (fun a =>
          (Cert.Spec.linCat a0 a2 a14 a15 u a - Cert.Spec.mean128 (fun j => Cert.Spec.linCat a0 a2 a14 a15 u j))
            * (Cert.Spec.linCat a0 a2 a14 a15 u a - Cert.Spec.mean128 (fun j => Cert.Spec.linCat a0 a2 a14 a15 u j))) := by
  rw [val_main_v68_apply, val_main_v66_apply, val_main_v65_apply, val_main_v67_apply, val_main_cst_15_apply,
    val_main_cst_14_apply]
  have e : ∀ k : Fin 128, idx_main_v65 (idx_main_v66 (ix2 u z)) k = ix2 u k := fun k => by
    funext a; match a with | ⟨0, _⟩ => rfl | ⟨1, _⟩ => rfl
  simp only [e, val_main_v64_apply, v63_ix, Ideal.mulf_def, Ideal.hostDivf_def, Ideal.ofBits_def,
    Ideal.ofBits_zero_f32, zero_add]
  rfl

/-- The normalised, scaled, shifted and clamped entry at `(u, j)`. -/
theorem v82_ix (u : Fin 100000) (j : Fin 128) :
    val_main_v82 (F := Ideal) a0 a2 a14 a15 a16 a17 (ix2 u j)
      = Cert.Spec.lnRelu (fun j => Cert.Spec.linCat a0 a2 a14 a15 u j) (fun j => a16 (ix1 j)) (fun j => a17 (ix1 j)) j := by
  rw [val_main_v82_apply, val_main_v81_apply, val_main_v78_apply, val_main_v75_apply, val_main_v74_apply,
    val_main_v73_apply, val_main_v72_apply, val_main_v71_apply, val_main_cst_16_apply, val_main_v77_apply,
    val_main_v76_apply, val_main_v80_apply, val_main_v79_apply, val_main_call0_v0_apply, val_main_call0_cst_apply]
  have e74 : idx_main_v74 (ix2 u j) = ix2 u (⟨0, Nat.one_pos⟩ : Fin 1) := by
    funext a; match a with | ⟨0, _⟩ => rfl | ⟨1, _⟩ => rfl
  have eg : idx_main_v76 (idx_main_v77 (ix2 u j)) = ix1 j := by
    funext a; match a with | ⟨0, _⟩ => rfl
  have eb : idx_main_v79 (idx_main_v80 (ix2 u j)) = ix1 j := by
    funext a; match a with | ⟨0, _⟩ => rfl
  rw [e74, eg, eb, v70_ix, v68_ix]
  simp only [Ideal.maximumf_def, Ideal.addf_def, Ideal.mulf_def, Ideal.hostUnary_rsqrt_def, Ideal.ofBits_def,
    Ideal.ofBits_zero_f32]
  rfl

/-- The same at an arbitrary index. -/
theorem v82_apply (p : S100000x128.Idx) :
    val_main_v82 (F := Ideal) a0 a2 a14 a15 a16 a17 p
      = Cert.Spec.lnRelu (fun j => Cert.Spec.linCat a0 a2 a14 a15 (p 0) j) (fun j => a16 (ix1 j))
          (fun j => a17 (ix1 j)) (p 1) :=
  (congrArg (val_main_v82 (F := Ideal) a0 a2 a14 a15 a16 a17) (eq_ix2 p)).trans
    (v82_ix a0 a2 a14 a15 a16 a17 (p 0) (p 1))

/-- The same as an equation of whole arrays. -/
theorem v82_eq :
    val_main_v82 (F := Ideal) a0 a2 a14 a15 a16 a17
      = fun p => Cert.Spec.lnRelu (fun j => Cert.Spec.linCat a0 a2 a14 a15 (p 0) j) (fun j => a16 (ix1 j))
          (fun j => a17 (ix1 j)) (p 1) :=
  funext fun p => v82_apply a0 a2 a14 a15 a16 a17 p

end Cert.RefSide

end
-- ==== Proof.KiFinalConv.lean ====
/-
  The third result of the first pallas call against the reference, as whole arrays on the extended reals: after both
  pallas calls the array holds, at `(r, q)`, the layer-normalised, scaled, shifted and clamped row `r` of
  `x · w[0:128] + y · w[128:192] + b`, which is the reference's normalisation of `[x | y] · w + b`: a sum over the 192
  entries of a concatenated row is the sum over its first 128 entries plus the sum over its last 64.
-/
import proofs.«120052_j19413252177999_2_alg».proof.Proof.KiRun
import proofs.«120052_j19413252177999_2_alg».proof.Proof.KiValue0
import proofs.«120052_j19413252177999_2_alg».proof.Proof.KiPrefix
import proofs.«120052_j19413252177999_2_alg».proof.Proof.RefStagesC
import proofs.«120052_j19413252177999_2_alg».proof.Proof.LibScale

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

/-- The kernel's normalised rows over the two row blocks of the `[192,128]` matrix are the reference's over the
    concatenated row. -/
theorem conv_eq_ref (a0 : S100000x128.Idx → Elt Ideal .f32) (a2 : S100000x64.Idx → Elt Ideal .f32)
    (a14 : S192x128.Idx → Elt Ideal .f32) (a15 a16 a17 : S128.Idx → Elt Ideal .f32)
    (w₁ : S128x128.Idx → Elt Ideal .bf16) (w₂ : S64x128.Idx → Elt Ideal .bf16)
    (h₁ : ∀ k j : Fin 128, w₁ (ix2 k j) = a14 (ix2 (Fin.castAdd 64 k) j))
    (h₂ : ∀ (k : Fin 64) (j : Fin 128), w₂ (ix2 k j) = a14 (ix2 (Fin.natAdd 128 k) j)) :
    convG a0 a2 w₁ w₂ a15 a16 a17 = Cert.ReferenceIdeal.Read.val_main_v82 (F := Ideal) a0 a2 a14 a15 a16 a17 := by
  funext i
  obtain ⟨u, q, rfl⟩ : ∃ (u : Fin 100000) (q : Fin 128), i = ix2 u q := ⟨i 0, i 1, eq_ix2 i⟩
  rw [Cert.RefSide.v82_ix]
  show Cert.Spec.lnRelu (fun j => ((∑ k : Fin 128, a0 (ix2 u k) * w₁ (ix2 k j))
      + (∑ k : Fin 64, a2 (ix2 u k) * w₂ (ix2 k j))) + a15 (ix1 j)) (fun j => a16 (ix1 j)) (fun j => a17 (ix1 j)) q = _
  congr 1
  funext j
  rw [Cert.LibScale.linCat_eq_linSplit]
  unfold Cert.Spec.linSplit
  simp only [h₁, h₂]

variable (m : (ℓ : Loc nD τ sig) → Buf (Elt Ideal) ℓ) (ρ : Dev nD → PrngReg)

/-- The third result after both pallas calls is the reference's normalised array of the launch arguments. -/
theorem conv_joined (c : Dev nD) :
    W3 m ρ c (Proc.devRef .tc main_v16_2)
      = Cert.ReferenceIdeal.Read.val_main_v82 (F := Ideal) (m ((c : Thread nD τ).loc main_arg0))
          (m ((c : Thread nD τ).loc main_arg2)) (m ((c : Thread nD τ).loc main_arg14))
          (m ((c : Thread nD τ).loc main_arg15)) (m ((c : Thread nD τ).loc main_arg16))
          (m ((c : Thread nD τ).loc main_arg17)) := by
  rw [W3_of_ne m ρ c main_v16_2 (by decide)]
  refine (W2_arr m ρ c 11).trans ?_
  rw [final0_11 (V1 m ρ) c, V1_main_arg0 m ρ c, V1_main_arg2 m ρ c, V1_main_arg15 m ρ c, V1_main_arg16 m ρ c,
    V1_main_arg17 m ρ c]
  exact conv_eq_ref _ _ (A14 m c) _ _ _ _ _ (V1_main_v8_apply m ρ c) (V1_main_v10_apply m ρ c)

end Cert.KernelIdeal.HandValue

end
-- ==== Proof.Algebraic.lean ====
/-
  The two idealized programs end with equal results. The kernel program's result buffer holds the closing operations'
  function `tail` of what its two pallas calls leave; the reference's holds `tail` of its own three arrays; and the
  three arrays agree: the published-post projection entry by entry, the comment messages because a linear layer with the
  factor folded into its parameters is the layer times the factor, the conversation output because the product over the
  concatenated row is the sum of the two partial products and the normalisation is the same function of a row.
-/
import proofs.«120052_j19413252177999_2_alg».proof.Defs
import proofs.«120052_j19413252177999_2_alg».proof.Proof.Gen.KernelIdeal
import proofs.«120052_j19413252177999_2_alg».proof.Proof.Gen.ReferenceIdeal
import proofs.«120052_j19413252177999_2_alg».proof.Proof.Gen.Pre_finite_inputs
import proofs.«120052_j19413252177999_2_alg».proof.Proof.Gen.ReferenceIdeal.Run
import proofs.«120052_j19413252177999_2_alg».proof.Proof.Gen.ReferenceIdeal.Read
import proofs.«120052_j19413252177999_2_alg».proof.Proof.KiRun
import proofs.«120052_j19413252177999_2_alg».proof.Proof.KiTail
import proofs.«120052_j19413252177999_2_alg».proof.Proof.KiFinal
import proofs.«120052_j19413252177999_2_alg».proof.Proof.KiFinalConv
import proofs.«120052_j19413252177999_2_alg».proof.Proof.Bridge

set_option maxRecDepth 16384

noncomputable section

namespace Cert.Proof.Alg

open Idealize.ShloMosaic Idealize.ShloMosaic.TcCoe Idealize.SL.Sem

/-- The kernel program's result buffer at the return: `tail` of the reference's three arrays of the same arguments. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Hand.W4 m ρ c (Proc.devRef .tc Cert.KernelIdeal.main_v76)
      = Cert.Bridge.tail (Cert.ReferenceIdeal.Read.val_main_v3 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)))
      (Cert.ReferenceIdeal.Read.val_main_v41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)))
      (Cert.ReferenceIdeal.Read.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  show StableHlo.after Cert.KernelIdeal.Gen.hostOps2 (Cert.KernelIdeal.Hand.W3 m ρ c) _ = _
  rw [Cert.KernelIdeal.HandTail.ker_tail,
    Cert.KernelIdeal.HandValue.W3_main_arg4 m ρ c, Cert.KernelIdeal.HandValue.W3_main_arg5 m ρ c,
    Cert.KernelIdeal.HandValue.W3_main_arg6 m ρ c, Cert.KernelIdeal.HandValue.W3_main_arg7 m ρ c,
    Cert.KernelIdeal.HandValue.W3_main_arg8 m ρ c, Cert.KernelIdeal.HandValue.W3_main_arg9 m ρ c,
    Cert.KernelIdeal.HandValue.pub_joined m ρ c, Cert.KernelIdeal.HandValue.msg_joined m ρ c,
    Cert.KernelIdeal.HandValue.conv_joined m ρ c]

/-- The reference's result at arguments equal to the kernel program's is `tail` of the three arrays of the latter. -/
theorem ref_side (x0 y0 : (⟨Cert.ReferenceIdeal.S100000x128, .f32⟩ : BufTy).Contents (Elt Ideal))
    (x2 y2 : (⟨Cert.ReferenceIdeal.S100000x64, .f32⟩ : BufTy).Contents (Elt Ideal))
    (x3 y3 : (⟨Cert.ReferenceIdeal.S1600000x64, .f32⟩ : BufTy).Contents (Elt Ideal))
    (x4 y4 : (⟨Cert.ReferenceIdeal.S100000, .i32⟩ : BufTy).Contents (Elt Ideal))
    (x5 y5 : (⟨Cert.ReferenceIdeal.S100000, .i32⟩ : BufTy).Contents (Elt Ideal))
    (x6 y6 : (⟨Cert.ReferenceIdeal.S1600000, .i32⟩ : BufTy).Contents (Elt Ideal))
    (x7 y7 : (⟨Cert.ReferenceIdeal.S1600000, .i32⟩ : BufTy).Contents (Elt Ideal))
    (x8 y8 : (⟨Cert.ReferenceIdeal.S1600000, .i32⟩ : BufTy).Contents (Elt Ideal))
    (x9 y9 : (⟨Cert.ReferenceIdeal.S1600000, .i32⟩ : BufTy).Contents (Elt Ideal))
    (x10 y10 : (⟨Cert.ReferenceIdeal.S128x128, .f32⟩ : BufTy).Contents (Elt Ideal))
    (x11 y11 : (⟨Cert.ReferenceIdeal.S128, .f32⟩ : BufTy).Contents (Elt Ideal))
    (x12 y12 : (⟨Cert.ReferenceIdeal.S128x128, .f32⟩ : BufTy).Contents (Elt Ideal))
    (x13 y13 : (⟨Cert.ReferenceIdeal.S128, .f32⟩ : BufTy).Contents (Elt Ideal))
    (x14 y14 : (⟨Cert.ReferenceIdeal.S192x128, .f32⟩ : BufTy).Contents (Elt Ideal))
    (x15 y15 : (⟨Cert.ReferenceIdeal.S128, .f32⟩ : BufTy).Contents (Elt Ideal))
    (x16 y16 : (⟨Cert.ReferenceIdeal.S128, .f32⟩ : BufTy).Contents (Elt Ideal))
    (x17 y17 : (⟨Cert.ReferenceIdeal.S128, .f32⟩ : BufTy).Contents (Elt Ideal))
    (x18 y18 : (⟨Cert.ReferenceIdeal.S64x128, .f32⟩ : BufTy).Contents (Elt Ideal))
    (x19 y19 : (⟨Cert.ReferenceIdeal.S128, .f32⟩ : BufTy).Contents (Elt Ideal))
    (h0 : x0 = y0) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) :
    Cert.ReferenceIdeal.Read.val_main_v104 (F := Ideal) x0 x2 x3 x4 x5 x6 x7 x8 x9 x10 x11 x12 x13 x14 x15 x16 x17 x18 x19
      = Cert.Bridge.tail (Cert.ReferenceIdeal.Read.val_main_v3 (F := Ideal) y0 y10 y11)
          (Cert.ReferenceIdeal.Read.val_main_v41 (F := Ideal) y0 y3 y6 y12 y13 y18 y19)
          (Cert.ReferenceIdeal.Read.val_main_v82 (F := Ideal) y0 y2 y14 y15 y16 y17) y4 y5 y7 y8 y9 := by
  subst h0 h2 h3 h4 h5 h6 h7 h8 h9 h10 h11 h12 h13 h14 h15 h16 h17 h18 h19
  exact Cert.Bridge.ref_tail _ _ _ _ _ _ _ _ _ _ _ _ _ _ _ _ _ _ _

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Bridge.tail (Cert.ReferenceIdeal.Read.val_main_v3 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)))
      (Cert.ReferenceIdeal.Read.val_main_v41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)))
      (Cert.ReferenceIdeal.Read.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ⟨?_, ?_, ?_, ?_, ?_, ?_, ?_, ?_, ?_, ?_, ?_, ?_, ?_, ?_, ?_, ?_, ?_, ?_, ?_, ?_, ?_⟩)
      (Cert.KernelIdeal.Hand.run_all (F := Ideal) m ρ)
    · exact (h c _ (Cert.KernelIdeal.Hand.mem_uc Cert.KernelIdeal.main_v76 (by decide))).trans (result_eq m ρ c)
    · exact (h c _ (Cert.KernelIdeal.Hand.mem_uc Cert.KernelIdeal.main_arg0 (by decide))).trans (Cert.KernelIdeal.Hand.W4_main_arg0 m ρ c)
    · exact (h c _ (Cert.KernelIdeal.Hand.mem_uc Cert.KernelIdeal.main_arg1 (by decide))).trans (Cert.KernelIdeal.Hand.W4_main_arg1 m ρ c)
    · exact (h c _ (Cert.KernelIdeal.Hand.mem_uc Cert.KernelIdeal.main_arg2 (by decide))).trans (Cert.KernelIdeal.Hand.W4_main_arg2 m ρ c)
    · exact (h c _ (Cert.KernelIdeal.Hand.mem_uc Cert.KernelIdeal.main_arg3 (by decide))).trans (Cert.KernelIdeal.Hand.W4_main_arg3 m ρ c)
    · exact (h c _ (Cert.KernelIdeal.Hand.mem_uc Cert.KernelIdeal.main_arg4 (by decide))).trans (Cert.KernelIdeal.Hand.W4_main_arg4 m ρ c)
    · exact (h c _ (Cert.KernelIdeal.Hand.mem_uc Cert.KernelIdeal.main_arg5 (by decide))).trans (Cert.KernelIdeal.Hand.W4_main_arg5 m ρ c)
    · exact (h c _ (Cert.KernelIdeal.Hand.mem_uc Cert.KernelIdeal.main_arg6 (by decide))).trans (Cert.KernelIdeal.Hand.W4_main_arg6 m ρ c)
    · exact (h c _ (Cert.KernelIdeal.Hand.mem_uc Cert.KernelIdeal.main_arg7 (by decide))).trans (Cert.KernelIdeal.Hand.W4_main_arg7 m ρ c)
    · exact (h c _ (Cert.KernelIdeal.Hand.mem_uc Cert.KernelIdeal.main_arg8 (by decide))).trans (Cert.KernelIdeal.Hand.W4_main_arg8 m ρ c)
    · exact (h c _ (Cert.KernelIdeal.Hand.mem_uc Cert.KernelIdeal.main_arg9 (by decide))).trans (Cert.KernelIdeal.Hand.W4_main_arg9 m ρ c)
    · exact (h c _ (Cert.KernelIdeal.Hand.mem_uc Cert.KernelIdeal.main_arg10 (by decide))).trans (Cert.KernelIdeal.Hand.W4_main_arg10 m ρ c)
    · exact (h c _ (Cert.KernelIdeal.Hand.mem_uc Cert.KernelIdeal.main_arg11 (by decide))).trans (Cert.KernelIdeal.Hand.W4_main_arg11 m ρ c)
    · exact (h c _ (Cert.KernelIdeal.Hand.mem_uc Cert.KernelIdeal.main_arg12 (by decide))).trans (Cert.KernelIdeal.Hand.W4_main_arg12 m ρ c)
    · exact (h c _ (Cert.KernelIdeal.Hand.mem_uc Cert.KernelIdeal.main_arg13 (by decide))).trans (Cert.KernelIdeal.Hand.W4_main_arg13 m ρ c)
    · exact (h c _ (Cert.KernelIdeal.Hand.mem_uc Cert.KernelIdeal.main_arg14 (by decide))).trans (Cert.KernelIdeal.Hand.W4_main_arg14 m ρ c)
    · exact (h c _ (Cert.KernelIdeal.Hand.mem_uc Cert.KernelIdeal.main_arg15 (by decide))).trans (Cert.KernelIdeal.Hand.W4_main_arg15 m ρ c)
    · exact (h c _ (Cert.KernelIdeal.Hand.mem_uc Cert.KernelIdeal.main_arg16 (by decide))).trans (Cert.KernelIdeal.Hand.W4_main_arg16 m ρ c)
    · exact (h c _ (Cert.KernelIdeal.Hand.mem_uc Cert.KernelIdeal.main_arg17 (by decide))).trans (Cert.KernelIdeal.Hand.W4_main_arg17 m ρ c)
    · exact (h c _ (Cert.KernelIdeal.Hand.mem_uc Cert.KernelIdeal.main_arg18 (by decide))).trans (Cert.KernelIdeal.Hand.W4_main_arg18 m ρ c)
    · exact (h c _ (Cert.KernelIdeal.Hand.mem_uc Cert.KernelIdeal.main_arg19 (by decide))).trans (Cert.KernelIdeal.Hand.W4_main_arg19 m ρ c)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19⟩ := hagree c
    exact (Cert.ReferenceIdeal.Read.val_main_v104_eq m' c).trans
      (ref_side _ _ _ _ _ _ _ _ _ _ _ _ _ _ _ _ _ _ _ _ _ _ _ _ _ _ _ _ _ _ _ _ _ _ _ _ _ _ e0 e2 e3 e4 e5 e6 e7 e8 e9 e10 e11 e12 e13 e14 e15 e16 e17 e18 e19)

end Cert.Proof.Alg

end
-- ==== Proof.lean ====
/-
  The certificate. Both printed forms of the kernel program — a stretch of host operations on the parameters, two pallas
  calls, a stretch of gathers and segment sums — run to the end without a fault and leave their argument arrays as
  launched (the run over its segments, each pallas call's body executed at a symbolic grid point); the reference does
  too (its run read back as a line of host operations). The idealization rewrote nothing. At the exact instance the two
  idealized programs end with equal results (Proof/Algebraic.lean).
-/
import proofs.«120052_j19413252177999_2_alg».proof.Defs
import proofs.«120052_j19413252177999_2_alg».proof.Proof.Gen.Kernel
import proofs.«120052_j19413252177999_2_alg».proof.Proof.Gen.KernelIdeal
import proofs.«120052_j19413252177999_2_alg».proof.Proof.Gen.ReferenceIdeal
import proofs.«120052_j19413252177999_2_alg».proof.Proof.Gen.Pre_finite_inputs
import proofs.«120052_j19413252177999_2_alg».proof.Proof.KbRun
import proofs.«120052_j19413252177999_2_alg».proof.Proof.KiRun
import proofs.«120052_j19413252177999_2_alg».proof.Proof.RefFrame
import proofs.«120052_j19413252177999_2_alg».proof.Proof.Algebraic

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  Cert.Proof.RefFrame.frame_ri,
  trivial,
  Cert.Proof.Alg.algebraic⟩

end Cert.Proof

end
